-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22)) (m ((c.tc : Thread Cert.Kernel.nD Cert.Kernel.τ).loc Cert.Kernel.main_arg23)) (m ((c.tc : Thread Cert.Kernel.nD Cert.Kernel.τ).loc Cert.Kernel.main_arg24)) (m ((c.tc : Thread Cert.Kernel.nD Cert.Kernel.τ).loc Cert.Kernel.main_arg25)) (m ((c.tc : Thread Cert.Kernel.nD Cert.Kernel.τ).loc Cert.Kernel.main_arg26)) (m ((c.tc : Thread Cert.Kernel.nD Cert.Kernel.τ).loc Cert.Kernel.main_arg27)) (m ((c.tc : Thread Cert.Kernel.nD Cert.Kernel.τ).loc Cert.Kernel.main_arg28)) (m ((c.tc : Thread Cert.Kernel.nD Cert.Kernel.τ).loc Cert.Kernel.main_arg29)) (m ((c.tc : Thread Cert.Kernel.nD Cert.Kernel.τ).loc Cert.Kernel.main_arg30))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22)) (m ((c.tc : Thread Cert.KernelIdeal.nD Cert.KernelIdeal.τ).loc Cert.KernelIdeal.main_arg23)) (m ((c.tc : Thread Cert.KernelIdeal.nD Cert.KernelIdeal.τ).loc Cert.KernelIdeal.main_arg24)) (m ((c.tc : Thread Cert.KernelIdeal.nD Cert.KernelIdeal.τ).loc Cert.KernelIdeal.main_arg25)) (m ((c.tc : Thread Cert.KernelIdeal.nD Cert.KernelIdeal.τ).loc Cert.KernelIdeal.main_arg26)) (m ((c.tc : Thread Cert.KernelIdeal.nD Cert.KernelIdeal.τ).loc Cert.KernelIdeal.main_arg27)) (m ((c.tc : Thread Cert.KernelIdeal.nD Cert.KernelIdeal.τ).loc Cert.KernelIdeal.main_arg28)) (m ((c.tc : Thread Cert.KernelIdeal.nD Cert.KernelIdeal.τ).loc Cert.KernelIdeal.main_arg29)) (m ((c.tc : Thread Cert.KernelIdeal.nD Cert.KernelIdeal.τ).loc Cert.KernelIdeal.main_arg30))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22)) (m ((c.tc : Thread Cert.ReferenceIdeal.nD Cert.ReferenceIdeal.τ).loc Cert.ReferenceIdeal.main_arg23)) (m ((c.tc : Thread Cert.ReferenceIdeal.nD Cert.ReferenceIdeal.τ).loc Cert.ReferenceIdeal.main_arg24)) (m ((c.tc : Thread Cert.ReferenceIdeal.nD Cert.ReferenceIdeal.τ).loc Cert.ReferenceIdeal.main_arg25)) (m ((c.tc : Thread Cert.ReferenceIdeal.nD Cert.ReferenceIdeal.τ).loc Cert.ReferenceIdeal.main_arg26)) (m ((c.tc : Thread Cert.ReferenceIdeal.nD Cert.ReferenceIdeal.τ).loc Cert.ReferenceIdeal.main_arg27)) (m ((c.tc : Thread Cert.ReferenceIdeal.nD Cert.ReferenceIdeal.τ).loc Cert.ReferenceIdeal.main_arg28)) (m ((c.tc : Thread Cert.ReferenceIdeal.nD Cert.ReferenceIdeal.τ).loc Cert.ReferenceIdeal.main_arg29)) (m ((c.tc : Thread Cert.ReferenceIdeal.nD Cert.ReferenceIdeal.τ).loc Cert.ReferenceIdeal.main_arg30))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22)
      ∧ r.2.mem ((c.tc : Thread Cert.Kernel.nD Cert.Kernel.τ).loc Cert.Kernel.main_arg23) = m ((c.tc : Thread Cert.Kernel.nD Cert.Kernel.τ).loc Cert.Kernel.main_arg23)
      ∧ r.2.mem ((c.tc : Thread Cert.Kernel.nD Cert.Kernel.τ).loc Cert.Kernel.main_arg24) = m ((c.tc : Thread Cert.Kernel.nD Cert.Kernel.τ).loc Cert.Kernel.main_arg24)
      ∧ r.2.mem ((c.tc : Thread Cert.Kernel.nD Cert.Kernel.τ).loc Cert.Kernel.main_arg25) = m ((c.tc : Thread Cert.Kernel.nD Cert.Kernel.τ).loc Cert.Kernel.main_arg25)
      ∧ r.2.mem ((c.tc : Thread Cert.Kernel.nD Cert.Kernel.τ).loc Cert.Kernel.main_arg26) = m ((c.tc : Thread Cert.Kernel.nD Cert.Kernel.τ).loc Cert.Kernel.main_arg26)
      ∧ r.2.mem ((c.tc : Thread Cert.Kernel.nD Cert.Kernel.τ).loc Cert.Kernel.main_arg27) = m ((c.tc : Thread Cert.Kernel.nD Cert.Kernel.τ).loc Cert.Kernel.main_arg27)
      ∧ r.2.mem ((c.tc : Thread Cert.Kernel.nD Cert.Kernel.τ).loc Cert.Kernel.main_arg28) = m ((c.tc : Thread Cert.Kernel.nD Cert.Kernel.τ).loc Cert.Kernel.main_arg28)
      ∧ r.2.mem ((c.tc : Thread Cert.Kernel.nD Cert.Kernel.τ).loc Cert.Kernel.main_arg29) = m ((c.tc : Thread Cert.Kernel.nD Cert.Kernel.τ).loc Cert.Kernel.main_arg29)
      ∧ r.2.mem ((c.tc : Thread Cert.Kernel.nD Cert.Kernel.τ).loc Cert.Kernel.main_arg30) = m ((c.tc : Thread Cert.Kernel.nD Cert.Kernel.τ).loc Cert.Kernel.main_arg30))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
      ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
      ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
      ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
      ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
      ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
      ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
      ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
      ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22)
      ∧ r.2.mem ((c.tc : Thread Cert.ReferenceIdeal.nD Cert.ReferenceIdeal.τ).loc Cert.ReferenceIdeal.main_arg23) = m ((c.tc : Thread Cert.ReferenceIdeal.nD Cert.ReferenceIdeal.τ).loc Cert.ReferenceIdeal.main_arg23)
      ∧ r.2.mem ((c.tc : Thread Cert.ReferenceIdeal.nD Cert.ReferenceIdeal.τ).loc Cert.ReferenceIdeal.main_arg24) = m ((c.tc : Thread Cert.ReferenceIdeal.nD Cert.ReferenceIdeal.τ).loc Cert.ReferenceIdeal.main_arg24)
      ∧ r.2.mem ((c.tc : Thread Cert.ReferenceIdeal.nD Cert.ReferenceIdeal.τ).loc Cert.ReferenceIdeal.main_arg25) = m ((c.tc : Thread Cert.ReferenceIdeal.nD Cert.ReferenceIdeal.τ).loc Cert.ReferenceIdeal.main_arg25)
      ∧ r.2.mem ((c.tc : Thread Cert.ReferenceIdeal.nD Cert.ReferenceIdeal.τ).loc Cert.ReferenceIdeal.main_arg26) = m ((c.tc : Thread Cert.ReferenceIdeal.nD Cert.ReferenceIdeal.τ).loc Cert.ReferenceIdeal.main_arg26)
      ∧ r.2.mem ((c.tc : Thread Cert.ReferenceIdeal.nD Cert.ReferenceIdeal.τ).loc Cert.ReferenceIdeal.main_arg27) = m ((c.tc : Thread Cert.ReferenceIdeal.nD Cert.ReferenceIdeal.τ).loc Cert.ReferenceIdeal.main_arg27)
      ∧ r.2.mem ((c.tc : Thread Cert.ReferenceIdeal.nD Cert.ReferenceIdeal.τ).loc Cert.ReferenceIdeal.main_arg28) = m ((c.tc : Thread Cert.ReferenceIdeal.nD Cert.ReferenceIdeal.τ).loc Cert.ReferenceIdeal.main_arg28)
      ∧ r.2.mem ((c.tc : Thread Cert.ReferenceIdeal.nD Cert.ReferenceIdeal.τ).loc Cert.ReferenceIdeal.main_arg29) = m ((c.tc : Thread Cert.ReferenceIdeal.nD Cert.ReferenceIdeal.τ).loc Cert.ReferenceIdeal.main_arg29)
      ∧ r.2.mem ((c.tc : Thread Cert.ReferenceIdeal.nD Cert.ReferenceIdeal.τ).loc Cert.ReferenceIdeal.main_arg30) = m ((c.tc : Thread Cert.ReferenceIdeal.nD Cert.ReferenceIdeal.τ).loc Cert.ReferenceIdeal.main_arg30))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)
      ∧ m' ((c.tc : Thread Cert.ReferenceIdeal.nD Cert.ReferenceIdeal.τ).loc Cert.ReferenceIdeal.main_arg23) = m ((c.tc : Thread Cert.KernelIdeal.nD Cert.KernelIdeal.τ).loc Cert.KernelIdeal.main_arg23)
      ∧ m' ((c.tc : Thread Cert.ReferenceIdeal.nD Cert.ReferenceIdeal.τ).loc Cert.ReferenceIdeal.main_arg24) = m ((c.tc : Thread Cert.KernelIdeal.nD Cert.KernelIdeal.τ).loc Cert.KernelIdeal.main_arg24)
      ∧ m' ((c.tc : Thread Cert.ReferenceIdeal.nD Cert.ReferenceIdeal.τ).loc Cert.ReferenceIdeal.main_arg25) = m ((c.tc : Thread Cert.KernelIdeal.nD Cert.KernelIdeal.τ).loc Cert.KernelIdeal.main_arg25)
      ∧ m' ((c.tc : Thread Cert.ReferenceIdeal.nD Cert.ReferenceIdeal.τ).loc Cert.ReferenceIdeal.main_arg26) = m ((c.tc : Thread Cert.KernelIdeal.nD Cert.KernelIdeal.τ).loc Cert.KernelIdeal.main_arg26)
      ∧ m' ((c.tc : Thread Cert.ReferenceIdeal.nD Cert.ReferenceIdeal.τ).loc Cert.ReferenceIdeal.main_arg27) = m ((c.tc : Thread Cert.KernelIdeal.nD Cert.KernelIdeal.τ).loc Cert.KernelIdeal.main_arg27)
      ∧ m' ((c.tc : Thread Cert.ReferenceIdeal.nD Cert.ReferenceIdeal.τ).loc Cert.ReferenceIdeal.main_arg28) = m ((c.tc : Thread Cert.KernelIdeal.nD Cert.KernelIdeal.τ).loc Cert.KernelIdeal.main_arg28)
      ∧ m' ((c.tc : Thread Cert.ReferenceIdeal.nD Cert.ReferenceIdeal.τ).loc Cert.ReferenceIdeal.main_arg29) = m ((c.tc : Thread Cert.KernelIdeal.nD Cert.KernelIdeal.τ).loc Cert.KernelIdeal.main_arg29)
      ∧ m' ((c.tc : Thread Cert.ReferenceIdeal.nD Cert.ReferenceIdeal.τ).loc Cert.ReferenceIdeal.main_arg30) = m ((c.tc : Thread Cert.KernelIdeal.nD Cert.KernelIdeal.τ).loc Cert.KernelIdeal.main_arg30)) →
    ∃ (v0 : (c : Dev Cert.KernelIdeal.nD) → Buf (Elt Ideal) ((c.tc : Thread Cert.KernelIdeal.nD Cert.KernelIdeal.τ).loc Cert.KernelIdeal.main_v90)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v90) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22)
          ∧ r.2.mem ((c.tc : Thread Cert.KernelIdeal.nD Cert.KernelIdeal.τ).loc Cert.KernelIdeal.main_arg23) = m ((c.tc : Thread Cert.KernelIdeal.nD Cert.KernelIdeal.τ).loc Cert.KernelIdeal.main_arg23)
          ∧ r.2.mem ((c.tc : Thread Cert.KernelIdeal.nD Cert.KernelIdeal.τ).loc Cert.KernelIdeal.main_arg24) = m ((c.tc : Thread Cert.KernelIdeal.nD Cert.KernelIdeal.τ).loc Cert.KernelIdeal.main_arg24)
          ∧ r.2.mem ((c.tc : Thread Cert.KernelIdeal.nD Cert.KernelIdeal.τ).loc Cert.KernelIdeal.main_arg25) = m ((c.tc : Thread Cert.KernelIdeal.nD Cert.KernelIdeal.τ).loc Cert.KernelIdeal.main_arg25)
          ∧ r.2.mem ((c.tc : Thread Cert.KernelIdeal.nD Cert.KernelIdeal.τ).loc Cert.KernelIdeal.main_arg26) = m ((c.tc : Thread Cert.KernelIdeal.nD Cert.KernelIdeal.τ).loc Cert.KernelIdeal.main_arg26)
          ∧ r.2.mem ((c.tc : Thread Cert.KernelIdeal.nD Cert.KernelIdeal.τ).loc Cert.KernelIdeal.main_arg27) = m ((c.tc : Thread Cert.KernelIdeal.nD Cert.KernelIdeal.τ).loc Cert.KernelIdeal.main_arg27)
          ∧ r.2.mem ((c.tc : Thread Cert.KernelIdeal.nD Cert.KernelIdeal.τ).loc Cert.KernelIdeal.main_arg28) = m ((c.tc : Thread Cert.KernelIdeal.nD Cert.KernelIdeal.τ).loc Cert.KernelIdeal.main_arg28)
          ∧ r.2.mem ((c.tc : Thread Cert.KernelIdeal.nD Cert.KernelIdeal.τ).loc Cert.KernelIdeal.main_arg29) = m ((c.tc : Thread Cert.KernelIdeal.nD Cert.KernelIdeal.τ).loc Cert.KernelIdeal.main_arg29)
          ∧ r.2.mem ((c.tc : Thread Cert.KernelIdeal.nD Cert.KernelIdeal.τ).loc Cert.KernelIdeal.main_arg30) = m ((c.tc : Thread Cert.KernelIdeal.nD Cert.KernelIdeal.τ).loc Cert.KernelIdeal.main_arg30))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v141) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22)
          ∧ r.2.mem ((c.tc : Thread Cert.ReferenceIdeal.nD Cert.ReferenceIdeal.τ).loc Cert.ReferenceIdeal.main_arg23) = m' ((c.tc : Thread Cert.ReferenceIdeal.nD Cert.ReferenceIdeal.τ).loc Cert.ReferenceIdeal.main_arg23)
          ∧ r.2.mem ((c.tc : Thread Cert.ReferenceIdeal.nD Cert.ReferenceIdeal.τ).loc Cert.ReferenceIdeal.main_arg24) = m' ((c.tc : Thread Cert.ReferenceIdeal.nD Cert.ReferenceIdeal.τ).loc Cert.ReferenceIdeal.main_arg24)
          ∧ r.2.mem ((c.tc : Thread Cert.ReferenceIdeal.nD Cert.ReferenceIdeal.τ).loc Cert.ReferenceIdeal.main_arg25) = m' ((c.tc : Thread Cert.ReferenceIdeal.nD Cert.ReferenceIdeal.τ).loc Cert.ReferenceIdeal.main_arg25)
          ∧ r.2.mem ((c.tc : Thread Cert.ReferenceIdeal.nD Cert.ReferenceIdeal.τ).loc Cert.ReferenceIdeal.main_arg26) = m' ((c.tc : Thread Cert.ReferenceIdeal.nD Cert.ReferenceIdeal.τ).loc Cert.ReferenceIdeal.main_arg26)
          ∧ r.2.mem ((c.tc : Thread Cert.ReferenceIdeal.nD Cert.ReferenceIdeal.τ).loc Cert.ReferenceIdeal.main_arg27) = m' ((c.tc : Thread Cert.ReferenceIdeal.nD Cert.ReferenceIdeal.τ).loc Cert.ReferenceIdeal.main_arg27)
          ∧ r.2.mem ((c.tc : Thread Cert.ReferenceIdeal.nD Cert.ReferenceIdeal.τ).loc Cert.ReferenceIdeal.main_arg28) = m' ((c.tc : Thread Cert.ReferenceIdeal.nD Cert.ReferenceIdeal.τ).loc Cert.ReferenceIdeal.main_arg28)
          ∧ r.2.mem ((c.tc : Thread Cert.ReferenceIdeal.nD Cert.ReferenceIdeal.τ).loc Cert.ReferenceIdeal.main_arg29) = m' ((c.tc : Thread Cert.ReferenceIdeal.nD Cert.ReferenceIdeal.τ).loc Cert.ReferenceIdeal.main_arg29)
          ∧ r.2.mem ((c.tc : Thread Cert.ReferenceIdeal.nD Cert.ReferenceIdeal.τ).loc Cert.ReferenceIdeal.main_arg30) = m' ((c.tc : Thread Cert.ReferenceIdeal.nD Cert.ReferenceIdeal.τ).loc Cert.ReferenceIdeal.main_arg30))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x6 : Shape := ⟨2, ![100000, 6]⟩
abbrev S2x1600000 : Shape := ⟨2, ![2, 1600000]⟩
abbrev S100000 : Shape := ⟨1, ![100000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S_ : Shape := ⟨0, ![]⟩

class Facts : Prop where
  bcast_S_S100000x6 : S_.BroadcastsInDim S100000x6 (![] : Fin 0 → Fin S100000x6.rank)
  reducesTo_S100000x6_S_d0_1 : S100000x6.ReducesTo [0, 1] S_
  h_S_ : 0 < S_.numel
  bcast_S_S6x32 : S_.BroadcastsInDim S6x32 (![] : Fin 0 → Fin S6x32.rank)
  reducesTo_S6x32_S_d0_1 : S6x32.ReducesTo [0, 1] S_
  bcast_S_S32 : S_.BroadcastsInDim S32 (![] : Fin 0 → Fin S32.rank)
  reducesTo_S32_S_d0 : S32.ReducesTo [0] S_
  bcast_S_S32x32 : S_.BroadcastsInDim S32x32 (![] : Fin 0 → Fin S32x32.rank)
  reducesTo_S32x32_S_d0_1 : S32x32.ReducesTo [0, 1] S_
  bcast_S_S32x16 : S_.BroadcastsInDim S32x16 (![] : Fin 0 → Fin S32x16.rank)
  reducesTo_S32x16_S_d0_1 : S32x16.ReducesTo [0, 1] S_
  bcast_S_S16 : S_.BroadcastsInDim S16 (![] : Fin 0 → Fin S16.rank)
  reducesTo_S16_S_d0 : S16.ReducesTo [0] S_
  bcast_S_S16x1 : S_.BroadcastsInDim S16x1 (![] : Fin 0 → Fin S16x1.rank)
  reducesTo_S16x1_S_d0_1 : S16x1.ReducesTo [0, 1] S_
  bcast_S_S1 : S_.BroadcastsInDim S1 (![] : Fin 0 → Fin S1.rank)
  reducesTo_S1_S_d0 : S1.ReducesTo [0] S_

variable [Facts]

def fn_part9 {F : FTy → Type} [FloatOps F] (main_arg26 : FVec F S32 .f32) (main_v151 : IVec S_ 1) (main_v152 : FVec F S32 .f32) : IVec S_ 1 :=
  let main_v153 : IVec S32 1 := cmpf .oge main_arg26 main_v152
  let main_c_61 : IVec S_ 1 := constantI S_ 1 1#1
  let main_v154 : IVec S_ 1 := (fun x v => Host.reduce IntOp.andi x v reducesTo_S32_S_d0 h_S_) main_v153 main_c_61
  let main_v155 : IVec S_ 1 := andi main_v151 main_v154
  main_v155

def fn_part8 {F : FTy → Type} [FloatOps F] (main_arg10 : FVec F S32 .f32) (main_arg18 : FVec F S32 .f32) (main_arg26 : FVec F S32 .f32) (main_arg30 : FVec F S1 .f32) (main_v133 : IVec S_ 1) (main_v136 : IVec S16x1 1) : IVec S_ 1 :=
  let main_c_53 : IVec S_ 1 := constantI S_ 1 1#1
  let main_v137 : IVec S_ 1 := (fun x v => Host.reduce IntOp.andi x v reducesTo_S16x1_S_d0_1 h_S_) main_v136 main_c_53
  let main_v138 : IVec S_ 1 := andi main_v133 main_v137
  let main_v139 : FVec F S1 .f32 := Host.absf main_arg30
  let main_cst_54 : FVec F S_ .f32 := constant S_ .f32 0x7F800000#32
  let main_v140 : FVec F S1 .f32 := broadcastInDim S1 ![] bcast_S_S1 main_cst_54
  let main_v141 : IVec S1 1 := cmpf .olt main_v139 main_v140
  let main_c_55 : IVec S_ 1 := constantI S_ 1 1#1
  let main_v142 : IVec S_ 1 := (fun x v => Host.reduce IntOp.andi x v reducesTo_S1_S_d0 h_S_) main_v141 main_c_55
  let main_v143 : IVec S_ 1 := andi main_v138 main_v142
  let main_cst_56 : FVec F S_ .f32 := constant S_ .f32 0x00000000#32
  let main_v144 : FVec F S32 .f32 := broadcastInDim S32 ![] bcast_S_S32 main_cst_56
  let main_v145 : IVec S32 1 := cmpf .oge main_arg10 main_v144
  let main_c_57 : IVec S_ 1 := constantI S_ 1 1#1
  let main_v146 : IVec S_ 1 := (fun x v => Host.reduce IntOp.andi x v reducesTo_S32_S_d0 h_S_) main_v145 main_c_57
  let main_v147 : IVec S_ 1 := andi main_v143 main_v146
  let main_cst_58 : FVec F S_ .f32 := constant S_ .f32 0x00000000#32
  let main_v148 : FVec F S32 .f32 := broadcastInDim S32 ![] bcast_S_S32 main_cst_58
  let main_v149 : IVec S32 1 := cmpf .oge main_arg18 main_v148
  let main_c_59 : IVec S_ 1 := constantI S_ 1 1#1
  let main_v150 : IVec S_ 1 := (fun x v => Host.reduce IntOp.andi x v reducesTo_S32_S_d0 h_S_) main_v149 main_c_59
  let main_v151 : IVec S_ 1 := andi main_v147 main_v150
  let main_cst_60 : FVec F S_ .f32 := constant S_ .f32 0x00000000#32
  let main_v152 : FVec F S32 .f32 := broadcastInDim S32 ![] bcast_S_S32 main_cst_60
  fn_part9 (F := F) main_arg26 main_v151 main_v152

def fn_part7 {F : FTy → Type} [FloatOps F] (main_arg10 : FVec F S32 .f32) (main_arg18 : FVec F S32 .f32) (main_arg26 : FVec F S32 .f32) (main_arg27 : FVec F S32x16 .f32) (main_arg28 : FVec F S16 .f32) (main_arg29 : FVec F S16x1 .f32) (main_arg30 : FVec F S1 .f32) (main_v118 : IVec S_ 1) (main_v119 : FVec F S32 .f32) : IVec S_ 1 :=
  let main_cst_46 : FVec F S_ .f32 := constant S_ .f32 0x7F800000#32
  let main_v120 : FVec F S32 .f32 := broadcastInDim S32 ![] bcast_S_S32 main_cst_46
  let main_v121 : IVec S32 1 := cmpf .olt main_v119 main_v120
  let main_c_47 : IVec S_ 1 := constantI S_ 1 1#1
  let main_v122 : IVec S_ 1 := (fun x v => Host.reduce IntOp.andi x v reducesTo_S32_S_d0 h_S_) main_v121 main_c_47
  let main_v123 : IVec S_ 1 := andi main_v118 main_v122
  let main_v124 : FVec F S32x16 .f32 := Host.absf main_arg27
  let main_cst_48 : FVec F S_ .f32 := constant S_ .f32 0x7F800000#32
  let main_v125 : FVec F S32x16 .f32 := broadcastInDim S32x16 ![] bcast_S_S32x16 main_cst_48
  let main_v126 : IVec S32x16 1 := cmpf .olt main_v124 main_v125
  let main_c_49 : IVec S_ 1 := constantI S_ 1 1#1
  let main_v127 : IVec S_ 1 := (fun x v => Host.reduce IntOp.andi x v reducesTo_S32x16_S_d0_1 h_S_) main_v126 main_c_49
  let main_v128 : IVec S_ 1 := andi main_v123 main_v127
  let main_v129 : FVec F S16 .f32 := Host.absf main_arg28
  let main_cst_50 : FVec F S_ .f32 := constant S_ .f32 0x7F800000#32
  let main_v130 : FVec F S16 .f32 := broadcastInDim S16 ![] bcast_S_S16 main_cst_50
  let main_v131 : IVec S16 1 := cmpf .olt main_v129 main_v130
  let main_c_51 : IVec S_ 1 := constantI S_ 1 1#1
  let main_v132 : IVec S_ 1 := (fun x v => Host.reduce IntOp.andi x v reducesTo_S16_S_d0 h_S_) main_v131 main_c_51
  let main_v133 : IVec S_ 1 := andi main_v128 main_v132
  let main_v134 : FVec F S16x1 .f32 := Host.absf main_arg29
  let main_cst_52 : FVec F S_ .f32 := constant S_ .f32 0x7F800000#32
  let main_v135 : FVec F S16x1 .f32 := broadcastInDim S16x1 ![] bcast_S_S16x1 main_cst_52
  let main_v136 : IVec S16x1 1 := cmpf .olt main_v134 main_v135
  fn_part8 (F := F) main_arg10 main_arg18 main_arg26 main_arg30 main_v133 main_v136

def fn_part6 {F : FTy → Type} [FloatOps F] (main_arg10 : FVec F S32 .f32) (main_arg18 : FVec F S32 .f32) (main_arg23 : FVec F S32 .f32) (main_arg24 : FVec F S32 .f32) (main_arg25 : FVec F S32 .f32) (main_arg26 : FVec F S32 .f32) (main_arg27 : FVec F S32x16 .f32) (main_arg28 : FVec F S16 .f32) (main_arg29 : FVec F S16x1 .f32) (main_arg30 : FVec F S1 .f32) (main_v98 : IVec S_ 1) (main_v101 : IVec S32 1) (main_c_39 : IVec S_ 1) : IVec S_ 1 :=
  let main_v102 : IVec S_ 1 := (fun x v => Host.reduce IntOp.andi x v reducesTo_S32_S_d0 h_S_) main_v101 main_c_39
  let main_v103 : IVec S_ 1 := andi main_v98 main_v102
  let main_v104 : FVec F S32 .f32 := Host.absf main_arg23
  let main_cst_40 : FVec F S_ .f32 := constant S_ .f32 0x7F800000#32
  let main_v105 : FVec F S32 .f32 := broadcastInDim S32 ![] bcast_S_S32 main_cst_40
  let main_v106 : IVec S32 1 := cmpf .olt main_v104 main_v105
  let main_c_41 : IVec S_ 1 := constantI S_ 1 1#1
  let main_v107 : IVec S_ 1 := (fun x v => Host.reduce IntOp.andi x v reducesTo_S32_S_d0 h_S_) main_v106 main_c_41
  let main_v108 : IVec S_ 1 := andi main_v103 main_v107
  let main_v109 : FVec F S32 .f32 := Host.absf main_arg24
  let main_cst_42 : FVec F S_ .f32 := constant S_ .f32 0x7F800000#32
  let main_v110 : FVec F S32 .f32 := broadcastInDim S32 ![] bcast_S_S32 main_cst_42
  let main_v111 : IVec S32 1 := cmpf .olt main_v109 main_v110
  let main_c_43 : IVec S_ 1 := constantI S_ 1 1#1
  let main_v112 : IVec S_ 1 := (fun x v => Host.reduce IntOp.andi x v reducesTo_S32_S_d0 h_S_) main_v111 main_c_43
  let main_v113 : IVec S_ 1 := andi main_v108 main_v112
  let main_v114 : FVec F S32 .f32 := Host.absf main_arg25
  let main_cst_44 : FVec F S_ .f32 := constant S_ .f32 0x7F800000#32
  let main_v115 : FVec F S32 .f32 := broadcastInDim S32 ![] bcast_S_S32 main_cst_44
  let main_v116 : IVec S32 1 := cmpf .olt main_v114 main_v115
  let main_c_45 : IVec S_ 1 := constantI S_ 1 1#1
  let main_v117 : IVec S_ 1 := (fun x v => Host.reduce IntOp.andi x v reducesTo_S32_S_d0 h_S_) main_v116 main_c_45
  let main_v118 : IVec S_ 1 := andi main_v113 main_v117
  let main_v119 : FVec F S32 .f32 := Host.absf main_arg26
  fn_part7 (F := F) main_arg10 main_arg18 main_arg26 main_arg27 main_arg28 main_arg29 main_arg30 main_v118 main_v119

def fn_part5 {F : FTy → Type} [FloatOps F] (main_arg10 : FVec F S32 .f32) (main_arg18 : FVec F S32 .f32) (main_arg20 : FVec F S32 .f32) (main_arg21 : FVec F S32x32 .f32) (main_arg22 : FVec F S32 .f32) (main_arg23 : FVec F S32 .f32) (main_arg24 : FVec F S32 .f32) (main_arg25 : FVec F S32 .f32) (main_arg26 : FVec F S32 .f32) (main_arg27 : FVec F S32x16 .f32) (main_arg28 : FVec F S16 .f32) (main_arg29 : FVec F S16x1 .f32) (main_arg30 : FVec F S1 .f32) (main_v83 : IVec S_ 1) (main_v84 : FVec F S32x32 .f32) (main_cst_32 : FVec F S_ .f32) : IVec S_ 1 :=
  let main_v85 : FVec F S32x32 .f32 := broadcastInDim S32x32 ![] bcast_S_S32x32 main_cst_32
  let main_v86 : IVec S32x32 1 := cmpf .olt main_v84 main_v85
  let main_c_33 : IVec S_ 1 := constantI S_ 1 1#1
  let main_v87 : IVec S_ 1 := (fun x v => Host.reduce IntOp.andi x v reducesTo_S32x32_S_d0_1 h_S_) main_v86 main_c_33
  let main_v88 : IVec S_ 1 := andi main_v83 main_v87
  let main_v89 : FVec F S32 .f32 := Host.absf main_arg20
  let main_cst_34 : FVec F S_ .f32 := constant S_ .f32 0x7F800000#32
  let main_v90 : FVec F S32 .f32 := broadcastInDim S32 ![] bcast_S_S32 main_cst_34
  let main_v91 : IVec S32 1 := cmpf .olt main_v89 main_v90
  let main_c_35 : IVec S_ 1 := constantI S_ 1 1#1
  let main_v92 : IVec S_ 1 := (fun x v => Host.reduce IntOp.andi x v reducesTo_S32_S_d0 h_S_) main_v91 main_c_35
  let main_v93 : IVec S_ 1 := andi main_v88 main_v92
  let main_v94 : FVec F S32x32 .f32 := Host.absf main_arg21
  let main_cst_36 : FVec F S_ .f32 := constant S_ .f32 0x7F800000#32
  let main_v95 : FVec F S32x32 .f32 := broadcastInDim S32x32 ![] bcast_S_S32x32 main_cst_36
  let main_v96 : IVec S32x32 1 := cmpf .olt main_v94 main_v95
  let main_c_37 : IVec S_ 1 := constantI S_ 1 1#1
  let main_v97 : IVec S_ 1 := (fun x v => Host.reduce IntOp.andi x v reducesTo_S32x32_S_d0_1 h_S_) main_v96 main_c_37
  let main_v98 : IVec S_ 1 := andi main_v93 main_v97
  let main_v99 : FVec F S32 .f32 := Host.absf main_arg22
  let main_cst_38 : FVec F S_ .f32 := constant S_ .f32 0x7F800000#32
  let main_v100 : FVec F S32 .f32 := broadcastInDim S32 ![] bcast_S_S32 main_cst_38
  let main_v101 : IVec S32 1 := cmpf .olt main_v99 main_v100
  let main_c_39 : IVec S_ 1 := constantI S_ 1 1#1
  fn_part6 (F := F) main_arg10 main_arg18 main_arg23 main_arg24 main_arg25 main_arg26 main_arg27 main_arg28 main_arg29 main_arg30 main_v98 main_v101 main_c_39

def fn_part4 {F : FTy → Type} [FloatOps F] (main_arg10 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x32 .f32) (main_arg22 : FVec F S32 .f32) (main_arg23 : FVec F S32 .f32) (main_arg24 : FVec F S32 .f32) (main_arg25 : FVec F S32 .f32) (main_arg26 : FVec F S32 .f32) (main_arg27 : FVec F S32x16 .f32) (main_arg28 : FVec F S16 .f32) (main_arg29 : FVec F S16x1 .f32) (main_arg30 : FVec F S1 .f32) (main_v63 : IVec S_ 1) (main_v67 : IVec S_ 1) : IVec S_ 1 :=
  let main_v68 : IVec S_ 1 := andi main_v63 main_v67
  let main_v69 : FVec F S32 .f32 := Host.absf main_arg16
  let main_cst_26 : FVec F S_ .f32 := constant S_ .f32 0x7F800000#32
  let main_v70 : FVec F S32 .f32 := broadcastInDim S32 ![] bcast_S_S32 main_cst_26
  let main_v71 : IVec S32 1 := cmpf .olt main_v69 main_v70
  let main_c_27 : IVec S_ 1 := constantI S_ 1 1#1
  let main_v72 : IVec S_ 1 := (fun x v => Host.reduce IntOp.andi x v reducesTo_S32_S_d0 h_S_) main_v71 main_c_27
  let main_v73 : IVec S_ 1 := andi main_v68 main_v72
  let main_v74 : FVec F S32 .f32 := Host.absf main_arg17
  let main_cst_28 : FVec F S_ .f32 := constant S_ .f32 0x7F800000#32
  let main_v75 : FVec F S32 .f32 := broadcastInDim S32 ![] bcast_S_S32 main_cst_28
  let main_v76 : IVec S32 1 := cmpf .olt main_v74 main_v75
  let main_c_29 : IVec S_ 1 := constantI S_ 1 1#1
  let main_v77 : IVec S_ 1 := (fun x v => Host.reduce IntOp.andi x v reducesTo_S32_S_d0 h_S_) main_v76 main_c_29
  let main_v78 : IVec S_ 1 := andi main_v73 main_v77
  let main_v79 : FVec F S32 .f32 := Host.absf main_arg18
  let main_cst_30 : FVec F S_ .f32 := constant S_ .f32 0x7F800000#32
  let main_v80 : FVec F S32 .f32 := broadcastInDim S32 ![] bcast_S_S32 main_cst_30
  let main_v81 : IVec S32 1 := cmpf .olt main_v79 main_v80
  let main_c_31 : IVec S_ 1 := constantI S_ 1 1#1
  let main_v82 : IVec S_ 1 := (fun x v => Host.reduce IntOp.andi x v reducesTo_S32_S_d0 h_S_) main_v81 main_c_31
  let main_v83 : IVec S_ 1 := andi main_v78 main_v82
  let main_v84 : FVec F S32x32 .f32 := Host.absf main_arg19
  let main_cst_32 : FVec F S_ .f32 := constant S_ .f32 0x7F800000#32
  fn_part5 (F := F) main_arg10 main_arg18 main_arg20 main_arg21 main_arg22 main_arg23 main_arg24 main_arg25 main_arg26 main_arg27 main_arg28 main_arg29 main_arg30 main_v83 main_v84 main_cst_32

def fn_part3 {F : FTy → Type} [FloatOps F] (main_arg10 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x32 .f32) (main_arg22 : FVec F S32 .f32) (main_arg23 : FVec F S32 .f32) (main_arg24 : FVec F S32 .f32) (main_arg25 : FVec F S32 .f32) (main_arg26 : FVec F S32 .f32) (main_arg27 : FVec F S32x16 .f32) (main_arg28 : FVec F S16 .f32) (main_arg29 : FVec F S16x1 .f32) (main_arg30 : FVec F S1 .f32) (main_v48 : IVec S_ 1) (main_v49 : FVec F S32 .f32) (main_v50 : FVec F S32 .f32) : IVec S_ 1 :=
  let main_v51 : IVec S32 1 := cmpf .olt main_v49 main_v50
  let main_c_19 : IVec S_ 1 := constantI S_ 1 1#1
  let main_v52 : IVec S_ 1 := (fun x v => Host.reduce IntOp.andi x v reducesTo_S32_S_d0 h_S_) main_v51 main_c_19
  let main_v53 : IVec S_ 1 := andi main_v48 main_v52
  let main_v54 : FVec F S32x32 .f32 := Host.absf main_arg13
  let main_cst_20 : FVec F S_ .f32 := constant S_ .f32 0x7F800000#32
  let main_v55 : FVec F S32x32 .f32 := broadcastInDim S32x32 ![] bcast_S_S32x32 main_cst_20
  let main_v56 : IVec S32x32 1 := cmpf .olt main_v54 main_v55
  let main_c_21 : IVec S_ 1 := constantI S_ 1 1#1
  let main_v57 : IVec S_ 1 := (fun x v => Host.reduce IntOp.andi x v reducesTo_S32x32_S_d0_1 h_S_) main_v56 main_c_21
  let main_v58 : IVec S_ 1 := andi main_v53 main_v57
  let main_v59 : FVec F S32 .f32 := Host.absf main_arg14
  let main_cst_22 : FVec F S_ .f32 := constant S_ .f32 0x7F800000#32
  let main_v60 : FVec F S32 .f32 := broadcastInDim S32 ![] bcast_S_S32 main_cst_22
  let main_v61 : IVec S32 1 := cmpf .olt main_v59 main_v60
  let main_c_23 : IVec S_ 1 := constantI S_ 1 1#1
  let main_v62 : IVec S_ 1 := (fun x v => Host.reduce IntOp.andi x v reducesTo_S32_S_d0 h_S_) main_v61 main_c_23
  let main_v63 : IVec S_ 1 := andi main_v58 main_v62
  let main_v64 : FVec F S32 .f32 := Host.absf main_arg15
  let main_cst_24 : FVec F S_ .f32 := constant S_ .f32 0x7F800000#32
  let main_v65 : FVec F S32 .f32 := broadcastInDim S32 ![] bcast_S_S32 main_cst_24
  let main_v66 : IVec S32 1 := cmpf .olt main_v64 main_v65
  let main_c_25 : IVec S_ 1 := constantI S_ 1 1#1
  let main_v67 : IVec S_ 1 := (fun x v => Host.reduce IntOp.andi x v reducesTo_S32_S_d0 h_S_) main_v66 main_c_25
  fn_part4 (F := F) main_arg10 main_arg16 main_arg17 main_arg18 main_arg19 main_arg20 main_arg21 main_arg22 main_arg23 main_arg24 main_arg25 main_arg26 main_arg27 main_arg28 main_arg29 main_arg30 main_v63 main_v67

def fn_part2 {F : FTy → Type} [FloatOps F] (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x32 .f32) (main_arg22 : FVec F S32 .f32) (main_arg23 : FVec F S32 .f32) (main_arg24 : FVec F S32 .f32) (main_arg25 : FVec F S32 .f32) (main_arg26 : FVec F S32 .f32) (main_arg27 : FVec F S32x16 .f32) (main_arg28 : FVec F S16 .f32) (main_arg29 : FVec F S16x1 .f32) (main_arg30 : FVec F S1 .f32) (main_v33 : IVec S_ 1) : IVec S_ 1 :=
  let main_v34 : FVec F S32 .f32 := Host.absf main_arg9
  let main_cst_12 : FVec F S_ .f32 := constant S_ .f32 0x7F800000#32
  let main_v35 : FVec F S32 .f32 := broadcastInDim S32 ![] bcast_S_S32 main_cst_12
  let main_v36 : IVec S32 1 := cmpf .olt main_v34 main_v35
  let main_c_13 : IVec S_ 1 := constantI S_ 1 1#1
  let main_v37 : IVec S_ 1 := (fun x v => Host.reduce IntOp.andi x v reducesTo_S32_S_d0 h_S_) main_v36 main_c_13
  let main_v38 : IVec S_ 1 := andi main_v33 main_v37
  let main_v39 : FVec F S32 .f32 := Host.absf main_arg10
  let main_cst_14 : FVec F S_ .f32 := constant S_ .f32 0x7F800000#32
  let main_v40 : FVec F S32 .f32 := broadcastInDim S32 ![] bcast_S_S32 main_cst_14
  let main_v41 : IVec S32 1 := cmpf .olt main_v39 main_v40
  let main_c_15 : IVec S_ 1 := constantI S_ 1 1#1
  let main_v42 : IVec S_ 1 := (fun x v => Host.reduce IntOp.andi x v reducesTo_S32_S_d0 h_S_) main_v41 main_c_15
  let main_v43 : IVec S_ 1 := andi main_v38 main_v42
  let main_v44 : FVec F S32x32 .f32 := Host.absf main_arg11
  let main_cst_16 : FVec F S_ .f32 := constant S_ .f32 0x7F800000#32
  let main_v45 : FVec F S32x32 .f32 := broadcastInDim S32x32 ![] bcast_S_S32x32 main_cst_16
  let main_v46 : IVec S32x32 1 := cmpf .olt main_v44 main_v45
  let main_c_17 : IVec S_ 1 := constantI S_ 1 1#1
  let main_v47 : IVec S_ 1 := (fun x v => Host.reduce IntOp.andi x v reducesTo_S32x32_S_d0_1 h_S_) main_v46 main_c_17
  let main_v48 : IVec S_ 1 := andi main_v43 main_v47
  let main_v49 : FVec F S32 .f32 := Host.absf main_arg12
  let main_cst_18 : FVec F S_ .f32 := constant S_ .f32 0x7F800000#32
  let main_v50 : FVec F S32 .f32 := broadcastInDim S32 ![] bcast_S_S32 main_cst_18
  fn_part3 (F := F) main_arg10 main_arg13 main_arg14 main_arg15 main_arg16 main_arg17 main_arg18 main_arg19 main_arg20 main_arg21 main_arg22 main_arg23 main_arg24 main_arg25 main_arg26 main_arg27 main_arg28 main_arg29 main_arg30 main_v48 main_v49 main_v50

def fn_part1 {F : FTy → Type} [FloatOps F] (main_arg6 : FVec F S32 .f32) (main_arg7 : FVec F S32 .f32) (main_arg8 : FVec F S32 .f32) (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x32 .f32) (main_arg22 : FVec F S32 .f32) (main_arg23 : FVec F S32 .f32) (main_arg24 : FVec F S32 .f32) (main_arg25 : FVec F S32 .f32) (main_arg26 : FVec F S32 .f32) (main_arg27 : FVec F S32x16 .f32) (main_arg28 : FVec F S16 .f32) (main_arg29 : FVec F S16x1 .f32) (main_arg30 : FVec F S1 .f32) (main_v13 : IVec S_ 1) (main_v16 : IVec S32x32 1) : IVec S_ 1 :=
  let main_c_5 : IVec S_ 1 := constantI S_ 1 1#1
  let main_v17 : IVec S_ 1 := (fun x v => Host.reduce IntOp.andi x v reducesTo_S32x32_S_d0_1 h_S_) main_v16 main_c_5
  let main_v18 : IVec S_ 1 := andi main_v13 main_v17
  let main_v19 : FVec F S32 .f32 := Host.absf main_arg6
  let main_cst_6 : FVec F S_ .f32 := constant S_ .f32 0x7F800000#32
  let main_v20 : FVec F S32 .f32 := broadcastInDim S32 ![] bcast_S_S32 main_cst_6
  let main_v21 : IVec S32 1 := cmpf .olt main_v19 main_v20
  let main_c_7 : IVec S_ 1 := constantI S_ 1 1#1
  let main_v22 : IVec S_ 1 := (fun x v => Host.reduce IntOp.andi x v reducesTo_S32_S_d0 h_S_) main_v21 main_c_7
  let main_v23 : IVec S_ 1 := andi main_v18 main_v22
  let main_v24 : FVec F S32 .f32 := Host.absf main_arg7
  let main_cst_8 : FVec F S_ .f32 := constant S_ .f32 0x7F800000#32
  let main_v25 : FVec F S32 .f32 := broadcastInDim S32 ![] bcast_S_S32 main_cst_8
  let main_v26 : IVec S32 1 := cmpf .olt main_v24 main_v25
  let main_c_9 : IVec S_ 1 := constantI S_ 1 1#1
  let main_v27 : IVec S_ 1 := (fun x v => Host.reduce IntOp.andi x v reducesTo_S32_S_d0 h_S_) main_v26 main_c_9
  let main_v28 : IVec S_ 1 := andi main_v23 main_v27
  let main_v29 : FVec F S32 .f32 := Host.absf main_arg8
  let main_cst_10 : FVec F S_ .f32 := constant S_ .f32 0x7F800000#32
  let main_v30 : FVec F S32 .f32 := broadcastInDim S32 ![] bcast_S_S32 main_cst_10
  let main_v31 : IVec S32 1 := cmpf .olt main_v29 main_v30
  let main_c_11 : IVec S_ 1 := constantI S_ 1 1#1
  let main_v32 : IVec S_ 1 := (fun x v => Host.reduce IntOp.andi x v reducesTo_S32_S_d0 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v33

def fn {F : FTy → Type} [FloatOps F] (main_arg0 : FVec F S100000x6 .f32) (main_arg1 : IVec S2x1600000 32) (main_arg2 : IVec S100000 32) (main_arg3 : FVec F S6x32 .f32) (main_arg4 : FVec F S32 .f32) (main_arg5 : FVec F S32x32 .f32) (main_arg6 : FVec F S32 .f32) (main_arg7 : FVec F S32 .f32) (main_arg8 : FVec F S32 .f32) (main_arg9 : FVec F S32 .f32) (main_arg10 : FVec F S32 .f32) (main_arg11 : FVec F S32x32 .f32) (main_arg12 : FVec F S32 .f32) (main_arg13 : FVec F S32x32 .f32) (main_arg14 : FVec F S32 .f32) (main_arg15 : FVec F S32 .f32) (main_arg16 : FVec F S32 .f32) (main_arg17 : FVec F S32 .f32) (main_arg18 : FVec F S32 .f32) (main_arg19 : FVec F S32x32 .f32) (main_arg20 : FVec F S32 .f32) (main_arg21 : FVec F S32x32 .f32) (main_arg22 : FVec F S32 .f32) (main_arg23 : FVec F S32 .f32) (main_arg24 : FVec F S32 .f32) (main_arg25 : FVec F S32 .f32) (main_arg26 : FVec F S32 .f32) (main_arg27 : FVec F S32x16 .f32) (main_arg28 : FVec F S16 .f32) (main_arg29 : FVec F S16x1 .f32) (main_arg30 : FVec F S1 .f32) : IVec S_ 1 :=
  let main_v0 : FVec F S100000x6 .f32 := Host.absf main_arg0
  let main_cst : FVec F S_ .f32 := constant S_ .f32 0x7F800000#32
  let main_v1 : FVec F S100000x6 .f32 := broadcastInDim S100000x6 ![] bcast_S_S100000x6 main_cst
  let main_v2 : IVec S100000x6 1 := cmpf .olt main_v0 main_v1
  let main_c : IVec S_ 1 := constantI S_ 1 1#1
  let main_v3 : IVec S_ 1 := (fun x v => Host.reduce IntOp.andi x v reducesTo_S100000x6_S_d0_1 h_S_) main_v2 main_c
  let main_v4 : FVec F S6x32 .f32 := Host.absf main_arg3
  let main_cst_0 : FVec F S_ .f32 := constant S_ .f32 0x7F800000#32
  let main_v5 : FVec F S6x32 .f32 := broadcastInDim S6x32 ![] bcast_S_S6x32 main_cst_0
  let main_v6 : IVec S6x32 1 := cmpf .olt main_v4 main_v5
  let main_c_1 : IVec S_ 1 := constantI S_ 1 1#1
  let main_v7 : IVec S_ 1 := (fun x v => Host.reduce IntOp.andi x v reducesTo_S6x32_S_d0_1 h_S_) main_v6 main_c_1
  let main_v8 : IVec S_ 1 := andi main_v3 main_v7
  let main_v9 : FVec F S32 .f32 := Host.absf main_arg4
  let main_cst_2 : FVec F S_ .f32 := constant S_ .f32 0x7F800000#32
  let main_v10 : FVec F S32 .f32 := broadcastInDim S32 ![] bcast_S_S32 main_cst_2
  let main_v11 : IVec S32 1 := cmpf .olt main_v9 main_v10
  let main_c_3 : IVec S_ 1 := constantI S_ 1 1#1
  let main_v12 : IVec S_ 1 := (fun x v => Host.reduce IntOp.andi x v reducesTo_S32_S_d0 h_S_) main_v11 main_c_3
  let main_v13 : IVec S_ 1 := andi main_v8 main_v12
  let main_v14 : FVec F S32x32 .f32 := Host.absf main_arg5
  let main_cst_4 : FVec F S_ .f32 := constant S_ .f32 0x7F800000#32
  let main_v15 : FVec F S32x32 .f32 := broadcastInDim S32x32 ![] bcast_S_S32x32 main_cst_4
  let main_v16 : IVec S32x32 1 := cmpf .olt main_v14 main_v15
  fn_part1 (F := F) main_arg6 main_arg7 main_arg8 main_arg9 main_arg10 main_arg11 main_arg12 main_arg13 main_arg14 main_arg15 main_arg16 main_arg17 main_arg18 main_arg19 main_arg20 main_arg21 main_arg22 main_arg23 main_arg24 main_arg25 main_arg26 main_arg27 main_arg28 main_arg29 main_arg30 main_v13 main_v16
-- ==== Kernel.lean ====
abbrev S100000x6 : Shape := ⟨2, ![100000, 6]⟩
abbrev S2x1600000 : Shape := ⟨2, ![2, 1600000]⟩
abbrev S100000 : Shape := ⟨1, ![100000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S1x32 : Shape := ⟨2, ![1, 32]⟩
abbrev S100000x32 : Shape := ⟨2, ![100000, 32]⟩
abbrev S10000x6 : Shape := ⟨2, ![10000, 6]⟩
abbrev S10000x32 : Shape := ⟨2, ![10000, 32]⟩
abbrev S1600000x32 : Shape := ⟨2, ![1600000, 32]⟩
abbrev S256x32 : Shape := ⟨2, ![256, 32]⟩
abbrev S100000x1 : Shape := ⟨2, ![100000, 1]⟩
abbrev S256 : Shape := ⟨1, ![256]⟩
abbrev S256x1 : Shape := ⟨2, ![256, 1]⟩
abbrev S256x16 : Shape := ⟨2, ![256, 16]⟩
abbrev S1x16 : Shape := ⟨2, ![1, 16]⟩
abbrev S1x1 : Shape := ⟨2, ![1, 1]⟩

abbrev nBuf : Space → Nat
  | .hbm => 138
  | .vmem => 42
  | .smem => 0
  | _ => 0

abbrev hbmTy0_0 (i : Nat) : BufTy := match i % 128 with
  | 0 => ⟨S100000x6, .f32⟩
  | 1 => ⟨S2x1600000, .i32⟩
  | 2 => ⟨S100000, .i32⟩
  | 3 => ⟨S6x32, .f32⟩
  | 4 => ⟨S32, .f32⟩
  | 5 => ⟨S32x32, .f32⟩
  | 6 => ⟨S32, .f32⟩
  | 7 => ⟨S32, .f32⟩
  | 8 => ⟨S32, .f32⟩
  | 9 => ⟨S32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32, .f32⟩
  | 16 => ⟨S32, .f32⟩
  | 17 => ⟨S32, .f32⟩
  | 18 => ⟨S32, .f32⟩
  | 19 => ⟨S32x32, .f32⟩
  | 20 => ⟨S32, .f32⟩
  | 21 => ⟨S32x32, .f32⟩
  | 22 => ⟨S32, .f32⟩
  | 23 => ⟨S32, .f32⟩
  | 24 => ⟨S32, .f32⟩
  | 25 => ⟨S32, .f32⟩
  | 26 => ⟨S32, .f32⟩
  | 27 => ⟨S32x16, .f32⟩
  | 28 => ⟨S16, .f32⟩
  | 29 => ⟨S16x1, .f32⟩
  | 30 => ⟨S1, .f32⟩
  | 31 => ⟨S1x1600000, .i32⟩
  | 32 => ⟨S1600000, .i32⟩
  | 33 => ⟨S1x1600000, .i32⟩
  | 34 => ⟨S1600000, .i32⟩
  | 35 => ⟨S_, .i32⟩
  | 36 => ⟨S1600000, .i32⟩
  | 37 => ⟨S1600000, .i1⟩
  | 38 => ⟨S_, .i32⟩
  | 39 => ⟨S1600000, .i32⟩
  | 40 => ⟨S1600000, .i32⟩
  | 41 => ⟨S1600000, .i32⟩
  | 42 => ⟨S1600000x1, .i32⟩
  | 43 => ⟨S1600000x6, .f32⟩
  | 44 => ⟨S_, .f32⟩
  | 45 => ⟨S100000x6, .f32⟩
  | 46 => ⟨S1600000x1, .i32⟩
  | 47 => ⟨S100000x6, .f32⟩
  | 48 => ⟨S1x32, .f32⟩
  | 49 => ⟨S1x32, .f32⟩
  | 50 => ⟨S1x32, .f32⟩
  | 51 => ⟨S1x32, .f32⟩
  | 52 => ⟨S1x32, .f32⟩
  | 53 => ⟨S1x32, .f32⟩
  | 54 => ⟨S100000x32, .f32⟩
  | 55 => ⟨S1x1600000, .i32⟩
  | 56 => ⟨S1600000, .i32⟩
  | 57 => ⟨S1x1600000, .i32⟩
  | 58 => ⟨S1600000, .i32⟩
  | 59 => ⟨S_, .i32⟩
  | 60 => ⟨S1600000, .i32⟩
  | 61 => ⟨S1600000, .i1⟩
  | 62 => ⟨S_, .i32⟩
  | 63 => ⟨S1600000, .i32⟩
  | 64 => ⟨S1600000, .i32⟩
  | 65 => ⟨S1600000, .i32⟩
  | 66 => ⟨S1600000x1, .i32⟩
  | 67 => ⟨S1600000x32, .f32⟩
  | 68 => ⟨S_, .f32⟩
  | 69 => ⟨S100000x32, .f32⟩
  | 70 => ⟨S1600000x1, .i32⟩
  | 71 => ⟨S100000x32, .f32⟩
  | 72 => ⟨S1x32, .f32⟩
  | 73 => ⟨S1x32, .f32⟩
  | 74 => ⟨S1x32, .f32⟩
  | 75 => ⟨S1x32, .f32⟩
  | 76 => ⟨S1x32, .f32⟩
  | 77 => ⟨S1x32, .f32⟩
  | 78 => ⟨S100000x32, .f32⟩
  | 79 => ⟨S1x1600000, .i32⟩
  | 80 => ⟨S1600000, .i32⟩
  | 81 => ⟨S1x1600000, .i32⟩
  | 82 => ⟨S1600000, .i32⟩
  | 83 => ⟨S_, .i32⟩
  | 84 => ⟨S1600000, .i32⟩
  | 85 => ⟨S1600000, .i1⟩
  | 86 => ⟨S_, .i32⟩
  | 87 => ⟨S1600000, .i32⟩
  | 88 => ⟨S1600000, .i32⟩
  | 89 => ⟨S1600000, .i32⟩
  | 90 => ⟨S1600000x1, .i32⟩
  | 91 => ⟨S1600000x32, .f32⟩
  | 92 => ⟨S_, .f32⟩
  | 93 => ⟨S100000x32, .f32⟩
  | 94 => ⟨S1600000x1, .i32⟩
  | 95 => ⟨S100000x32, .f32⟩
  | 96 => ⟨S1x32, .f32⟩
  | 97 => ⟨S1x32, .f32⟩
  | 98 => ⟨S1x32, .f32⟩
  | 99 => ⟨S1x32, .f32⟩
  | 100 => ⟨S1x32, .f32⟩
  | 101 => ⟨S1x32, .f32⟩
  | 102 => ⟨S100000x32, .f32⟩
  | 103 => ⟨S_, .f32⟩
  | 104 => ⟨S256x32, .f32⟩
  | 105 => ⟨S100000x1, .i32⟩
  | 106 => ⟨S256x32, .f32⟩
  | 107 => ⟨S_, .f32⟩
  | 108 => ⟨S100000, .f32⟩
  | 109 => ⟨S_, .f32⟩
  | 110 => ⟨S256, .f32⟩
  | 111 => ⟨S100000x1, .i32⟩
  | 112 => ⟨S256, .f32⟩
  | 113 => ⟨S_, .f32⟩
  | 114 => ⟨S256, .f32⟩
  | 115 => ⟨S256, .f32⟩
  | 116 => ⟨S256x1, .f32⟩
  | 117 => ⟨S256x32, .f32⟩
  | 118 => ⟨S256x32, .f32⟩
  | 119 => ⟨S256x16, .f32⟩
  | 120 => ⟨S1x16, .f32⟩
  | 121 => ⟨S256x16, .f32⟩
  | 122 => ⟨S256x16, .f32⟩
  | 123 => ⟨S_, .f32⟩
  | 124 => ⟨S256x16, .f32⟩
  | 125 => ⟨S256x16, .f32⟩
  | 126 => ⟨S256x1, .f32⟩
  | 127 => ⟨S1x1, .f32⟩
  | _ => ⟨S100000x6, .f32⟩

abbrev hbmTy0_1 (i : Nat) : BufTy := match i % 128 with
  | 0 => ⟨S256x1, .f32⟩
  | 1 => ⟨S256x1, .f32⟩
  | 2 => ⟨S256x1, .f32⟩
  | 3 => ⟨S256x1, .f32⟩
  | 4 => ⟨S_, .f32⟩
  | 5 => ⟨S256x1, .f32⟩
  | 6 => ⟨S256x1, .f32⟩
  | 7 => ⟨S_, .f32⟩
  | 8 => ⟨S256x1, .f32⟩
  | 9 => ⟨S256x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | .local _ .vmem, ⟨0, _⟩ => ⟨S10000x6, .f32⟩
  | .local _ .vmem, ⟨1, _⟩ => ⟨S10000x6, .f32⟩
  | .local _ .vmem, ⟨2, _⟩ => ⟨S10000x6, .f32⟩
  | .local _ .vmem, ⟨3, _⟩ => ⟨S10000x6, .f32⟩
  | .local _ .vmem, ⟨4, _⟩ => ⟨S6x32, .f32⟩
  | .local _ .vmem, ⟨5, _⟩ => ⟨S1x32, .f32⟩
  | .local _ .vmem, ⟨6, _⟩ => ⟨S32x32, .f32⟩
  | .local _ .vmem, ⟨7, _⟩ => ⟨S1x32, .f32⟩
  | .local _ .vmem, ⟨8, _⟩ => ⟨S1x32, .f32⟩
  | .local _ .vmem, ⟨9, _⟩ => ⟨S1x32, .f32⟩
  | .local _ .vmem, ⟨10, _⟩ => ⟨S1x32, .f32⟩
  | .local _ .vmem, ⟨11, _⟩ => ⟨S1x32, .f32⟩
  | .local _ .vmem, ⟨12, _⟩ => ⟨S10000x32, .f32⟩
  | .local _ .vmem, ⟨13, _⟩ => ⟨S10000x32, .f32⟩
  | .local _ .vmem, ⟨14, _⟩ => ⟨S10000x32, .f32⟩
  | .local _ .vmem, ⟨15, _⟩ => ⟨S10000x32, .f32⟩
  | .local _ .vmem, ⟨16, _⟩ => ⟨S10000x32, .f32⟩
  | .local _ .vmem, ⟨17, _⟩ => ⟨S10000x32, .f32⟩
  | .local _ .vmem, ⟨18, _⟩ => ⟨S32x32, .f32⟩
  | .local _ .vmem, ⟨19, _⟩ => ⟨S1x32, .f32⟩
  | .local _ .vmem, ⟨20, _⟩ => ⟨S32x32, .f32⟩
  | .local _ .vmem, ⟨21, _⟩ => ⟨S1x32, .f32⟩
  | .local _ .vmem, ⟨22, _⟩ => ⟨S1x32, .f32⟩
  | .local _ .vmem, ⟨23, _⟩ => ⟨S1x32, .f32⟩
  | .local _ .vmem, ⟨24, _⟩ => ⟨S1x32, .f32⟩
  | .local _ .vmem, ⟨25, _⟩ => ⟨S1x32, .f32⟩
  | .local _ .vmem, ⟨26, _⟩ => ⟨S10000x32, .f32⟩
  | .local _ .vmem, ⟨27, _⟩ => ⟨S10000x32, .f32⟩
  | .local _ .vmem, ⟨28, _⟩ => ⟨S10000x32, .f32⟩
  | .local _ .vmem, ⟨29, _⟩ => ⟨S10000x32, .f32⟩
  | .local _ .vmem, ⟨30, _⟩ => ⟨S10000x32, .f32⟩
  | .local _ .vmem, ⟨31, _⟩ => ⟨S10000x32, .f32⟩
  | .local _ .vmem, ⟨32, _⟩ => ⟨S32x32, .f32⟩
  | .local _ .vmem, ⟨33, _⟩ => ⟨S1x32, .f32⟩
  | .local _ .vmem, ⟨34, _⟩ => ⟨S32x32, .f32⟩
  | .local _ .vmem, ⟨35, _⟩ => ⟨S1x32, .f32⟩
  | .local _ .vmem, ⟨36, _⟩ => ⟨S1x32, .f32⟩
  | .local _ .vmem, ⟨37, _⟩ => ⟨S1x32, .f32⟩
  | .local _ .vmem, ⟨38, _⟩ => ⟨S1x32, .f32⟩
  | .local _ .vmem, ⟨39, _⟩ => ⟨S1x32, .f32⟩
  | .local _ .vmem, ⟨40, _⟩ => ⟨S10000x32, .f32⟩
  | .local _ .vmem, ⟨41, _⟩ => ⟨S10000x32, .f32⟩
  | _, _ => ⟨S100000x6, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_v2 : Ref sig .tc := ⟨.hbm, 33, rfl⟩
abbrev main_v3 : Ref sig .tc := ⟨.hbm, 34, rfl⟩
abbrev main_c : Ref sig .tc := ⟨.hbm, 35, rfl⟩
abbrev main_v4 : Ref sig .tc := ⟨.hbm, 36, rfl⟩
abbrev main_v5 : Ref sig .tc := ⟨.hbm, 37, rfl⟩
abbrev main_c_0 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_v19 : Ref sig .tc := ⟨.hbm, 53, rfl⟩
abbrev main_v20 : Ref sig .tc := ⟨.hbm, 54, rfl⟩
abbrev main_v21 : Ref sig .tc := ⟨.hbm, 55, rfl⟩
abbrev main_v22 : Ref sig .tc := ⟨.hbm, 56, rfl⟩
abbrev main_v23 : Ref sig .tc := ⟨.hbm, 57, rfl⟩
abbrev main_v24 : Ref sig .tc := ⟨.hbm, 58, rfl⟩
abbrev main_c_1 : Ref sig .tc := ⟨.hbm, 59, rfl⟩
abbrev main_v25 : Ref sig .tc := ⟨.hbm, 60, rfl⟩
abbrev main_v26 : Ref sig .tc := ⟨.hbm, 61, rfl⟩
abbrev main_c_2 : Ref sig .tc := ⟨.hbm, 62, rfl⟩
abbrev main_v27 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_cst_3 : Ref sig .tc := ⟨.hbm, 68, rfl⟩
abbrev main_v32 : Ref sig .tc := ⟨.hbm, 69, rfl⟩
abbrev main_v33 : Ref sig .tc := ⟨.hbm, 70, rfl⟩
abbrev main_v34 : Ref sig .tc := ⟨.hbm, 71, rfl⟩
abbrev main_v35 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_v42 : Ref sig .tc := ⟨.hbm, 79, rfl⟩
abbrev main_v43 : Ref sig .tc := ⟨.hbm, 80, rfl⟩
abbrev main_v44 : Ref sig .tc := ⟨.hbm, 81, rfl⟩
abbrev main_v45 : Ref sig .tc := ⟨.hbm, 82, rfl⟩
abbrev main_c_4 : Ref sig .tc := ⟨.hbm, 83, rfl⟩
abbrev main_v46 : Ref sig .tc := ⟨.hbm, 84, rfl⟩
abbrev main_v47 : Ref sig .tc := ⟨.hbm, 85, rfl⟩
abbrev main_c_5 : Ref sig .tc := ⟨.hbm, 86, rfl⟩
abbrev main_v48 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_cst_6 : Ref sig .tc := ⟨.hbm, 92, rfl⟩
abbrev main_v53 : Ref sig .tc := ⟨.hbm, 93, rfl⟩
abbrev main_v54 : Ref sig .tc := ⟨.hbm, 94, rfl⟩
abbrev main_v55 : Ref sig .tc := ⟨.hbm, 95, rfl⟩
abbrev main_v56 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_cst_7 : Ref sig .tc := ⟨.hbm, 103, rfl⟩
abbrev main_v63 : Ref sig .tc := ⟨.hbm, 104, rfl⟩
abbrev main_v64 : Ref sig .tc := ⟨.hbm, 105, rfl⟩
abbrev main_v65 : Ref sig .tc := ⟨.hbm, 106, rfl⟩
abbrev main_cst_8 : Ref sig .tc := ⟨.hbm, 107, rfl⟩
abbrev main_v66 : Ref sig .tc := ⟨.hbm, 108, rfl⟩
abbrev main_cst_9 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_cst_10 : Ref sig .tc := ⟨.hbm, 113, rfl⟩
abbrev main_v70 : Ref sig .tc := ⟨.hbm, 114, rfl⟩
abbrev main_v71 : Ref sig .tc := ⟨.hbm, 115, rfl⟩
abbrev main_v72 : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_v77 : Ref sig .tc := ⟨.hbm, 121, rfl⟩
abbrev main_v78 : Ref sig .tc := ⟨.hbm, 122, rfl⟩
abbrev main_cst_11 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_v82 : Ref sig .tc := ⟨.hbm, 127, rfl⟩
abbrev main_v83 : Ref sig .tc := ⟨.hbm, 128, rfl⟩
abbrev main_v84 : Ref sig .tc := ⟨.hbm, 129, rfl⟩
abbrev main_v85 : Ref sig .tc := ⟨.hbm, 130, rfl⟩
abbrev main_v86 : Ref sig .tc := ⟨.hbm, 131, rfl⟩
abbrev main_cst_12 : Ref sig .tc := ⟨.hbm, 132, rfl⟩
abbrev main_v87 : Ref sig .tc := ⟨.hbm, 133, rfl⟩
abbrev main_v88 : Ref sig .tc := ⟨.hbm, 134, rfl⟩
abbrev main_cst_13 : Ref sig .tc := ⟨.hbm, 135, rfl⟩
abbrev main_v89 : Ref sig .tc := ⟨.hbm, 136, rfl⟩
abbrev main_v90 : Ref sig .tc := ⟨.hbm, 137, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg10_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg3_0 : Ref sig .tc := ⟨.vmem, 19, rfl⟩
abbrev cc1_stg4_0 : Ref sig .tc := ⟨.vmem, 20, rfl⟩
abbrev cc1_stg5_0 : Ref sig .tc := ⟨.vmem, 21, rfl⟩
abbrev cc1_stg6_0 : Ref sig .tc := ⟨.vmem, 22, rfl⟩
abbrev cc1_stg7_0 : Ref sig .tc := ⟨.vmem, 23, rfl⟩
abbrev cc1_stg8_0 : Ref sig .tc := ⟨.vmem, 24, rfl⟩
abbrev cc1_stg9_0 : Ref sig .tc := ⟨.vmem, 25, rfl⟩
abbrev cc1_stg10_0 : Ref sig .tc := ⟨.vmem, 26, rfl⟩
abbrev cc1_stg10_1 : Ref sig .tc := ⟨.vmem, 27, rfl⟩
abbrev cc2_stg0_0 : Ref sig .tc := ⟨.vmem, 28, rfl⟩
abbrev cc2_stg0_1 : Ref sig .tc := ⟨.vmem, 29, rfl⟩
abbrev cc2_stg1_0 : Ref sig .tc := ⟨.vmem, 30, rfl⟩
abbrev cc2_stg1_1 : Ref sig .tc := ⟨.vmem, 31, rfl⟩
abbrev cc2_stg2_0 : Ref sig .tc := ⟨.vmem, 32, rfl⟩
abbrev cc2_stg3_0 : Ref sig .tc := ⟨.vmem, 33, rfl⟩
abbrev cc2_stg4_0 : Ref sig .tc := ⟨.vmem, 34, rfl⟩
abbrev cc2_stg5_0 : Ref sig .tc := ⟨.vmem, 35, rfl⟩
abbrev cc2_stg6_0 : Ref sig .tc := ⟨.vmem, 36, rfl⟩
abbrev cc2_stg7_0 : Ref sig .tc := ⟨.vmem, 37, rfl⟩
abbrev cc2_stg8_0 : Ref sig .tc := ⟨.vmem, 38, rfl⟩
abbrev cc2_stg9_0 : Ref sig .tc := ⟨.vmem, 39, rfl⟩
abbrev cc2_stg10_0 : Ref sig .tc := ⟨.vmem, 40, rfl⟩
abbrev cc2_stg10_1 : Ref sig .tc := ⟨.vmem, 41, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem10_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem3_0 : DmaSem sig := 19
abbrev cc1_sem4_0 : DmaSem sig := 20
abbrev cc1_sem5_0 : DmaSem sig := 21
abbrev cc1_sem6_0 : DmaSem sig := 22
abbrev cc1_sem7_0 : DmaSem sig := 23
abbrev cc1_sem8_0 : DmaSem sig := 24
abbrev cc1_sem9_0 : DmaSem sig := 25
abbrev cc1_sem10_0 : DmaSem sig := 26
abbrev cc1_sem10_1 : DmaSem sig := 27
abbrev cc2_sem0_0 : DmaSem sig := 28
abbrev cc2_sem0_1 : DmaSem sig := 29
abbrev cc2_sem1_0 : DmaSem sig := 30
abbrev cc2_sem1_1 : DmaSem sig := 31
abbrev cc2_sem2_0 : DmaSem sig := 32
abbrev cc2_sem3_0 : DmaSem sig := 33
abbrev cc2_sem4_0 : DmaSem sig := 34
abbrev cc2_sem5_0 : DmaSem sig := 35
abbrev cc2_sem6_0 : DmaSem sig := 36
abbrev cc2_sem7_0 : DmaSem sig := 37
abbrev cc2_sem8_0 : DmaSem sig := 38
abbrev cc2_sem9_0 : DmaSem sig := 39
abbrev cc2_sem10_0 : DmaSem sig := 40
abbrev cc2_sem10_1 : DmaSem sig := 41

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x6 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x6 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S6x32 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x32 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x32 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x32 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x32 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x32 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x32 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x32 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S10000x32 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x32 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x32 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S32x32 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x32 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S32x32 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x32 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x32 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x32 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 1 → Memref sig .tc .vmem S1x32 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false]

abbrev stage1_9 : Fin 1 → Memref sig .tc .vmem S1x32 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false]

abbrev stage1_10 : Fin 2 → Memref sig .tc .vmem S10000x32 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_9 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_10 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x32 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x32 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S32x32 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x32 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S32x32 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x32 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S1x32 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S1x32 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 1 → Memref sig .tc .vmem S1x32 .f32 := fun | 0 => Memref.whole cc2_stg8_0 | ⟨_ + 1, h⟩ => absurd h (Nat.not_lt.2 (Nat.le_add_left _ _))
abbrev sem2_8 : Fin 1 → DmaSem sig := fun | 0 => cc2_sem8_0 | ⟨_ + 1, h⟩ => absurd h (Nat.not_lt.2 (Nat.le_add_left _ _))
abbrev reads2_8 : Fin grid2.rank → Bool := ![false]

abbrev stage2_9 : Fin 1 → Memref sig .tc .vmem S1x32 .f32 := fun | 0 => Memref.whole cc2_stg9_0 | ⟨_ + 1, h⟩ => absurd h (Nat.not_lt.2 (Nat.le_add_left _ _))
abbrev sem2_9 : Fin 1 → DmaSem sig := fun | 0 => cc2_sem9_0 | ⟨_ + 1, h⟩ => absurd h (Nat.not_lt.2 (Nat.le_add_left _ _))
abbrev reads2_9 : Fin grid2.rank → Bool := ![false]

abbrev stage2_10 : Fin 2 → Memref sig .tc .vmem S10000x32 .f32 := fun | 0 => Memref.whole cc2_stg10_0 | 1 => Memref.whole cc2_stg10_1 | ⟨_ + 2, h⟩ => absurd h (Nat.not_lt.2 (Nat.le_add_left _ _))
abbrev sem2_10 : Fin 2 → DmaSem sig := fun | 0 => cc2_sem10_0 | 1 => cc2_sem10_1 | ⟨_ + 2, h⟩ => absurd h (Nat.not_lt.2 (Nat.le_add_left _ _))
abbrev reads2_10 : Fin grid2.rank → Bool := ![true]

class Facts₀ : Prop where
  slices_S2x1600000_S1x1600000_0_0 : S2x1600000.Slices ![0, 0] S1x1600000
  shapeCasts_S1x1600000_S1600000 : S1x1600000.ShapeCasts S1600000
  slices_S2x1600000_S1x1600000_1_0 : S2x1600000.Slices ![1, 0] S1x1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  bcast_S_S100000x6 : S_.BroadcastsInDim S100000x6 (![] : Fin 0 → Fin S100000x6.rank)
  shapeCasts_S32_S1x32 : S32.ShapeCasts S1x32
  inb_S10000x6_S10000x6_0_0 : ∀ a, (![0, 0] : Fin 2 → Nat) a + S10000x6.size a ≤ S10000x6.size a
  h_S10000x6 : 0 < S10000x6.numel
  shapeCasts_S10000x6_S10000x6 : S10000x6.ShapeCasts S10000x6
  bitsLt_bf16_f32 : FTy.bits .bf16 < FTy.bits .f32
  inb_S6x32_S6x32_0_0 : ∀ a, (![0, 0] : Fin 2 → Nat) a + S6x32.size a ≤ S6x32.size a
  h_S6x32 : 0 < S6x32.numel
  inb_S1x32_S1x32_0_0 : ∀ a, (![0, 0] : Fin 2 → Nat) a + S1x32.size a ≤ S1x32.size a
  h_S1x32 : 0 < S1x32.numel
  shapeCasts_S1x32_S1x32 : S1x32.ShapeCasts S1x32
  broadcasts_S1x32_S10000x32 : S1x32.Broadcasts S10000x32
  inb_S32x32_S32x32_0_0 : ∀ a, (![0, 0] : Fin 2 → Nat) a + S32x32.size a ≤ S32x32.size a
  h_S32x32 : 0 < S32x32.numel
  inb_S10000x32_S10000x32_0_0 : ∀ a, (![0, 0] : Fin 2 → Nat) a + S10000x32.size a ≤ S10000x32.size a
  h_S10000x32 : 0 < S10000x32.numel
  bcast_S_S100000x32 : S_.BroadcastsInDim S100000x32 (![] : Fin 0 → Fin S100000x32.rank)
  shapeCasts_S10000x32_S10000x32 : S10000x32.ShapeCasts S10000x32
  bcast_S_S256x32 : S_.BroadcastsInDim S256x32 (![] : Fin 0 → Fin S256x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S10000x6_S6x32_S10000x32_1_0_0_1_n_n_wf : DotDims.WF S10000x6 S6x32 S10000x32 [1] [0] [0] [1] [] []
  dot_S10000x32_S32x32_S10000x32_1_0_0_1_n_n_wf : DotDims.WF S10000x32 S32x32 S10000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S256x32_S100000x1_S100000x32_1_0_0_1_wf : ScatterDims.WF S256x32 S100000x1 S100000x32 [1] [0] [0] 1
  scatter_S256_S100000x1_S100000_n_0_0_1_wf : ScatterDims.WF S256 S100000x1 S100000 [] [0] [0] 1
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x6.size a ≤ S100000x6.size a
  hwx0_0 : ∀ i : grid0.Coords, EltTy.bits .f32 = 32 ∨ (Rect.block (s := S100000x6) S10000x6.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x6.size a ≤ S100000x6.size a
  hwx0_1 : ∀ i : grid0.Coords, EltTy.bits .f32 = 32 ∨ (Rect.block (s := S100000x6) S10000x6.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S6x32.size a ≤ S6x32.size a
  hwx0_2 : ∀ i : grid0.Coords, EltTy.bits .f32 = 32 ∨ (Rect.block (s := S6x32) S6x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x32.size a ≤ S1x32.size a
  hwx0_3 : ∀ i : grid0.Coords, EltTy.bits .f32 = 32 ∨ (Rect.block (s := S1x32) S1x32.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x32.size a ≤ S32x32.size a
  hwx0_4 : ∀ i : grid0.Coords, EltTy.bits .f32 = 32 ∨ (Rect.block (s := S32x32) S32x32.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x32.size a ≤ S1x32.size a
  hwx0_5 : ∀ i : grid0.Coords, EltTy.bits .f32 = 32 ∨ (Rect.block (s := S1x32) S1x32.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x32.size a ≤ S1x32.size a
  hwx0_6 : ∀ i : grid0.Coords, EltTy.bits .f32 = 32 ∨ (Rect.block (s := S1x32) S1x32.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x32.size a ≤ S1x32.size a
  hwx0_7 : ∀ i : grid0.Coords, EltTy.bits .f32 = 32 ∨ (Rect.block (s := S1x32) S1x32.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x32.size a ≤ S1x32.size a
  hwx0_8 : ∀ i : grid0.Coords, EltTy.bits .f32 = 32 ∨ (Rect.block (s := S1x32) S1x32.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x32.size a ≤ S1x32.size a
  hwx0_9 : ∀ i : grid0.Coords, EltTy.bits .f32 = 32 ∨ (Rect.block (s := S1x32) S1x32.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S10000x32.size a ≤ S100000x32.size a
  hwx0_10 : ∀ i : grid0.Coords, EltTy.bits .f32 = 32 ∨ (Rect.block (s := S100000x32) S10000x32.size (cc0_transform_10 i) (hinb0_10 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x32.size a ≤ S100000x32.size a
  hwx1_0 : ∀ i : grid1.Coords, EltTy.bits .f32 = 32 ∨ (Rect.block (s := S100000x32) S10000x32.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x32.size a ≤ S100000x32.size a
  hwx1_1 : ∀ i : grid1.Coords, EltTy.bits .f32 = 32 ∨ (Rect.block (s := S100000x32) S10000x32.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S32x32.size a ≤ S32x32.size a
  hwx1_2 : ∀ i : grid1.Coords, EltTy.bits .f32 = 32 ∨ (Rect.block (s := S32x32) S32x32.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x32.size a ≤ S1x32.size a
  hwx1_3 : ∀ i : grid1.Coords, EltTy.bits .f32 = 32 ∨ (Rect.block (s := S1x32) S1x32.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S32x32.size a ≤ S32x32.size a
  hwx1_4 : ∀ i : grid1.Coords, EltTy.bits .f32 = 32 ∨ (Rect.block (s := S32x32) S32x32.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x32.size a ≤ S1x32.size a
  hwx1_5 : ∀ i : grid1.Coords, EltTy.bits .f32 = 32 ∨ (Rect.block (s := S1x32) S1x32.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x32.size a ≤ S1x32.size a
  hwx1_6 : ∀ i : grid1.Coords, EltTy.bits .f32 = 32 ∨ (Rect.block (s := S1x32) S1x32.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x32.size a ≤ S1x32.size a
  hwx1_7 : ∀ i : grid1.Coords, EltTy.bits .f32 = 32 ∨ (Rect.block (s := S1x32) S1x32.size (cc1_transform_7 i) (hinb1_7 i)).WholeWords (EltTy.packing .f32)
  hstage1_8 : ∀ j, (stage1_8 j).IsWhole
  nbuf1_8 : grid1.bufCount reads1_8 true = 1
  hreads1_8 : ∀ i i' : grid1.Coords, (∀ a, reads1_8 a = true → i a = i' a) → cc1_transform_8 i = cc1_transform_8 i'
  hinb1_8 : ∀ (i : grid1.Coords) a, (cc1_transform_8 i a + 1) * S1x32.size a ≤ S1x32.size a
  hwx1_8 : ∀ i : grid1.Coords, EltTy.bits .f32 = 32 ∨ (Rect.block (s := S1x32) S1x32.size (cc1_transform_8 i) (hinb1_8 i)).WholeWords (EltTy.packing .f32)
  hstage1_9 : ∀ j, (stage1_9 j).IsWhole
  nbuf1_9 : grid1.bufCount reads1_9 true = 1
  hreads1_9 : ∀ i i' : grid1.Coords, (∀ a, reads1_9 a = true → i a = i' a) → cc1_transform_9 i = cc1_transform_9 i'
  hinb1_9 : ∀ (i : grid1.Coords) a, (cc1_transform_9 i a + 1) * S1x32.size a ≤ S1x32.size a
  hwx1_9 : ∀ i : grid1.Coords, EltTy.bits .f32 = 32 ∨ (Rect.block (s := S1x32) S1x32.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S10000x32.size a ≤ S100000x32.size a
  hwx1_10 : ∀ i : grid1.Coords, EltTy.bits .f32 = 32 ∨ (Rect.block (s := S100000x32) S10000x32.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x32.size a ≤ S100000x32.size a
  hwx2_0 : ∀ i : grid2.Coords, EltTy.bits .f32 = 32 ∨ (Rect.block (s := S100000x32) S10000x32.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x32.size a ≤ S100000x32.size a
  hwx2_1 : ∀ i : grid2.Coords, EltTy.bits .f32 = 32 ∨ (Rect.block (s := S100000x32) S10000x32.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S32x32.size a ≤ S32x32.size a
  hwx2_2 : ∀ i : grid2.Coords, EltTy.bits .f32 = 32 ∨ (Rect.block (s := S32x32) S32x32.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x32.size a ≤ S1x32.size a
  hwx2_3 : ∀ i : grid2.Coords, EltTy.bits .f32 = 32 ∨ (Rect.block (s := S1x32) S1x32.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S32x32.size a ≤ S32x32.size a
  hwx2_4 : ∀ i : grid2.Coords, EltTy.bits .f32 = 32 ∨ (Rect.block (s := S32x32) S32x32.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x32.size a ≤ S1x32.size a
  hwx2_5 : ∀ i : grid2.Coords, EltTy.bits .f32 = 32 ∨ (Rect.block (s := S1x32) S1x32.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S1x32.size a ≤ S1x32.size a
  hwx2_6 : ∀ i : grid2.Coords, EltTy.bits .f32 = 32 ∨ (Rect.block (s := S1x32) S1x32.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S1x32.size a ≤ S1x32.size a
  hwx2_7 : ∀ i : grid2.Coords, EltTy.bits .f32 = 32 ∨ (Rect.block (s := S1x32) S1x32.size (cc2_transform_7 i) (hinb2_7 i)).WholeWords (EltTy.packing .f32)
  hstage2_8 : ∀ j, (stage2_8 j).IsWhole
  nbuf2_8 : grid2.bufCount reads2_8 true = 1
  hreads2_8 : ∀ i i' : grid2.Coords, (∀ a, reads2_8 a = true → i a = i' a) → cc2_transform_8 i = cc2_transform_8 i'
  hinb2_8 : ∀ (i : grid2.Coords) a, (cc2_transform_8 i a + 1) * S1x32.size a ≤ S1x32.size a
  hwx2_8 : ∀ i : grid2.Coords, EltTy.bits .f32 = 32 ∨ (Rect.block (s := S1x32) S1x32.size (cc2_transform_8 i) (hinb2_8 i)).WholeWords (EltTy.packing .f32)
  hstage2_9 : ∀ j, (stage2_9 j).IsWhole
  nbuf2_9 : grid2.bufCount reads2_9 true = 1
  hreads2_9 : ∀ i i' : grid2.Coords, (∀ a, reads2_9 a = true → i a = i' a) → cc2_transform_9 i = cc2_transform_9 i'
  hinb2_9 : ∀ (i : grid2.Coords) a, (cc2_transform_9 i a + 1) * S1x32.size a ≤ S1x32.size a
  hwx2_9 : ∀ i : grid2.Coords, EltTy.bits .f32 = 32 ∨ (Rect.block (s := S1x32) S1x32.size (cc2_transform_9 i) (hinb2_9 i)).WholeWords (EltTy.packing .f32)
  hstage2_10 : ∀ j, (stage2_10 j).IsWhole
  nbuf2_10 : grid2.bufCount reads2_10 false = 2
  hreads2_10 : ∀ i i' : grid2.Coords, (∀ a, reads2_10 a = true → i a = i' a) → cc2_transform_10 i = cc2_transform_10 i'
  hinb2_10 : ∀ (i : grid2.Coords) a, (cc2_transform_10 i a + 1) * S10000x32.size a ≤ S100000x32.size a
  hwx2_10 : ∀ i : grid2.Coords, EltTy.bits .f32 = 32 ∨ (Rect.block (s := S100000x32) S10000x32.size (cc2_transform_10 i) (hinb2_10 i)).WholeWords (EltTy.packing .f32)

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S10000x6_S6x32_S10000x32_1_0_0_1_n_n : DotDims S10000x6 S6x32 S10000x32 where
  lhsContracting := [1]
  rhsContracting := [0]
  lhsNonContracting := [0]
  rhsNonContracting := [1]
  lhsBatch := []
  rhsBatch := []
  wf := dot_S10000x6_S6x32_S10000x32_1_0_0_1_n_n_wf
def dot_S10000x32_S32x32_S10000x32_1_0_0_1_n_n : DotDims S10000x32 S32x32 S10000x32 where
  lhsContracting := [1]
  rhsContracting := [0]
  lhsNonContracting := [0]
  rhsNonContracting := [1]
  lhsBatch := []
  rhsBatch := []
  wf := dot_S10000x32_S32x32_S10000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

abbrev win0_0 : Pipeline.Window sig grid0 :=
  Pipeline.Window.ofSpec (Memref.whole main_arg0) S10000x6.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x6.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S6x32.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v14) S1x32.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S32x32.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v15) S1x32.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v16) S1x32.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S1x32.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v18) S1x32.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v19) S1x32.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_v20) S10000x32.size cc0_transform_10 reads0_10 true false 2 stage0_10 sem0_10
    hrank0 hreads0_10 hinb0_10 nbuf0_10 (Memref.isWhole_whole _) hwx0_10 hstage0_10

abbrev win0 : Fin 11 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | ⟨_ + 11, h⟩ => absurd h (Nat.not_lt.2 (Nat.le_add_left _ _))
abbrev spec0 : Fin 11 → Pipeline.WinSpec sig grid0.rank := fun w => (win0 w).toWinSpec

abbrev win1_0 : Pipeline.Window sig grid1 :=
  Pipeline.Window.ofSpec (Memref.whole main_v20) S10000x32.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v34) S10000x32.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg11) S32x32.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v35) S1x32.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg13) S32x32.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v36) S1x32.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v37) S1x32.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v38) S1x32.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v39) S1x32.size cc1_transform_8 reads1_8 false true 1 stage1_8 sem1_8
    hrank1 hreads1_8 hinb1_8 nbuf1_8 (Memref.isWhole_whole _) hwx1_8 hstage1_8

abbrev win1_9 : Pipeline.Window sig grid1 :=
  Pipeline.Window.ofSpec (Memref.whole main_v40) S1x32.size cc1_transform_9 reads1_9 false true 1 stage1_9 sem1_9
    hrank1 hreads1_9 hinb1_9 nbuf1_9 (Memref.isWhole_whole _) hwx1_9 hstage1_9

abbrev win1_10 : Pipeline.Window sig grid1 :=
  Pipeline.Window.ofSpec (Memref.whole main_v41) S10000x32.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v41) S10000x32.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v55) S10000x32.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg19) S32x32.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v56) S1x32.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg21) S32x32.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v57) S1x32.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_v58) S1x32.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_v59) S1x32.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v60) S1x32.size cc2_transform_8 reads2_8 false true 1 stage2_8 sem2_8
    hrank2 hreads2_8 hinb2_8 nbuf2_8 (Memref.isWhole_whole _) hwx2_8 hstage2_8

abbrev win2_9 : Pipeline.Window sig grid2 :=
  Pipeline.Window.ofSpec (Memref.whole main_v61) S1x32.size cc2_transform_9 reads2_9 false true 1 stage2_9 sem2_9
    hrank2 hreads2_9 hinb2_9 nbuf2_9 (Memref.isWhole_whole _) hwx2_9 hstage2_9

abbrev win2_10 : Pipeline.Window sig grid2 :=
  Pipeline.Window.ofSpec (Memref.whole main_v62) S10000x32.size cc2_transform_10 reads2_10 true false 2 stage2_10 sem2_10
    hrank2 hreads2_10 hinb2_10 nbuf2_10 (Memref.isWhole_whole _) hwx2_10 hstage2_10

abbrev win2 : Fin 11 → Pipeline.Window sig grid2 := fun | 0 => win2_0 | 1 => win2_1 | 2 => win2_2 | 3 => win2_3 | 4 => win2_4 | 5 => win2_5 | 6 => win2_6 | 7 => win2_7 | 8 => win2_8 | 9 => win2_9 | 10 => win2_10 | ⟨_ + 11, h⟩ => absurd h (Nat.not_lt.2 (Nat.le_add_left _ _))
abbrev spec2 : Fin 11 → Pipeline.WinSpec sig grid2.rank := fun w => (win2 w).toWinSpec

class Facts : Prop extends Facts₀ where

variable [Facts]
-- ==== ReferenceIdeal.lean ====
abbrev S100000x6 : Shape := ⟨2, ![100000, 6]⟩
abbrev S2x1600000 : Shape := ⟨2, ![2, 1600000]⟩
abbrev S100000 : Shape := ⟨1, ![100000]⟩
abbrev S6x32 : Shape := ⟨2, ![6, 32]⟩
abbrev S32 : Shape := ⟨1, ![32]⟩
abbrev S32x32 : Shape := ⟨2, ![32, 32]⟩
abbrev S32x16 : Shape := ⟨2, ![32, 16]⟩
abbrev S16 : Shape := ⟨1, ![16]⟩
abbrev S16x1 : Shape := ⟨2, ![16, 1]⟩
abbrev S1 : Shape := ⟨1, ![1]⟩
abbrev S1x1600000 : Shape := ⟨2, ![1, 1600000]⟩
abbrev S1600000 : Shape := ⟨1, ![1600000]⟩
abbrev S_ : Shape := ⟨0, ![]⟩
abbrev S1600000x1 : Shape := ⟨2, ![1600000, 1]⟩
abbrev S1600000x6 : Shape := ⟨2, ![1600000, 6]⟩
abbrev S100000x32 : Shape := ⟨2, ![100000, 32]⟩
abbrev S1x32 : Shape := ⟨2, ![1, 32]⟩
abbrev S1600000x32 : Shape := ⟨2, ![1600000, 32]⟩
abbrev S256x32 : Shape := ⟨2, ![256, 32]⟩
abbrev S100000x1 : Shape := ⟨2, ![100000, 1]⟩
abbrev S256 : Shape := ⟨1, ![256]⟩
abbrev S256x1 : Shape := ⟨2, ![256, 1]⟩
abbrev S256x16 : Shape := ⟨2, ![256, 16]⟩
abbrev S1x16 : Shape := ⟨2, ![1, 16]⟩
abbrev S1x1 : Shape := ⟨2, ![1, 1]⟩

abbrev nBuf : Space → Nat
  | .hbm => 195
  | .vmem => 0
  | .smem => 0
  | _ => 0

abbrev hbmTy0_0 (i : Nat) : BufTy := match i % 128 with
  | 0 => ⟨S100000x6, .f32⟩
  | 1 => ⟨S2x1600000, .i32⟩
  | 2 => ⟨S100000, .i32⟩
  | 3 => ⟨S6x32, .f32⟩
  | 4 => ⟨S32, .f32⟩
  | 5 => ⟨S32x32, .f32⟩
  | 6 => ⟨S32, .f32⟩
  | 7 => ⟨S32, .f32⟩
  | 8 => ⟨S32, .f32⟩
  | 9 => ⟨S32, .f32⟩
  | 10 => ⟨S32, .f32⟩
  | 11 => ⟨S32x32, .f32⟩
  | 12 => ⟨S32, .f32⟩
  | 13 => ⟨S32x32, .f32⟩
  | 14 => ⟨S32, .f32⟩
  | 15 => ⟨S32, .f32⟩
  | 16 => ⟨S32, .f32⟩
  | 17 => ⟨S32, .f32⟩
  | 18 => ⟨S32, .f32⟩
  | 19 => ⟨S32x32, .f32⟩
  | 20 => ⟨S32, .f32⟩
  | 21 => ⟨S32x32, .f32⟩
  | 22 => ⟨S32, .f32⟩
  | 23 => ⟨S32, .f32⟩
  | 24 => ⟨S32, .f32⟩
  | 25 => ⟨S32, .f32⟩
  | 26 => ⟨S32, .f32⟩
  | 27 => ⟨S32x16, .f32⟩
  | 28 => ⟨S16, .f32⟩
  | 29 => ⟨S16x1, .f32⟩
  | 30 => ⟨S1, .f32⟩
  | 31 => ⟨S1x1600000, .i32⟩
  | 32 => ⟨S1600000, .i32⟩
  | 33 => ⟨S_, .i32⟩
  | 34 => ⟨S1600000, .i32⟩
  | 35 => ⟨S1600000, .i1⟩
  | 36 => ⟨S_, .i32⟩
  | 37 => ⟨S1600000, .i32⟩
  | 38 => ⟨S1600000, .i32⟩
  | 39 => ⟨S1600000, .i32⟩
  | 40 => ⟨S1600000x1, .i32⟩
  | 41 => ⟨S1600000x6, .f32⟩
  | 42 => ⟨S1x1600000, .i32⟩
  | 43 => ⟨S1600000, .i32⟩
  | 44 => ⟨S_, .f32⟩
  | 45 => ⟨S100000x6, .f32⟩
  | 46 => ⟨S1600000x1, .i32⟩
  | 47 => ⟨S100000x6, .f32⟩
  | 48 => ⟨S100000x6, .f32⟩
  | 49 => ⟨S100000x32, .f32⟩
  | 50 => ⟨S1x32, .f32⟩
  | 51 => ⟨S100000x32, .f32⟩
  | 52 => ⟨S100000x32, .f32⟩
  | 53 => ⟨S_, .f32⟩
  | 54 => ⟨S100000x32, .f32⟩
  | 55 => ⟨S100000x32, .f32⟩
  | 56 => ⟨S100000x32, .f32⟩
  | 57 => ⟨S1x32, .f32⟩
  | 58 => ⟨S100000x32, .f32⟩
  | 59 => ⟨S100000x32, .f32⟩
  | 60 => ⟨S1x32, .f32⟩
  | 61 => ⟨S100000x32, .f32⟩
  | 62 => ⟨S100000x32, .f32⟩
  | 63 => ⟨S_, .f32⟩
  | 64 => ⟨S32, .f32⟩
  | 65 => ⟨S32, .f32⟩
  | 66 => ⟨S32, .f32⟩
  | 67 => ⟨S32, .f32⟩
  | 68 => ⟨S1x32, .f32⟩
  | 69 => ⟨S100000x32, .f32⟩
  | 70 => ⟨S100000x32, .f32⟩
  | 71 => ⟨S1x32, .f32⟩
  | 72 => ⟨S100000x32, .f32⟩
  | 73 => ⟨S100000x32, .f32⟩
  | 74 => ⟨S1x1600000, .i32⟩
  | 75 => ⟨S1600000, .i32⟩
  | 76 => ⟨S_, .i32⟩
  | 77 => ⟨S1600000, .i32⟩
  | 78 => ⟨S1600000, .i1⟩
  | 79 => ⟨S_, .i32⟩
  | 80 => ⟨S1600000, .i32⟩
  | 81 => ⟨S1600000, .i32⟩
  | 82 => ⟨S1600000, .i32⟩
  | 83 => ⟨S1600000x1, .i32⟩
  | 84 => ⟨S1600000x32, .f32⟩
  | 85 => ⟨S1x1600000, .i32⟩
  | 86 => ⟨S1600000, .i32⟩
  | 87 => ⟨S_, .f32⟩
  | 88 => ⟨S100000x32, .f32⟩
  | 89 => ⟨S1600000x1, .i32⟩
  | 90 => ⟨S100000x32, .f32⟩
  | 91 => ⟨S100000x32, .f32⟩
  | 92 => ⟨S100000x32, .f32⟩
  | 93 => ⟨S1x32, .f32⟩
  | 94 => ⟨S100000x32, .f32⟩
  | 95 => ⟨S100000x32, .f32⟩
  | 96 => ⟨S_, .f32⟩
  | 97 => ⟨S100000x32, .f32⟩
  | 98 => ⟨S100000x32, .f32⟩
  | 99 => ⟨S100000x32, .f32⟩
  | 100 => ⟨S1x32, .f32⟩
  | 101 => ⟨S100000x32, .f32⟩
  | 102 => ⟨S100000x32, .f32⟩
  | 103 => ⟨S1x32, .f32⟩
  | 104 => ⟨S100000x32, .f32⟩
  | 105 => ⟨S100000x32, .f32⟩
  | 106 => ⟨S_, .f32⟩
  | 107 => ⟨S32, .f32⟩
  | 108 => ⟨S32, .f32⟩
  | 109 => ⟨S32, .f32⟩
  | 110 => ⟨S32, .f32⟩
  | 111 => ⟨S1x32, .f32⟩
  | 112 => ⟨S100000x32, .f32⟩
  | 113 => ⟨S100000x32, .f32⟩
  | 114 => ⟨S1x32, .f32⟩
  | 115 => ⟨S100000x32, .f32⟩
  | 116 => ⟨S100000x32, .f32⟩
  | 117 => ⟨S1x1600000, .i32⟩
  | 118 => ⟨S1600000, .i32⟩
  | 119 => ⟨S_, .i32⟩
  | 120 => ⟨S1600000, .i32⟩
  | 121 => ⟨S1600000, .i1⟩
  | 122 => ⟨S_, .i32⟩
  | 123 => ⟨S1600000, .i32⟩
  | 124 => ⟨S1600000, .i32⟩
  | 125 => ⟨S1600000, .i32⟩
  | 126 => ⟨S1600000x1, .i32⟩
  | 127 => ⟨S1600000x32, .f32⟩
  | _ => ⟨S100000x6, .f32⟩

abbrev hbmTy0_1 (i : Nat) : BufTy := match i % 128 with
  | 0 => ⟨S1x1600000, .i32⟩
  | 1 => ⟨S1600000, .i32⟩
  | 2 => ⟨S_, .f32⟩
  | 3 => ⟨S100000x32, .f32⟩
  | 4 => ⟨S1600000x1, .i32⟩
  | 5 => ⟨S100000x32, .f32⟩
  | 6 => ⟨S100000x32, .f32⟩
  | 7 => ⟨S100000x32, .f32⟩
  | 8 => ⟨S1x32, .f32⟩
  | 9 => ⟨S100000x32, .f32⟩
  | 10 => ⟨S100000x32, .f32⟩
  | 11 => ⟨S_, .f32⟩
  | 12 => ⟨S100000x32, .f32⟩
  | 13 => ⟨S100000x32, .f32⟩
  | 14 => ⟨S100000x32, .f32⟩
  | 15 => ⟨S1x32, .f32⟩
  | 16 => ⟨S100000x32, .f32⟩
  | 17 => ⟨S100000x32, .f32⟩
  | 18 => ⟨S1x32, .f32⟩
  | 19 => ⟨S100000x32, .f32⟩
  | 20 => ⟨S100000x32, .f32⟩
  | 21 => ⟨S_, .f32⟩
  | 22 => ⟨S32, .f32⟩
  | 23 => ⟨S32, .f32⟩
  | 24 => ⟨S32, .f32⟩
  | 25 => ⟨S32, .f32⟩
  | 26 => ⟨S1x32, .f32⟩
  | 27 => ⟨S100000x32, .f32⟩
  | 28 => ⟨S100000x32, .f32⟩
  | 29 => ⟨S1x32, .f32⟩
  | 30 => ⟨S100000x32, .f32⟩
  | 31 => ⟨S100000x32, .f32⟩
  | 32 => ⟨S_, .f32⟩
  | 33 => ⟨S256x32, .f32⟩
  | 34 => ⟨S100000x1, .i32⟩
  | 35 => ⟨S256x32, .f32⟩
  | 36 => ⟨S_, .f32⟩
  | 37 => ⟨S100000, .f32⟩
  | 38 => ⟨S_, .f32⟩
  | 39 => ⟨S256, .f32⟩
  | 40 => ⟨S100000x1, .i32⟩
  | 41 => ⟨S256, .f32⟩
  | 42 => ⟨S_, .f32⟩
  | 43 => ⟨S256, .f32⟩
  | 44 => ⟨S256, .f32⟩
  | 45 => ⟨S256x1, .f32⟩
  | 46 => ⟨S256x32, .f32⟩
  | 47 => ⟨S256x32, .f32⟩
  | 48 => ⟨S256x16, .f32⟩
  | 49 => ⟨S1x16, .f32⟩
  | 50 => ⟨S256x16, .f32⟩
  | 51 => ⟨S256x16, .f32⟩
  | 52 => ⟨S_, .f32⟩
  | 53 => ⟨S256x16, .f32⟩
  | 54 => ⟨S256x16, .f32⟩
  | 55 => ⟨S256x1, .f32⟩
  | 56 => ⟨S1x1, .f32⟩
  | 57 => ⟨S256x1, .f32⟩
  | 58 => ⟨S256x1, .f32⟩
  | 59 => ⟨S256x1, .f32⟩
  | 60 => ⟨S256x1, .f32⟩
  | 61 => ⟨S_, .f32⟩
  | 62 => ⟨S256x1, .f32⟩
  | 63 => ⟨S256x1, .f32⟩
  | 64 => ⟨S_, .f32⟩
  | 65 => ⟨S256x1, .f32⟩
  | 66 => ⟨S256x1, .f32⟩
  | _ => ⟨S100000x6, .f32⟩

abbrev hbmTy (i : Nat) : BufTy := match i / 128 with
  | 0 => hbmTy0_0 i
  | 1 => hbmTy0_1 i
  | _ => ⟨S100000x6, .f32⟩

abbrev bufTy : (tb : Table) → Fin (tcTables nBuf tb) → BufTy
  | .hbm, ⟨i, _⟩ => hbmTy i
  | _, _ => ⟨S100000x6, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_arg23 : Ref sig .tc := ⟨.hbm, 23, rfl⟩
abbrev main_arg24 : Ref sig .tc := ⟨.hbm, 24, rfl⟩
abbrev main_arg25 : Ref sig .tc := ⟨.hbm, 25, rfl⟩
abbrev main_arg26 : Ref sig .tc := ⟨.hbm, 26, rfl⟩
abbrev main_arg27 : Ref sig .tc := ⟨.hbm, 27, rfl⟩
abbrev main_arg28 : Ref sig .tc := ⟨.hbm, 28, rfl⟩
abbrev main_arg29 : Ref sig .tc := ⟨.hbm, 29, rfl⟩
abbrev main_arg30 : Ref sig .tc := ⟨.hbm, 30, rfl⟩
abbrev main_v0 : Ref sig .tc := ⟨.hbm, 31, rfl⟩
abbrev main_v1 : Ref sig .tc := ⟨.hbm, 32, rfl⟩
abbrev main_c : Ref sig .tc := ⟨.hbm, 33, rfl⟩
abbrev main_v2 : Ref sig .tc := ⟨.hbm, 34, rfl⟩
abbrev main_v3 : Ref sig .tc := ⟨.hbm, 35, rfl⟩
abbrev main_c_0 : Ref sig .tc := ⟨.hbm, 36, rfl⟩
abbrev main_v4 : Ref sig .tc := ⟨.hbm, 37, rfl⟩
abbrev main_v5 : Ref sig .tc := ⟨.hbm, 38, rfl⟩
abbrev main_v6 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_cst : Ref sig .tc := ⟨.hbm, 44, rfl⟩
abbrev main_v11 : Ref sig .tc := ⟨.hbm, 45, rfl⟩
abbrev main_v12 : Ref sig .tc := ⟨.hbm, 46, rfl⟩
abbrev main_v13 : Ref sig .tc := ⟨.hbm, 47, rfl⟩
abbrev main_v14 : Ref sig .tc := ⟨.hbm, 48, rfl⟩
abbrev main_v15 : Ref sig .tc := ⟨.hbm, 49, rfl⟩
abbrev main_v16 : Ref sig .tc := ⟨.hbm, 50, rfl⟩
abbrev main_v17 : Ref sig .tc := ⟨.hbm, 51, rfl⟩
abbrev main_v18 : Ref sig .tc := ⟨.hbm, 52, rfl⟩
abbrev main_cst_1 : Ref sig .tc := ⟨.hbm, 53, rfl⟩
abbrev main_v19 : Ref sig .tc := ⟨.hbm, 54, rfl⟩
abbrev main_v20 : Ref sig .tc := ⟨.hbm, 55, rfl⟩
abbrev main_v21 : Ref sig .tc := ⟨.hbm, 56, rfl⟩
abbrev main_v22 : Ref sig .tc := ⟨.hbm, 57, rfl⟩
abbrev main_v23 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_cst_2 : Ref sig .tc := ⟨.hbm, 63, rfl⟩
abbrev main_v28 : Ref sig .tc := ⟨.hbm, 64, rfl⟩
abbrev main_v29 : Ref sig .tc := ⟨.hbm, 65, rfl⟩
abbrev main_v30 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_c_3 : Ref sig .tc := ⟨.hbm, 76, rfl⟩
abbrev main_v40 : Ref sig .tc := ⟨.hbm, 77, rfl⟩
abbrev main_v41 : Ref sig .tc := ⟨.hbm, 78, rfl⟩
abbrev main_c_4 : Ref sig .tc := ⟨.hbm, 79, rfl⟩
abbrev main_v42 : Ref sig .tc := ⟨.hbm, 80, rfl⟩
abbrev main_v43 : Ref sig .tc := ⟨.hbm, 81, rfl⟩
abbrev main_v44 : Ref sig .tc := ⟨.hbm, 82, rfl⟩
abbrev main_v45 : Ref sig .tc := ⟨.hbm, 83, rfl⟩
abbrev main_v46 : Ref sig .tc := ⟨.hbm, 84, rfl⟩
abbrev main_v47 : Ref sig .tc := ⟨.hbm, 85, rfl⟩
abbrev main_v48 : Ref sig .tc := ⟨.hbm, 86, rfl⟩
abbrev main_cst_5 : Ref sig .tc := ⟨.hbm, 87, rfl⟩
abbrev main_v49 : Ref sig .tc := ⟨.hbm, 88, rfl⟩
abbrev main_v50 : Ref sig .tc := ⟨.hbm, 89, rfl⟩
abbrev main_v51 : Ref sig .tc := ⟨.hbm, 90, rfl⟩
abbrev main_v52 : Ref sig .tc := ⟨.hbm, 91, rfl⟩
abbrev main_v53 : Ref sig .tc := ⟨.hbm, 92, rfl⟩
abbrev main_v54 : Ref sig .tc := ⟨.hbm, 93, rfl⟩
abbrev main_v55 : Ref sig .tc := ⟨.hbm, 94, rfl⟩
abbrev main_v56 : Ref sig .tc := ⟨.hbm, 95, rfl⟩
abbrev main_cst_6 : Ref sig .tc := ⟨.hbm, 96, rfl⟩
abbrev main_v57 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_cst_7 : Ref sig .tc := ⟨.hbm, 106, rfl⟩
abbrev main_v66 : Ref sig .tc := ⟨.hbm, 107, rfl⟩
abbrev main_v67 : Ref sig .tc := ⟨.hbm, 108, rfl⟩
abbrev main_v68 : Ref sig .tc := ⟨.hbm, 109, rfl⟩
abbrev main_v69 : Ref sig .tc := ⟨.hbm, 110, rfl⟩
abbrev main_v70 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_c_8 : Ref sig .tc := ⟨.hbm, 119, rfl⟩
abbrev main_v78 : Ref sig .tc := ⟨.hbm, 120, rfl⟩
abbrev main_v79 : Ref sig .tc := ⟨.hbm, 121, rfl⟩
abbrev main_c_9 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_v85 : Ref sig .tc := ⟨.hbm, 128, rfl⟩
abbrev main_v86 : Ref sig .tc := ⟨.hbm, 129, rfl⟩
abbrev main_cst_10 : Ref sig .tc := ⟨.hbm, 130, rfl⟩
abbrev main_v87 : Ref sig .tc := ⟨.hbm, 131, rfl⟩
abbrev main_v88 : Ref sig .tc := ⟨.hbm, 132, rfl⟩
abbrev main_v89 : Ref sig .tc := ⟨.hbm, 133, rfl⟩
abbrev main_v90 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_cst_11 : Ref sig .tc := ⟨.hbm, 139, rfl⟩
abbrev main_v95 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_cst_12 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_cst_13 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_cst_14 : Ref sig .tc := ⟨.hbm, 164, rfl⟩
abbrev main_v117 : Ref sig .tc := ⟨.hbm, 165, rfl⟩
abbrev main_cst_15 : Ref sig .tc := ⟨.hbm, 166, rfl⟩
abbrev main_v118 : Ref sig .tc := ⟨.hbm, 167, rfl⟩
abbrev main_v119 : Ref sig .tc := ⟨.hbm, 168, rfl⟩
abbrev main_v120 : Ref sig .tc := ⟨.hbm, 169, rfl⟩
abbrev main_cst_16 : Ref sig .tc := ⟨.hbm, 170, rfl⟩
abbrev main_v121 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_cst_17 : Ref sig .tc := ⟨.hbm, 180, rfl⟩
abbrev main_v130 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_cst_18 : Ref sig .tc := ⟨.hbm, 189, rfl⟩
abbrev main_v138 : Ref sig .tc := ⟨.hbm, 190, rfl⟩
abbrev main_v139 : Ref sig .tc := ⟨.hbm, 191, rfl⟩
abbrev main_cst_19 : Ref sig .tc := ⟨.hbm, 192, rfl⟩
abbrev main_v140 : Ref sig .tc := ⟨.hbm, 193, rfl⟩
abbrev main_v141 : Ref sig .tc := ⟨.hbm, 194, rfl⟩

abbrev nD : Nat := 1
abbrev τ : Topo := Topo.v7x

variable {F : FTy → Type} [FloatOps F]

class Facts₀ : Prop where
  slices_S2x1600000_S1x1600000_0_0 : S2x1600000.Slices ![0, 0] S1x1600000
  shapeCasts_S1x1600000_S1600000 : S1x1600000.ShapeCasts S1600000
  bcast_S_S1600000 : S_.BroadcastsInDim S1600000 (![] : Fin 0 → Fin S1600000.rank)
  bcast_S1600000_S1600000x1_0 : S1600000.BroadcastsInDim S1600000x1 (![0] : Fin 1 → Fin S1600000x1.rank)
  slices_S2x1600000_S1x1600000_1_0 : S2x1600000.Slices ![1, 0] S1x1600000
  bcast_S_S100000x6 : S_.BroadcastsInDim S100000x6 (![] : Fin 0 → Fin S100000x6.rank)
  bcast_S32_S1x32_1 : S32.BroadcastsInDim S1x32 (![1] : Fin 1 → Fin S1x32.rank)
  bcast_S1x32_S100000x32_0_1 : S1x32.BroadcastsInDim S100000x32 (![0, 1] : Fin 2 → Fin S100000x32.rank)
  bcast_S_S100000x32 : S_.BroadcastsInDim S100000x32 (![] : Fin 0 → Fin S100000x32.rank)
  bcast_S_S32 : S_.BroadcastsInDim S32 (![] : Fin 0 → Fin S32.rank)
  bcast_S_S256x32 : S_.BroadcastsInDim S256x32 (![] : Fin 0 → Fin S256x32.rank)
  bcast_S100000_S100000x1_0 : S100000.BroadcastsInDim S100000x1 (![0] : Fin 1 → Fin S100000x1.rank)
  bcast_S_S100000 : S_.BroadcastsInDim S100000 (![] : Fin 0 → Fin S100000.rank)
  bcast_S_S256 : S_.BroadcastsInDim S256 (![] : Fin 0 → Fin S256.rank)
  bcast_S256_S256x1_0 : S256.BroadcastsInDim S256x1 (![0] : Fin 1 → Fin S256x1.rank)
  bcast_S256x1_S256x32_0_1 : S256x1.BroadcastsInDim S256x32 (![0, 1] : Fin 2 → Fin S256x32.rank)
  bcast_S16_S1x16_1 : S16.BroadcastsInDim S1x16 (![1] : Fin 1 → Fin S1x16.rank)
  bcast_S1x16_S256x16_0_1 : S1x16.BroadcastsInDim S256x16 (![0, 1] : Fin 2 → Fin S256x16.rank)
  bcast_S_S256x16 : S_.BroadcastsInDim S256x16 (![] : Fin 0 → Fin S256x16.rank)
  bcast_S1_S1x1_1 : S1.BroadcastsInDim S1x1 (![1] : Fin 1 → Fin S1x1.rank)
  bcast_S1x1_S256x1_0_1 : S1x1.BroadcastsInDim S256x1 (![0, 1] : Fin 2 → Fin S256x1.rank)
  bcast_S_S256x1 : S_.BroadcastsInDim S256x1 (![] : Fin 0 → Fin S256x1.rank)
  gather_S100000x6_S1600000x1_S1600000x6_1_0_n_n_0_1_16_wf : GatherDims.WF S100000x6 S1600000x1 S1600000x6 [1] [0] [] [0] [] 1 ![1, 6]
  scatter_S100000x6_S1600000x1_S1600000x6_1_0_0_1_wf : ScatterDims.WF S100000x6 S1600000x1 S1600000x6 [1] [0] [0] 1
  dot_S100000x6_S6x32_S100000x32_1_0_0_1_n_n_wf : DotDims.WF S100000x6 S6x32 S100000x32 [1] [0] [0] [1] [] []
  dot_S100000x32_S32x32_S100000x32_1_0_0_1_n_n_wf : DotDims.WF S100000x32 S32x32 S100000x32 [1] [0] [0] [1] [] []
  gather_S100000x32_S1600000x1_S1600000x32_1_0_n_n_0_1_132_wf : GatherDims.WF S100000x32 S1600000x1 S1600000x32 [1] [0] [] [0] [] 1 ![1, 32]
  scatter_S100000x32_S1600000x1_S1600000x32_1_0_0_1_wf : ScatterDims.WF S100000x32 S1600000x1 S1600000x32 [1] [0] [0] 1
  scatter_S256x32_S100000x1_S100000x32_1_0_0_1_wf : ScatterDims.WF S256x32 S100000x1 S100000x32 [1] [0] [0] 1
  scatter_S256_S100000x1_S100000_n_0_0_1_wf : ScatterDims.WF S256 S100000x1 S100000 [] [0] [0] 1
  dot_S256x32_S32x16_S256x16_1_0_0_1_n_n_wf : DotDims.WF S256x32 S32x16 S256x16 [1] [0] [0] [1] [] []
  dot_S256x16_S16x1_S256x1_1_0_0_1_n_n_wf : DotDims.WF S256x16 S16x1 S256x1 [1] [0] [0] [1] [] []

variable [Facts₀]

def gather_S100000x6_S1600000x1_S1600000x6_1_0_n_n_0_1_16 : GatherDims S100000x6 S1600000x1 S1600000x6 where
  offsetDims := [1]
  collapsedSliceDims := [0]
  operandBatchingDims := []
  startIndicesBatchingDims := []
  startIndexMap := [0]
  indexVectorDim := 1
  sliceSizes := ![1, 6]
  wf := gather_S100000x6_S1600000x1_S1600000x6_1_0_n_n_0_1_16_wf
def scatter_S100000x6_S1600000x1_S1600000x6_1_0_0_1 : ScatterDims S100000x6 S1600000x1 S1600000x6 where
  updateWindowDims := [1]
  insertedWindowDims := [0]
  scatterDimsToOperandDims := [0]
  indexVectorDim := 1
  wf := scatter_S100000x6_S1600000x1_S1600000x6_1_0_0_1_wf
def dot_S100000x6_S6x32_S100000x32_1_0_0_1_n_n : DotDims S100000x6 S6x32 S100000x32 where
  lhsContracting := [1]
  rhsContracting := [0]
  lhsNonContracting := [0]
  rhsNonContracting := [1]
  lhsBatch := []
  rhsBatch := []
  wf := dot_S100000x6_S6x32_S100000x32_1_0_0_1_n_n_wf
def dot_S100000x32_S32x32_S100000x32_1_0_0_1_n_n : DotDims S100000x32 S32x32 S100000x32 where
  lhsContracting := [1]
  rhsContracting := [0]
  lhsNonContracting := [0]
  rhsNonContracting := [1]
  lhsBatch := []
  rhsBatch := []
  wf := dot_S100000x32_S32x32_S100000x32_1_0_0_1_n_n_wf
def gather_S100000x32_S1600000x1_S1600000x32_1_0_n_n_0_1_132 : GatherDims S100000x32 S1600000x1 S1600000x32 where
  offsetDims := [1]
  collapsedSliceDims := [0]
  operandBatchingDims := []
  startIndicesBatchingDims := []
  startIndexMap := [0]
  indexVectorDim := 1
  sliceSizes := ![1, 32]
  wf := gather_S100000x32_S1600000x1_S1600000x32_1_0_n_n_0_1_132_wf
def scatter_S100000x32_S1600000x1_S1600000x32_1_0_0_1 : ScatterDims S100000x32 S1600000x1 S1600000x32 where
  updateWindowDims := [1]
  insertedWindowDims := [0]
  scatterDimsToOperandDims := [0]
  indexVectorDim := 1
  wf := scatter_S100000x32_S1600000x1_S1600000x32_1_0_0_1_wf
def scatter_S256x32_S100000x1_S100000x32_1_0_0_1 : ScatterDims S256x32 S100000x1 S100000x32 where
  updateWindowDims := [1]
  insertedWindowDims := [0]
  scatterDimsToOperandDims := [0]
  indexVectorDim := 1
  wf := scatter_S256x32_S100000x1_S100000x32_1_0_0_1_wf
def scatter_S256_S100000x1_S100000_n_0_0_1 : ScatterDims S256 S100000x1 S100000 where
  updateWindowDims := []
  insertedWindowDims := [0]
  scatterDimsToOperandDims := [0]
  indexVectorDim := 1
  wf := scatter_S256_S100000x1_S100000_n_0_0_1_wf
def dot_S256x32_S32x16_S256x16_1_0_0_1_n_n : DotDims S256x32 S32x16 S256x16 where
  lhsContracting := [1]
  rhsContracting := [0]
  lhsNonContracting := [0]
  rhsNonContracting := [1]
  lhsBatch := []
  rhsBatch := []
  wf := dot_S256x32_S32x16_S256x16_1_0_0_1_n_n_wf
def dot_S256x16_S16x1_S256x1_1_0_0_1_n_n : DotDims S256x16 S16x1 S256x1 where
  lhsContracting := [1]
  rhsContracting := [0]
  lhsNonContracting := [0]
  rhsNonContracting := [1]
  lhsBatch := []
  rhsBatch := []
  wf := dot_S256x16_S16x1_S256x1_1_0_0_1_n_n_wf

class Facts : Prop extends Facts₀ where

variable [Facts]
-- ==== Proof.KernelRun.lean ====
/-
  The kernel program's run, with its result read.

  The program is seven segments: four stretches of host operations around three kernel regions. The buffer contents
  at each boundary are a fold from the launch memory (a stretch applies its operations; a region replaces its output
  array by what its write-backs leave). Every weakly fair execution terminates in a state whose unscoped buffers hold
  the last boundary's contents; in particular the result buffer holds that fold read at it, and each argument is
  as launched.
-/
import proofs.«112878_j34256659153346_1_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates, nothing faulting, in a state where every unscoped buffer
    of every core holds the contents of the last segment boundary. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W7 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W7 m ρ c b)
    (hfin := fun c s' => by
      iintro ⟨⟨Hh, -⟩, HSI⟩
      unfold StableHlo.held
      imodintro
      iapply (pointsTo_read_all (Pipeline.ucRefs τ sig) (fun b => (((c : Thread nD τ)).1, b)) (W7 m ρ c) s')
      isplitl [Hh] <;> iassumption)
    (hQ := fun s h => h)

/-- The same run with the result buffer and the arguments named: the result holds the last boundary's contents
    at it, and no argument has changed. -/
theorem run_result : θ_run defs (onTc (τ := τ) (main (F := F))) ⟨m, fun _ => 0, ρ⟩ (fun r => ∀ c : Dev nD,
      r.2.mem ((c : Thread nD τ).loc main_v90) = W7 m ρ c (Proc.devRef .tc main_v90)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9)
      ∧ r.2.mem ((c : Thread nD τ).loc main_arg10) = m ((c : Thread nD τ).loc main_arg10)
      ∧ r.2.mem ((c : Thread nD τ).loc main_arg11) = m ((c : Thread nD τ).loc main_arg11)
      ∧ r.2.mem ((c : Thread nD τ).loc main_arg12) = m ((c : Thread nD τ).loc main_arg12)
      ∧ r.2.mem ((c : Thread nD τ).loc main_arg13) = m ((c : Thread nD τ).loc main_arg13)
      ∧ r.2.mem ((c : Thread nD τ).loc main_arg14) = m ((c : Thread nD τ).loc main_arg14)
      ∧ r.2.mem ((c : Thread nD τ).loc main_arg15) = m ((c : Thread nD τ).loc main_arg15)
      ∧ r.2.mem ((c : Thread nD τ).loc main_arg16) = m ((c : Thread nD τ).loc main_arg16)
      ∧ r.2.mem ((c : Thread nD τ).loc main_arg17) = m ((c : Thread nD τ).loc main_arg17)
      ∧ r.2.mem ((c : Thread nD τ).loc main_arg18) = m ((c : Thread nD τ).loc main_arg18)
      ∧ r.2.mem ((c : Thread nD τ).loc main_arg19) = m ((c : Thread nD τ).loc main_arg19)
      ∧ r.2.mem ((c : Thread nD τ).loc main_arg20) = m ((c : Thread nD τ).loc main_arg20)
      ∧ r.2.mem ((c : Thread nD τ).loc main_arg21) = m ((c : Thread nD τ).loc main_arg21)
      ∧ r.2.mem ((c : Thread nD τ).loc main_arg22) = m ((c : Thread nD τ).loc main_arg22)
      ∧ r.2.mem ((c : Thread nD τ).loc main_arg23) = m ((c : Thread nD τ).loc main_arg23)
      ∧ r.2.mem ((c : Thread nD τ).loc main_arg24) = m ((c : Thread nD τ).loc main_arg24)
      ∧ r.2.mem ((c : Thread nD τ).loc main_arg25) = m ((c : Thread nD τ).loc main_arg25)
      ∧ r.2.mem ((c : Thread nD τ).loc main_arg26) = m ((c : Thread nD τ).loc main_arg26)
      ∧ r.2.mem ((c : Thread nD τ).loc main_arg27) = m ((c : Thread nD τ).loc main_arg27)
      ∧ r.2.mem ((c : Thread nD τ).loc main_arg28) = m ((c : Thread nD τ).loc main_arg28)
      ∧ r.2.mem ((c : Thread nD τ).loc main_arg29) = m ((c : Thread nD τ).loc main_arg29)
      ∧ r.2.mem ((c : Thread nD τ).loc main_arg30) = m ((c : Thread nD τ).loc main_arg30)) :=
  (θ_run defs _ _).mono (fun r h c =>
    ⟨h c _ (mem_uc main_v90 (by decide)),
      (h c _ (mem_uc main_arg0 (by decide))).trans (W7_main_arg0 m ρ c),
      (h c _ (mem_uc main_arg1 (by decide))).trans (W7_main_arg1 m ρ c),
      (h c _ (mem_uc main_arg2 (by decide))).trans (W7_main_arg2 m ρ c),
      (h c _ (mem_uc main_arg3 (by decide))).trans (W7_main_arg3 m ρ c),
      (h c _ (mem_uc main_arg4 (by decide))).trans (W7_main_arg4 m ρ c),
      (h c _ (mem_uc main_arg5 (by decide))).trans (W7_main_arg5 m ρ c),
      (h c _ (mem_uc main_arg6 (by decide))).trans (W7_main_arg6 m ρ c),
      (h c _ (mem_uc main_arg7 (by decide))).trans (W7_main_arg7 m ρ c),
      (h c _ (mem_uc main_arg8 (by decide))).trans (W7_main_arg8 m ρ c),
      (h c _ (mem_uc main_arg9 (by decide))).trans (W7_main_arg9 m ρ c),
      (h c _ (mem_uc main_arg10 (by decide))).trans (W7_main_arg10 m ρ c),
      (h c _ (mem_uc main_arg11 (by decide))).trans (W7_main_arg11 m ρ c),
      (h c _ (mem_uc main_arg12 (by decide))).trans (W7_main_arg12 m ρ c),
      (h c _ (mem_uc main_arg13 (by decide))).trans (W7_main_arg13 m ρ c),
      (h c _ (mem_uc main_arg14 (by decide))).trans (W7_main_arg14 m ρ c),
      (h c _ (mem_uc main_arg15 (by decide))).trans (W7_main_arg15 m ρ c),
      (h c _ (mem_uc main_arg16 (by decide))).trans (W7_main_arg16 m ρ c),
      (h c _ (mem_uc main_arg17 (by decide))).trans (W7_main_arg17 m ρ c),
      (h c _ (mem_uc main_arg18 (by decide))).trans (W7_main_arg18 m ρ c),
      (h c _ (mem_uc main_arg19 (by decide))).trans (W7_main_arg19 m ρ c),
      (h c _ (mem_uc main_arg20 (by decide))).trans (W7_main_arg20 m ρ c),
      (h c _ (mem_uc main_arg21 (by decide))).trans (W7_main_arg21 m ρ c),
      (h c _ (mem_uc main_arg22 (by decide))).trans (W7_main_arg22 m ρ c),
      (h c _ (mem_uc main_arg23 (by decide))).trans (W7_main_arg23 m ρ c),
      (h c _ (mem_uc main_arg24 (by decide))).trans (W7_main_arg24 m ρ c),
      (h c _ (mem_uc main_arg25 (by decide))).trans (W7_main_arg25 m ρ c),
      (h c _ (mem_uc main_arg26 (by decide))).trans (W7_main_arg26 m ρ c),
      (h c _ (mem_uc main_arg27 (by decide))).trans (W7_main_arg27 m ρ c),
      (h c _ (mem_uc main_arg28 (by decide))).trans (W7_main_arg28 m ρ c),
      (h c _ (mem_uc main_arg29 (by decide))).trans (W7_main_arg29 m ρ c),
      (h c _ (mem_uc main_arg30 (by decide))).trans (W7_main_arg30 m ρ c)⟩)
    (run_all m ρ)

end Cert.KernelIdeal.Run

end
-- ==== Proof.LibNormalize.lean ====
import Idealize.ShloMosaic.PureOps.Ideal
import Idealize.ShloMosaic.PureOps.Ideal.Laws

/-!
# Normalising by a root over the extended reals

General facts about the ideal float operations, for comparing a normalisation written
`x * rsqrt (v + ε)` with one written `x / sqrt (v + ε)`:

* `x / √s = x · (1/√s)` for every extended real `x` as soon as `0 < s` (at `s = +∞` both sides are `x · 0`);
  no finiteness of `x` is needed;
* a square is non-negative, so a mean of squares plus a positive `ε` is positive — again for all
  extended reals, infinite ones included;
* the float constants 128, 100000 and 10⁻⁵ (as rounded to binary32) denote positive reals.
-/

noncomputable section

namespace Cert.Norm

open Idealize.ShloMosaic

/-- Dividing by the root of a positive `s` is multiplying by its reciprocal root. -/
theorem div_sqrt_eq_mul_rsqrt (a s : EReal) (hs : 0 < s) : Ideal.div a (Ideal.sqrt s) = a * Ideal.rsqrt s := by
  induction s using EReal.rec with
  | bot => exact absurd hs (not_lt.mpr bot_le)
  | top => rw [Ideal.sqrt_top, Ideal.rsqrt_top, Ideal.div, if_neg EReal.top_ne_zero, EReal.inv_top]
  | coe r =>
    have hr : 0 < r := by exact_mod_cast hs
    have hsq : 0 < Real.sqrt r := Real.sqrt_pos.mpr hr
    rw [Ideal.sqrt_coe, Ideal.rsqrt_coe, if_neg (not_lt.mpr hr.le), if_neg (not_lt.mpr hr.le), if_neg hr.ne',
      Ideal.div, if_neg (by exact_mod_cast hsq.ne'), EReal.coe_inv]

/-- A square of an extended real is non-negative (`(±∞)² = +∞`). -/
theorem mul_self_nonneg (x : EReal) : 0 ≤ x * x := by
  induction x using EReal.rec with
  | bot => simp
  | top => simp
  | coe r => exact_mod_cast _root_.mul_self_nonneg r

/-- A sum of squares divided by a positive real, plus a positive real, is positive. -/
theorem meanSq_add_pos {n : ℕ} (d : Fin n → EReal) {c e : ℝ} (hc : 0 < c) (he : 0 < e) :
    0 < Ideal.div (∑ k, d k * d k) (c : EReal) + (e : EReal) := by
  rw [Ideal.div_coe hc.ne']
  have h1 : 0 ≤ ∑ k, d k * d k := Finset.sum_nonneg fun k _ => mul_self_nonneg (d k)
  have h2 : 0 ≤ (∑ k, d k * d k) * ((1 / c : ℝ) : EReal) :=
    mul_nonneg h1 (by exact_mod_cast (one_div_pos.mpr hc).le)
  exact lt_of_lt_of_le (by exact_mod_cast he) (le_add_of_nonneg_left h2)

/-- The binary32 pattern of 128.0 denotes the real 128. -/
theorem ofBits_128 : Ideal.ofBits .f32 0x43000000#32 = ((128 : ℝ) : EReal) := by
  simp [Ideal.ofBits, Ideal.ieee, -EReal.coe_mul]; norm_num

/-- The binary32 pattern of 100000.0 denotes the real 100000. -/
theorem ofBits_100000 : Ideal.ofBits .f32 0x47C35000#32 = ((100000 : ℝ) : EReal) := by
  simp [Ideal.ofBits, Ideal.ieee, -EReal.coe_mul]; norm_num

/-- The binary32 pattern nearest 10⁻⁵ denotes the positive real 10995116 / 2⁴⁰. -/
theorem ofBits_eps : Ideal.ofBits .f32 0x3727C5AC#32 = (((10995116 : ℝ) / 1099511627776 : ℝ) : EReal) := by
  simp [Ideal.ofBits, Ideal.ieee, -EReal.coe_mul]; norm_num

/-- So the variance-plus-ε under a row normalisation over 128 lanes is positive, -/
theorem var128_pos {n : ℕ} (d : Fin n → EReal) :
    0 < Ideal.div (∑ k, d k * d k) (Ideal.ofBits .f32 0x43000000#32) + Ideal.ofBits .f32 0x3727C5AC#32 := by
  rw [ofBits_128, ofBits_eps]; exact meanSq_add_pos d (by norm_num) (by norm_num)

/-- and the one under a normalisation over 100000 nodes. -/
theorem var100000_pos {n : ℕ} (d : Fin n → EReal) :
    0 < Ideal.div (∑ k, d k * d k) (Ideal.ofBits .f32 0x47C35000#32) + Ideal.ofBits .f32 0x3727C5AC#32 := by
  rw [ofBits_100000, ofBits_eps]; exact meanSq_add_pos d (by norm_num) (by norm_num)

end Cert.Norm

end
-- ==== Proof.GinRow.lean ====
/-
  One graph-isomorphism layer, read at one node and one output channel, over the extended reals.

  For a node with combined feature row `h` (its own features plus the sum over incoming edges), the layer computes
  `relu (h · Wa + ba) · Wb + bb`, then the inference-time batch normalisation `(· - mean) * scale + shift`.
  The row function below is that expression for one output channel `q`, the per-channel `scale` left as a
  parameter: one program forms it as `γ · rsqrt (var + ε)`, the other as `γ / sqrt (var + ε)`, and for a
  non-negative variance the two are the same extended real (`scale_eq`), because `var + ε` is then positive.
-/
import Idealize.ShloMosaic.PureOps.Ideal
import Idealize.ShloMosaic.PureOps.Ideal.Laws
import proofs.«112878_j34256659153346_1_alg».proof.Proof.LibNormalize

noncomputable section

namespace Cert.Gin

open Idealize.ShloMosaic

/-- The binary32 word nearest 10⁻⁵, as both programs carry it. -/
abbrev eps : EReal := Ideal.ofBits .f32 0x3727C5AC#32

/-- The binary32 zero word, against which the hidden layer is clamped. -/
abbrev zero32 : EReal := Ideal.ofBits .f32 0x00000000#32

/-- Output channel `q` of one layer at one node: two dense maps with a clamp at zero between them, then the
    normalisation with per-channel mean `mm`, scale `sc` and shift `bt`. -/
def row {D : ℕ} (h : Fin D → EReal) (wa : Fin D → Fin 32 → EReal) (ba : Fin 32 → EReal)
    (wb : Fin 32 → Fin 32 → EReal) (bb mm sc bt : Fin 32 → EReal) (q : Fin 32) : EReal :=
  ((∑ k2 : Fin 32, max ((∑ k1 : Fin D, h k1 * wa k1 k2) + ba k2) zero32 * wb k2 q) + bb q - mm q) * sc q + bt q

/-- ε denotes a positive real. -/
theorem eps_pos : 0 < eps := by
  rw [eps, Cert.Norm.ofBits_eps]
  exact_mod_cast (by norm_num : (0 : ℝ) < 10995116 / 1099511627776)

/-- For a non-negative variance `v` the scale `γ · rsqrt (v + ε)` is the quotient `γ / sqrt (v + ε)`: the
    radicand is positive, where the reciprocal root is the reciprocal of the root, for every extended real `γ`. -/
theorem scale_eq (g v : EReal) (hv : 0 ≤ v) :
    g * Ideal.rsqrt (v + eps) = Ideal.div g (Ideal.sqrt (v + eps)) :=
  (Cert.Norm.div_sqrt_eq_mul_rsqrt g (v + eps) (lt_of_lt_of_le eps_pos (le_add_of_nonneg_left hv))).symm

/-- The row function only depends on the scale through its values. -/
theorem row_congr_scale {D : ℕ} (h : Fin D → EReal) (wa : Fin D → Fin 32 → EReal) (ba : Fin 32 → EReal)
    (wb : Fin 32 → Fin 32 → EReal) (bb mm sc sc' bt : Fin 32 → EReal) (q : Fin 32) (e : sc q = sc' q) :
    row h wa ba wb bb mm sc bt q = row h wa ba wb bb mm sc' bt q := by
  unfold row; rw [e]

end Cert.Gin

end
-- ==== Proof.LibMatProd.lean ====
/-
  A contraction over ONE axis as the familiar matrix product, over the extended reals. For dimension numbers that
  contract the left operand's axis 1 against the right operand's axis 0 and keep the left's axis 0 and the right's
  axis 1 — a matrix product's, on a kernel's matrix unit or as a host contraction — the sum over the contraction's
  index set is `Σ_{k < K} x (r, k) · w (k, q)`. The four coordinate facts are hypotheses, read off each record where
  the lemma is used (two of them are the library's `lhsIdx_val_of_single` / `rhsIdx_val_of_single`).
-/
import Idealize.ShloMosaic.PureOps.Ideal
import Idealize.ShloMosaic.Lib.ValueIdx

noncomputable section

namespace Cert.Gcn.Dense

open Idealize.ShloMosaic Idealize.ShloMosaic.ValueIdx

/-- The matrix product of an `M × K` array and a `K × N` array of extended reals, index by index:
    entry `(r, q)` is `Σ_{k < K} x (r, k) · w (k, q)`. -/
def prod {M K N : Nat} (x : (⟨2, ![M, K]⟩ : Shape).Idx → EReal) (w : (⟨2, ![K, N]⟩ : Shape).Idx → EReal) :
    (⟨2, ![M, N]⟩ : Shape).Idx → EReal :=
  fun i => ∑ k : Fin K, x (ix2 (i 0) k) * w (ix2 k (i 1))

/-- A contraction over ONE axis of size `K`, the left operand's axis 1 against the right operand's axis 0, the
    left's axis 0 and the right's axis 1 kept: the sum over the contraction's index set is the sum over `k < K`
    that `prod` writes. The four hypotheses say which coordinate each operand index takes from where. -/
theorem sum_contr_eq_prod {M K N : Nat} (D : DotDims ⟨2, ![M, K]⟩ ⟨2, ![K, N]⟩ ⟨2, ![M, N]⟩)
    (hr : D.contr.rank = 1) (hs : D.contr.size ⟨0, by omega⟩ = K)
    (hl0 : ∀ (i : (⟨2, ![M, N]⟩ : Shape).Idx) (q : D.contr.Idx), (D.lhsIdx i q 0).val = (i 0).val)
    (hl1 : ∀ (i : (⟨2, ![M, N]⟩ : Shape).Idx) (q : D.contr.Idx), (D.lhsIdx i q 1).val = (q ⟨0, by omega⟩).val)
    (hr0 : ∀ (i : (⟨2, ![M, N]⟩ : Shape).Idx) (q : D.contr.Idx), (D.rhsIdx i q 0).val = (q ⟨0, by omega⟩).val)
    (hr1 : ∀ (i : (⟨2, ![M, N]⟩ : Shape).Idx) (q : D.contr.Idx), (D.rhsIdx i q 1).val = (i 1).val)
    (x : (⟨2, ![M, K]⟩ : Shape).Idx → EReal) (w : (⟨2, ![K, N]⟩ : Shape).Idx → EReal) (i : (⟨2, ![M, N]⟩ : Shape).Idx) :
    ∑ k : D.contr.Idx, x (D.lhsIdx i k) * w (D.rhsIdx i k) = prod x w i := by
  unfold prod
  rw [← Equiv.sum_comp (contrEquiv1 D K hr hs).symm]
  refine Finset.sum_congr rfl fun k _ => ?_
  have hk := contrEquiv1_symm_val D K hr hs k
  have el : D.lhsIdx i ((contrEquiv1 D K hr hs).symm k) = ix2 (i 0) k := funext fun a => Fin.ext (by
    match a with
    | ⟨0, _⟩ => exact hl0 _ _
    | ⟨1, _⟩ => exact (hl1 _ _).trans hk)
  have er : D.rhsIdx i ((contrEquiv1 D K hr hs).symm k) = ix2 k (i 1) := funext fun a => Fin.ext (by
    match a with
    | ⟨0, _⟩ => exact (hr0 _ _).trans hk
    | ⟨1, _⟩ => exact hr1 _ _)
  rw [el, er]
  rfl

end Cert.Gcn.Dense

end
-- ==== Proof.KernelRows.lean ====
/-
  The kernel's three layer bodies, read at one row and one channel of a block.

  Each body adds the node block and the aggregated-neighbour block, multiplies by the first weight matrix on the
  matrix unit (the operands' change of float format is the identity over the extended reals), adds the bias row,
  clamps at zero, multiplies by the second weight matrix, adds its bias row, and normalises with the mean, scale and
  shift rows. At `(p, q)` that is the layer's row function of row `p`.
-/
import proofs.«112878_j34256659153346_1_alg».proof.Proof.Gen.KernelIdeal.Skeleton
import proofs.«112878_j34256659153346_1_alg».proof.Proof.GinRow
import proofs.«112878_j34256659153346_1_alg».proof.Proof.LibMatProd
import Idealize.ShloMosaic.PureOps.Ideal.Laws
import Idealize.ShloMosaic.Lib.ValueIdx
import Idealize.ShloMosaic.Lib.ValueLayout
import Idealize.ShloMosaic.Lib.Pipeline.Value

noncomputable section

namespace Cert.KernelIdeal.Rows

open Cert.KernelIdeal Cert.KernelIdeal.Gen Idealize.ShloMosaic Idealize.ShloMosaic.ValueIdx

/-- The reciprocal root of a vector, read at an index. -/
theorem rsqrt_at {s : Shape} {φ : FTy} (v : FVec Ideal s φ) (i : s.Idx) : rsqrt v i = Ideal.rsqrt (v i) := rfl

/-- The product on `dot_S10000x6_S6x32_S10000x32_1_0_0_1_n_n`'s dimension numbers, into the zero accumulator, read at `(p, q)`:
    `Σ_k lhs (p, k) · rhs (k, q)`. The four coordinate facts are read off the record. -/
theorem dotA_at (lhs : FVec Ideal S10000x6 .bf16) (rhs : FVec Ideal S6x32 .bf16) (p : Fin 10000) (q : Fin 32) :
    matmul dot_S10000x6_S6x32_S10000x32_1_0_0_1_n_n none lhs rhs (constant S10000x32 .f32 0x00000000#32) (ix2 p q)
      = ∑ k : Fin 6, lhs (ix2 p k) * rhs (ix2 k q) := by
  refine (Ideal.matmul_constant_zero_apply _ none lhs rhs (ix2 p q)).trans ?_
  exact Cert.Gcn.Dense.sum_contr_eq_prod (M := 10000) (K := 6) (N := 32) dot_S10000x6_S6x32_S10000x32_1_0_0_1_n_n rfl rfl
    (fun i c => by
      unfold DotDims.lhsIdx
      rw [dif_neg (show ¬(0 : Fin S10000x6.rank) ∈ dot_S10000x6_S6x32_S10000x32_1_0_0_1_n_n.lhsBatch by decide),
        dif_pos (show (0 : Fin S10000x6.rank) ∈ dot_S10000x6_S6x32_S10000x32_1_0_0_1_n_n.lhsNonContracting by decide)]
      rfl)
    (fun i c => dot_S10000x6_S6x32_S10000x32_1_0_0_1_n_n.lhsIdx_val_of_single rfl i c)
    (fun i c => dot_S10000x6_S6x32_S10000x32_1_0_0_1_n_n.rhsIdx_val_of_single rfl i c)
    (fun i c => by
      unfold DotDims.rhsIdx
      rw [dif_neg (show ¬(1 : Fin S6x32.rank) ∈ dot_S10000x6_S6x32_S10000x32_1_0_0_1_n_n.rhsBatch by decide),
        dif_pos (show (1 : Fin S6x32.rank) ∈ dot_S10000x6_S6x32_S10000x32_1_0_0_1_n_n.rhsNonContracting by decide)]
      rfl)
    lhs rhs (ix2 p q)

/-- The product on `dot_S10000x32_S32x32_S10000x32_1_0_0_1_n_n`'s dimension numbers, into the zero accumulator, read at `(p, q)`:
    `Σ_k lhs (p, k) · rhs (k, q)`. The four coordinate facts are read off the record. -/
theorem dotB_at (lhs : FVec Ideal S10000x32 .bf16) (rhs : FVec Ideal S32x32 .bf16) (p : Fin 10000) (q : Fin 32) :
    matmul dot_S10000x32_S32x32_S10000x32_1_0_0_1_n_n none lhs rhs (constant S10000x32 .f32 0x00000000#32) (ix2 p q)
      = ∑ k : Fin 32, lhs (ix2 p k) * rhs (ix2 k q) := by
  refine (Ideal.matmul_constant_zero_apply _ none lhs rhs (ix2 p q)).trans ?_
  exact Cert.Gcn.Dense.sum_contr_eq_prod (M := 10000) (K := 32) (N := 32) dot_S10000x32_S32x32_S10000x32_1_0_0_1_n_n rfl rfl
    (fun i c => by
      unfold DotDims.lhsIdx
      rw [dif_neg (show ¬(0 : Fin S10000x32.rank) ∈ dot_S10000x32_S32x32_S10000x32_1_0_0_1_n_n.lhsBatch by decide),
        dif_pos (show (0 : Fin S10000x32.rank) ∈ dot_S10000x32_S32x32_S10000x32_1_0_0_1_n_n.lhsNonContracting by decide)]
      rfl)
    (fun i c => dot_S10000x32_S32x32_S10000x32_1_0_0_1_n_n.lhsIdx_val_of_single rfl i c)
    (fun i c => dot_S10000x32_S32x32_S10000x32_1_0_0_1_n_n.rhsIdx_val_of_single rfl i c)
    (fun i c => by
      unfold DotDims.rhsIdx
      rw [dif_neg (show ¬(1 : Fin S32x32.rank) ∈ dot_S10000x32_S32x32_S10000x32_1_0_0_1_n_n.rhsBatch by decide),
        dif_pos (show (1 : Fin S32x32.rank) ∈ dot_S10000x32_S32x32_S10000x32_1_0_0_1_n_n.rhsNonContracting by decide)]
      rfl)
    lhs rhs (ix2 p q)

/-- What region 0's body stores at row `p`, channel `q` of its block, from the blocks it loads: the layer's row
    function of the node's combined row `x0 (p, ·) + x1 (p, ·)`, the parameter rows read at their one row, the scale
    formed as `γ · rsqrt (var + ε)`. -/
theorem pay0_at (x0 x1 : Vec Ideal S10000x6 .f32) (x2 : Vec Ideal S6x32 .f32) (x3 : Vec Ideal S1x32 .f32)
    (x4 : Vec Ideal S32x32 .f32) (x5 x6 x7 x8 x9 : Vec Ideal S1x32 .f32) (p : Fin 10000) (q : Fin 32) :
    k0_pay1 (F := Ideal) (k0_pay2 (F := Ideal) x0 x1 x2 x3 x4 x5 x6 x9 x8) x7 (ix2 p q)
      = Cert.Gin.row (D := 6) (fun k => x0 (ix2 p k) + x1 (ix2 p k)) (fun k1 k2 => x2 (ix2 k1 k2))
          (fun k => x3 (ix2 (0 : Fin 1) k)) (fun k2 c => x4 (ix2 k2 c)) (fun k => x5 (ix2 (0 : Fin 1) k))
          (fun k => x8 (ix2 (0 : Fin 1) k))
          (fun k => x6 (ix2 (0 : Fin 1) k) * Ideal.rsqrt (x9 (ix2 (0 : Fin 1) k) + Cert.Gin.eps))
          (fun k => x7 (ix2 (0 : Fin 1) k)) q := by
  unfold k0_pay1 k0_pay2 Cert.Gin.row
  simp only [shapeCast_self, addf_apply, mulf_apply, subf_apply, maximumf_apply, truncf_apply, broadcast_apply,
    rsqrt_at, broadcastTo_1b_ab_apply, dotA_at, dotB_at]
  rfl

/-- What region 1's body stores at row `p`, channel `q` of its block, from the blocks it loads: the layer's row
    function of the node's combined row `x0 (p, ·) + x1 (p, ·)`, the parameter rows read at their one row, the scale
    formed as `γ · rsqrt (var + ε)`. -/
theorem pay1_at (x0 x1 : Vec Ideal S10000x32 .f32) (x2 : Vec Ideal S32x32 .f32) (x3 : Vec Ideal S1x32 .f32)
    (x4 : Vec Ideal S32x32 .f32) (x5 x6 x7 x8 x9 : Vec Ideal S1x32 .f32) (p : Fin 10000) (q : Fin 32) :
    k1_pay1 (F := Ideal) (k1_pay2 (F := Ideal) x0 x1 x2 x3 x4 x5 x6 x9 x8) x7 (ix2 p q)
      = Cert.Gin.row (D := 32) (fun k => x0 (ix2 p k) + x1 (ix2 p k)) (fun k1 k2 => x2 (ix2 k1 k2))
          (fun k => x3 (ix2 (0 : Fin 1) k)) (fun k2 c => x4 (ix2 k2 c)) (fun k => x5 (ix2 (0 : Fin 1) k))
          (fun k => x8 (ix2 (0 : Fin 1) k))
          (fun k => x6 (ix2 (0 : Fin 1) k) * Ideal.rsqrt (x9 (ix2 (0 : Fin 1) k) + Cert.Gin.eps))
          (fun k => x7 (ix2 (0 : Fin 1) k)) q := by
  unfold k1_pay1 k1_pay2 Cert.Gin.row
  simp only [shapeCast_self, addf_apply, mulf_apply, subf_apply, maximumf_apply, truncf_apply, broadcast_apply,
    rsqrt_at, broadcastTo_1b_ab_apply, dotB_at]
  rfl

/-- What region 2's body stores at row `p`, channel `q` of its block, from the blocks it loads: the layer's row
    function of the node's combined row `x0 (p, ·) + x1 (p, ·)`, the parameter rows read at their one row, the scale
    formed as `γ · rsqrt (var + ε)`. -/
theorem pay2_at (x0 x1 : Vec Ideal S10000x32 .f32) (x2 : Vec Ideal S32x32 .f32) (x3 : Vec Ideal S1x32 .f32)
    (x4 : Vec Ideal S32x32 .f32) (x5 x6 x7 x8 x9 : Vec Ideal S1x32 .f32) (p : Fin 10000) (q : Fin 32) :
    k2_pay1 (F := Ideal) (k2_pay2 (F := Ideal) x0 x1 x2 x3 x4 x5 x6 x9 x8) x7 (ix2 p q)
      = Cert.Gin.row (D := 32) (fun k => x0 (ix2 p k) + x1 (ix2 p k)) (fun k1 k2 => x2 (ix2 k1 k2))
          (fun k => x3 (ix2 (0 : Fin 1) k)) (fun k2 c => x4 (ix2 k2 c)) (fun k => x5 (ix2 (0 : Fin 1) k))
          (fun k => x8 (ix2 (0 : Fin 1) k))
          (fun k => x6 (ix2 (0 : Fin 1) k) * Ideal.rsqrt (x9 (ix2 (0 : Fin 1) k) + Cert.Gin.eps))
          (fun k => x7 (ix2 (0 : Fin 1) k)) q := by
  unfold k2_pay1 k2_pay2 Cert.Gin.row
  simp only [shapeCast_self, addf_apply, mulf_apply, subf_apply, maximumf_apply, truncf_apply, broadcast_apply,
    rsqrt_at, broadcastTo_1b_ab_apply, dotB_at]
  rfl

end Cert.KernelIdeal.Rows

end
-- ==== Proof.KernelLayers.lean ====
/-
  Each of the kernel's three regions leaves, in its output array, one layer applied to the arrays it found.

  A region runs its body at ten grid points; point `t` sees rows `t·10000 …` of the node and neighbour arrays and
  the whole of every parameter array, and writes rows `t·10000 …` of the output. So block `t` of the output is the
  layer's whole-array result restricted to those rows, the ten blocks fill the array, and the array at the region's
  exit is the layer's result — as a function of whatever contents `V` the region was entered with.
-/
import proofs.«112878_j34256659153346_1_alg».proof.Proof.Gen.KernelIdeal.Frame
import proofs.«112878_j34256659153346_1_alg».proof.Proof.KernelRows
import Idealize.ShloMosaic.Lib.Pipeline.Value
import Idealize.ShloMosaic.Lib.ValueIdx

set_option maxRecDepth 16384

noncomputable section

namespace Cert.KernelIdeal.Layers

open Cert.KernelIdeal Cert.KernelIdeal.Gen Idealize.ShloMosaic Idealize.ShloMosaic.TcCoe Idealize.ShloMosaic.ValueIdx
open Idealize.SL.Sem
open Idealize.ShloMosaic.Pipeline (Dat Cfg Window)

theorem hz : (![0, 0] : Fin 2 → Nat) = fun _ => 0 := funext fun a => by fin_cases a <;> rfl

/-- Row `p`, channel `q` of a layer applied to whole arrays: node features `X`, aggregated neighbours `A`
    (both `[100000, 6]`), the weights, and the bias / scale / shift / mean / variance rows as `[1, 32]` arrays. -/
def layerAt6 (X A : S100000x6.Idx → EReal) (wa : S6x32.Idx → EReal) (ba : S1x32.Idx → EReal) (wb : S32x32.Idx → EReal)
    (bb g bt mm vv : S1x32.Idx → EReal) (p : Fin 100000) (q : Fin 32) : EReal :=
  Cert.Gin.row (D := 6) (fun k => X (ix2 p k) + A (ix2 p k)) (fun k1 k2 => wa (ix2 k1 k2))
    (fun k => ba (ix2 (0 : Fin 1) k)) (fun k2 c => wb (ix2 k2 c)) (fun k => bb (ix2 (0 : Fin 1) k))
    (fun k => mm (ix2 (0 : Fin 1) k))
    (fun k => g (ix2 (0 : Fin 1) k) * Ideal.rsqrt (vv (ix2 (0 : Fin 1) k) + Cert.Gin.eps))
    (fun k => bt (ix2 (0 : Fin 1) k)) q

/-- The layer's `[100000, 32]` result as one function of the arrays. -/
def layer6 (X A : S100000x6.Idx → EReal) (wa : S6x32.Idx → EReal) (ba : S1x32.Idx → EReal) (wb : S32x32.Idx → EReal)
    (bb g bt mm vv : S1x32.Idx → EReal) : S100000x32.Idx → EReal :=
  fun i => layerAt6 X A wa ba wb bb g bt mm vv ⟨(i 0).val, (i 0).isLt⟩ ⟨(i 1).val, (i 1).isLt⟩

/-- Row `p`, channel `q` of a layer applied to whole arrays: node features `X`, aggregated neighbours `A`
    (both `[100000, 32]`), the weights, and the bias / scale / shift / mean / variance rows as `[1, 32]` arrays. -/
def layerAt32 (X A : S100000x32.Idx → EReal) (wa : S32x32.Idx → EReal) (ba : S1x32.Idx → EReal) (wb : S32x32.Idx → EReal)
    (bb g bt mm vv : S1x32.Idx → EReal) (p : Fin 100000) (q : Fin 32) : EReal :=
  Cert.Gin.row (D := 32) (fun k => X (ix2 p k) + A (ix2 p k)) (fun k1 k2 => wa (ix2 k1 k2))
    (fun k => ba (ix2 (0 : Fin 1) k)) (fun k2 c => wb (ix2 k2 c)) (fun k => bb (ix2 (0 : Fin 1) k))
    (fun k => mm (ix2 (0 : Fin 1) k))
    (fun k => g (ix2 (0 : Fin 1) k) * Ideal.rsqrt (vv (ix2 (0 : Fin 1) k) + Cert.Gin.eps))
    (fun k => bt (ix2 (0 : Fin 1) k)) q

/-- The layer's `[100000, 32]` result as one function of the arrays. -/
def layer32 (X A : S100000x32.Idx → EReal) (wa : S32x32.Idx → EReal) (ba : S1x32.Idx → EReal) (wb : S32x32.Idx → EReal)
    (bb g bt mm vv : S1x32.Idx → EReal) : S100000x32.Idx → EReal :=
  fun i => layerAt32 X A wa ba wb bb g bt mm vv ⟨(i 0).val, (i 0).isLt⟩ ⟨(i 1).val, (i 1).isLt⟩

/-- One block of region 0, over plain variables: if the node and neighbour blocks are rows `b·10000 + ·` of the
    arrays and every parameter block is its whole array, then the stored block at `j` is the layer's result at the
    array index `i` that `j` sits at. -/
theorem block0_eq (X A : S100000x6.Idx → EReal) (wa : S6x32.Idx → EReal) (ba : S1x32.Idx → EReal) (wb : S32x32.Idx → EReal)
    (bb g bt mm vv : S1x32.Idx → EReal)
    (x0 x1 : Vec Ideal S10000x6 .f32) (x2 : Vec Ideal S6x32 .f32) (x3 : Vec Ideal S1x32 .f32)
    (x4 : Vec Ideal S32x32 .f32) (x5 x6 x7 x8 x9 : Vec Ideal S1x32 .f32) (b : ℕ)
    (h0 : ∀ (y : S10000x6.Idx) (z : S100000x6.Idx), (z 0).val = b * 10000 + (y 0).val → (z 1).val = (y 1).val → x0 y = X z)
    (h1 : ∀ (y : S10000x6.Idx) (z : S100000x6.Idx), (z 0).val = b * 10000 + (y 0).val → (z 1).val = (y 1).val → x1 y = A z)
    (h2 : ∀ y, x2 y = wa y) (h3 : ∀ y, x3 y = ba y) (h4 : ∀ y, x4 y = wb y) (h5 : ∀ y, x5 y = bb y)
    (h6 : ∀ y, x6 y = g y) (h7 : ∀ y, x7 y = bt y) (h8 : ∀ y, x8 y = mm y) (h9 : ∀ y, x9 y = vv y)
    (j : S10000x32.Idx) (i : S100000x32.Idx) (hi0 : (i 0).val = b * 10000 + (j 0).val) (hi1 : (i 1).val = (j 1).val) :
    k0_pay1 (F := Ideal) (k0_pay2 (F := Ideal) x0 x1 x2 x3 x4 x5 x6 x9 x8) x7 j
      = layer6 X A wa ba wb bb g bt mm vv i := by
  obtain ⟨p, q, rfl⟩ : ∃ (p : Fin 10000) (q : Fin 32), j = ix2 p q := ⟨j 0, j 1, eq_ix2 j⟩
  rw [Rows.pay0_at]
  unfold layer6 layerAt6
  have e0 : ∀ k : Fin 6, x0 (ix2 p k) = X (ix2 (⟨(i 0).val, (i 0).isLt⟩ : Fin 100000) k) := fun k => h0 _ _ hi0 rfl
  have e1 : ∀ k : Fin 6, x1 (ix2 p k) = A (ix2 (⟨(i 0).val, (i 0).isLt⟩ : Fin 100000) k) := fun k => h1 _ _ hi0 rfl
  have eq : (⟨(i 1).val, (i 1).isLt⟩ : Fin 32) = q := Fin.ext hi1
  simp only [e0, e1, h2, h3, h4, h5, h6, h7, h8, h9, eq]

/-- One block of region 1, over plain variables: if the node and neighbour blocks are rows `b·10000 + ·` of the
    arrays and every parameter block is its whole array, then the stored block at `j` is the layer's result at the
    array index `i` that `j` sits at. -/
theorem block1_eq (X A : S100000x32.Idx → EReal) (wa : S32x32.Idx → EReal) (ba : S1x32.Idx → EReal) (wb : S32x32.Idx → EReal)
    (bb g bt mm vv : S1x32.Idx → EReal)
    (x0 x1 : Vec Ideal S10000x32 .f32) (x2 : Vec Ideal S32x32 .f32) (x3 : Vec Ideal S1x32 .f32)
    (x4 : Vec Ideal S32x32 .f32) (x5 x6 x7 x8 x9 : Vec Ideal S1x32 .f32) (b : ℕ)
    (h0 : ∀ (y : S10000x32.Idx) (z : S100000x32.Idx), (z 0).val = b * 10000 + (y 0).val → (z 1).val = (y 1).val → x0 y = X z)
    (h1 : ∀ (y : S10000x32.Idx) (z : S100000x32.Idx), (z 0).val = b * 10000 + (y 0).val → (z 1).val = (y 1).val → x1 y = A z)
    (h2 : ∀ y, x2 y = wa y) (h3 : ∀ y, x3 y = ba y) (h4 : ∀ y, x4 y = wb y) (h5 : ∀ y, x5 y = bb y)
    (h6 : ∀ y, x6 y = g y) (h7 : ∀ y, x7 y = bt y) (h8 : ∀ y, x8 y = mm y) (h9 : ∀ y, x9 y = vv y)
    (j : S10000x32.Idx) (i : S100000x32.Idx) (hi0 : (i 0).val = b * 10000 + (j 0).val) (hi1 : (i 1).val = (j 1).val) :
    k1_pay1 (F := Ideal) (k1_pay2 (F := Ideal) x0 x1 x2 x3 x4 x5 x6 x9 x8) x7 j
      = layer32 X A wa ba wb bb g bt mm vv i := by
  obtain ⟨p, q, rfl⟩ : ∃ (p : Fin 10000) (q : Fin 32), j = ix2 p q := ⟨j 0, j 1, eq_ix2 j⟩
  rw [Rows.pay1_at]
  unfold layer32 layerAt32
  have e0 : ∀ k : Fin 32, x0 (ix2 p k) = X (ix2 (⟨(i 0).val, (i 0).isLt⟩ : Fin 100000) k) := fun k => h0 _ _ hi0 rfl
  have e1 : ∀ k : Fin 32, x1 (ix2 p k) = A (ix2 (⟨(i 0).val, (i 0).isLt⟩ : Fin 100000) k) := fun k => h1 _ _ hi0 rfl
  have eq : (⟨(i 1).val, (i 1).isLt⟩ : Fin 32) = q := Fin.ext hi1
  simp only [e0, e1, h2, h3, h4, h5, h6, h7, h8, h9, eq]

/-- One block of region 2, over plain variables: if the node and neighbour blocks are rows `b·10000 + ·` of the
    arrays and every parameter block is its whole array, then the stored block at `j` is the layer's result at the
    array index `i` that `j` sits at. -/
theorem block2_eq (X A : S100000x32.Idx → EReal) (wa : S32x32.Idx → EReal) (ba : S1x32.Idx → EReal) (wb : S32x32.Idx → EReal)
    (bb g bt mm vv : S1x32.Idx → EReal)
    (x0 x1 : Vec Ideal S10000x32 .f32) (x2 : Vec Ideal S32x32 .f32) (x3 : Vec Ideal S1x32 .f32)
    (x4 : Vec Ideal S32x32 .f32) (x5 x6 x7 x8 x9 : Vec Ideal S1x32 .f32) (b : ℕ)
    (h0 : ∀ (y : S10000x32.Idx) (z : S100000x32.Idx), (z 0).val = b * 10000 + (y 0).val → (z 1).val = (y 1).val → x0 y = X z)
    (h1 : ∀ (y : S10000x32.Idx) (z : S100000x32.Idx), (z 0).val = b * 10000 + (y 0).val → (z 1).val = (y 1).val → x1 y = A z)
    (h2 : ∀ y, x2 y = wa y) (h3 : ∀ y, x3 y = ba y) (h4 : ∀ y, x4 y = wb y) (h5 : ∀ y, x5 y = bb y)
    (h6 : ∀ y, x6 y = g y) (h7 : ∀ y, x7 y = bt y) (h8 : ∀ y, x8 y = mm y) (h9 : ∀ y, x9 y = vv y)
    (j : S10000x32.Idx) (i : S100000x32.Idx) (hi0 : (i 0).val = b * 10000 + (j 0).val) (hi1 : (i 1).val = (j 1).val) :
    k2_pay1 (F := Ideal) (k2_pay2 (F := Ideal) x0 x1 x2 x3 x4 x5 x6 x9 x8) x7 j
      = layer32 X A wa ba wb bb g bt mm vv i := by
  obtain ⟨p, q, rfl⟩ : ∃ (p : Fin 10000) (q : Fin 32), j = ix2 p q := ⟨j 0, j 1, eq_ix2 j⟩
  rw [Rows.pay2_at]
  unfold layer32 layerAt32
  have e0 : ∀ k : Fin 32, x0 (ix2 p k) = X (ix2 (⟨(i 0).val, (i 0).isLt⟩ : Fin 100000) k) := fun k => h0 _ _ hi0 rfl
  have e1 : ∀ k : Fin 32, x1 (ix2 p k) = A (ix2 (⟨(i 0).val, (i 0).isLt⟩ : Fin 100000) k) := fun k => h1 _ _ hi0 rfl
  have eq : (⟨(i 1).val, (i 1).isLt⟩ : Fin 32) = q := Fin.ext hi1
  simp only [e0, e1, h2, h3, h4, h5, h6, h7, h8, h9, eq]

variable (V : (c : Dev nD) → (b : Ref sig .tc) → Buf (Elt Ideal) ((c : Thread nD τ).loc b))

/-! ## Region 0 -/

/-- The printed index maps of region 0, decided over its ten grid points: the node and neighbour windows move with the
    output window along the rows; every parameter window stays at its one block; the output's row-block index is
    the point's, below ten. -/
theorem idx_facts0 : ∀ t : Fin cfg0.N, win0_0.index t (0 : Fin 2) = win0_10.index t (0 : Fin 2)
    ∧ win0_0.index t (1 : Fin 2) = 0
    ∧ win0_1.index t (0 : Fin 2) = win0_10.index t (0 : Fin 2)
    ∧ win0_1.index t (1 : Fin 2) = 0
    ∧ win0_2.index t (0 : Fin 2) = 0
    ∧ win0_2.index t (1 : Fin 2) = 0
    ∧ win0_3.index t (0 : Fin 2) = 0
    ∧ win0_3.index t (1 : Fin 2) = 0
    ∧ win0_4.index t (0 : Fin 2) = 0
    ∧ win0_4.index t (1 : Fin 2) = 0
    ∧ win0_5.index t (0 : Fin 2) = 0
    ∧ win0_5.index t (1 : Fin 2) = 0
    ∧ win0_6.index t (0 : Fin 2) = 0
    ∧ win0_6.index t (1 : Fin 2) = 0
    ∧ win0_7.index t (0 : Fin 2) = 0
    ∧ win0_7.index t (1 : Fin 2) = 0
    ∧ win0_8.index t (0 : Fin 2) = 0
    ∧ win0_8.index t (1 : Fin 2) = 0
    ∧ win0_9.index t (0 : Fin 2) = 0
    ∧ win0_9.index t (1 : Fin 2) = 0
    ∧ win0_10.index t (1 : Fin 2) = 0
    ∧ win0_10.index t (0 : Fin 2) ≤ 9 :=
  (by decide +kernel : ∀ t : Fin grid0.N, _)

/-- Every row block is some point's. -/
theorem idx_onto0 : ∀ q0 : Fin 10, ∃ t : Fin cfg0.N, win0_10.index t = ![q0.val, 0] :=
  (by decide +kernel : ∀ q0 : Fin 10, ∃ t : Fin grid0.N, win0_10.index t = ![q0.val, 0])

/-- What point `t` of region 0 writes back is block `t` of the layer's result on the arrays as the region finds them. -/
theorem flushed0 (c : Dev nD) (t : Fin cfg0.N) :
    (dat0 V c).flushed 10 t = ((cfg0.win 10).blk t).view.read (Elt Ideal)
      (layer6 (V c main_arg0) (V c main_v13) (V c main_arg3) (V c main_v14) (V c main_arg5) (V c main_v15) (V c main_v16) (V c main_v17) (V c main_v18) (V c main_v19)) := by
  show (cfg0.win 10).cut (grid0.coords t) ((dat0 V c).after 10 t) = _
  rw [after0_10]
  unfold out0_10
  rw [View.canon_unit_zero hz]
  simp only [View.ld_unit_zero (S := S10000x6) hz, View.ld_unit_zero (S := S6x32) hz, View.ld_unit_zero (S := S1x32) hz,
    View.ld_unit_zero (S := S32x32) hz]
  obtain ⟨f0, f1, f2, f3, f4, f5, f6, f7, f8, f9, f10, f11, f12, f13, f14, f15, f16, f17, f18, f19, f20, f21⟩ := idx_facts0 t
  funext j
  show k0_pay1 (F := Ideal) (k0_pay2 (F := Ideal) (iblk0 V c 0 t) (iblk0 V c 1 t) (iblk0 V c 2 t) (iblk0 V c 3 t) (iblk0 V c 4 t)
      (iblk0 V c 5 t) (iblk0 V c 6 t) (iblk0 V c 9 t) (iblk0 V c 8 t)) (iblk0 V c 7 t) j
    = layer6 (V c main_arg0) (V c main_v13) (V c main_arg3) (V c main_v14) (V c main_arg5) (V c main_v15) (V c main_v16) (V c main_v17) (V c main_v18) (V c main_v19)
        (((cfg0.win 10).blk t).view.emb j)
  refine block0_eq _ _ _ _ _ _ _ _ _ _ _ _ _ _ _ _ _ _ _ _ (win0_10.index t (0 : Fin 2))
    (fun y z hz0 hz1 => by
      show V c main_arg0 (((cfg0.win 0).blk t).view.emb y) = V c main_arg0 z
      refine congrArg _ (funext fun a => Fin.ext ?_)
      match a with
      | ⟨0, _⟩ => show win0_0.index t (0 : Fin 2) * 10000 + 1 * (y 0).val = (z 0).val; omega
      | ⟨1, _⟩ => show win0_0.index t (1 : Fin 2) * 6 + 1 * (y 1).val = (z 1).val; omega)
    (fun y z hz0 hz1 => by
      show V c main_v13 (((cfg0.win 1).blk t).view.emb y) = V c main_v13 z
      refine congrArg _ (funext fun a => Fin.ext ?_)
      match a with
      | ⟨0, _⟩ => show win0_1.index t (0 : Fin 2) * 10000 + 1 * (y 0).val = (z 0).val; omega
      | ⟨1, _⟩ => show win0_1.index t (1 : Fin 2) * 6 + 1 * (y 1).val = (z 1).val; omega)
    (fun y => by
      show V c main_arg3 (((cfg0.win 2).blk t).view.emb y) = V c main_arg3 y
      refine congrArg _ (funext fun a => Fin.ext ?_)
      match a with
      | ⟨0, _⟩ => show win0_2.index t (0 : Fin 2) * 6 + 1 * (y 0).val = (y 0).val; omega
      | ⟨1, _⟩ => show win0_2.index t (1 : Fin 2) * 32 + 1 * (y 1).val = (y 1).val; omega)
    (fun y => by
      show V c main_v14 (((cfg0.win 3).blk t).view.emb y) = V c main_v14 y
      refine congrArg _ (funext fun a => Fin.ext ?_)
      match a with
      | ⟨0, _⟩ => show win0_3.index t (0 : Fin 2) * 1 + 1 * (y 0).val = (y 0).val; omega
      | ⟨1, _⟩ => show win0_3.index t (1 : Fin 2) * 32 + 1 * (y 1).val = (y 1).val; omega)
    (fun y => by
      show V c main_arg5 (((cfg0.win 4).blk t).view.emb y) = V c main_arg5 y
      refine congrArg _ (funext fun a => Fin.ext ?_)
      match a with
      | ⟨0, _⟩ => show win0_4.index t (0 : Fin 2) * 32 + 1 * (y 0).val = (y 0).val; omega
      | ⟨1, _⟩ => show win0_4.index t (1 : Fin 2) * 32 + 1 * (y 1).val = (y 1).val; omega)
    (fun y => by
      show V c main_v15 (((cfg0.win 5).blk t).view.emb y) = V c main_v15 y
      refine congrArg _ (funext fun a => Fin.ext ?_)
      match a with
      | ⟨0, _⟩ => show win0_5.index t (0 : Fin 2) * 1 + 1 * (y 0).val = (y 0).val; omega
      | ⟨1, _⟩ => show win0_5.index t (1 : Fin 2) * 32 + 1 * (y 1).val = (y 1).val; omega)
    (fun y => by
      show V c main_v16 (((cfg0.win 6).blk t).view.emb y) = V c main_v16 y
      refine congrArg _ (funext fun a => Fin.ext ?_)
      match a with
      | ⟨0, _⟩ => show win0_6.index t (0 : Fin 2) * 1 + 1 * (y 0).val = (y 0).val; omega
      | ⟨1, _⟩ => show win0_6.index t (1 : Fin 2) * 32 + 1 * (y 1).val = (y 1).val; omega)
    (fun y => by
      show V c main_v17 (((cfg0.win 7).blk t).view.emb y) = V c main_v17 y
      refine congrArg _ (funext fun a => Fin.ext ?_)
      match a with
      | ⟨0, _⟩ => show win0_7.index t (0 : Fin 2) * 1 + 1 * (y 0).val = (y 0).val; omega
      | ⟨1, _⟩ => show win0_7.index t (1 : Fin 2) * 32 + 1 * (y 1).val = (y 1).val; omega)
    (fun y => by
      show V c main_v18 (((cfg0.win 8).blk t).view.emb y) = V c main_v18 y
      refine congrArg _ (funext fun a => Fin.ext ?_)
      match a with
      | ⟨0, _⟩ => show win0_8.index t (0 : Fin 2) * 1 + 1 * (y 0).val = (y 0).val; omega
      | ⟨1, _⟩ => show win0_8.index t (1 : Fin 2) * 32 + 1 * (y 1).val = (y 1).val; omega)
    (fun y => by
      show V c main_v19 (((cfg0.win 9).blk t).view.emb y) = V c main_v19 y
      refine congrArg _ (funext fun a => Fin.ext ?_)
      match a with
      | ⟨0, _⟩ => show win0_9.index t (0 : Fin 2) * 1 + 1 * (y 0).val = (y 0).val; omega
      | ⟨1, _⟩ => show win0_9.index t (1 : Fin 2) * 32 + 1 * (y 1).val = (y 1).val; omega)
    j _ ?_ ?_
  · show win0_10.index t (0 : Fin 2) * 10000 + 1 * (j 0).val = win0_10.index t (0 : Fin 2) * 10000 + (j 0).val; omega
  · show win0_10.index t (1 : Fin 2) * 32 + 1 * (j 1).val = (j 1).val; omega

/-- An index of the output array is in point `t`'s block iff each coordinate is in the block's range on its axis. -/
theorem mem_blk0 (t : Fin cfg0.N) (i : S100000x32.Idx) :
    i ∈ ((cfg0.win 10).blk t).view.set ↔ ∀ a : Fin 2, win0_10.index t a * S10000x32.size a ≤ (i a).val ∧ (i a).val < win0_10.index t a * S10000x32.size a + S10000x32.size a := by
  show i ∈ ((View.whole main_v20).slice (win0_10.rect t)).set ↔ _
  rw [View.set_slice_whole, Rect.mem_set_unit]
  exact Iff.rfl

/-- The ten row blocks fill the output array. -/
theorem cover0 (i : S100000x32.Idx) :
    ∃ t : Fin cfg0.N, (cfg0.win 10).flush t = true ∧ i ∈ ((cfg0.win 10).blk t).view.set := by
  have hi0 : (i 0).val < 100000 := (i 0).isLt
  have hi1 : (i 1).val < 32 := (i 1).isLt
  obtain ⟨t, ht⟩ := idx_onto0 ⟨(i 0).val / 10000, by omega⟩
  have q0 : win0_10.index t (0 : Fin 2) = (i 0).val / 10000 := congrFun ht 0
  have q1 : win0_10.index t (1 : Fin 2) = 0 := congrFun ht 1
  refine ⟨t, flush0_10 t, ?_⟩
  rw [mem_blk0]
  intro a
  match a with
  | ⟨0, _⟩ => show win0_10.index t (0 : Fin 2) * 10000 ≤ (i 0).val ∧ (i 0).val < win0_10.index t (0 : Fin 2) * 10000 + 10000; omega
  | ⟨1, _⟩ => show win0_10.index t (1 : Fin 2) * 32 ≤ (i 1).val ∧ (i 1).val < win0_10.index t (1 : Fin 2) * 32 + 32; omega

/-- REGION 0's OUTPUT ARRAY at its exit is the layer's result on the arrays the region found at its entry. -/
theorem out0 (c : Dev nD) :
    (dat0 V c).arrAt 10 cfg0.N
      = layer6 (V c main_arg0) (V c main_v13) (V c main_arg3) (V c main_v14) (V c main_arg5) (V c main_v15) (V c main_v16) (V c main_v17) (V c main_v18) (V c main_v19) :=
  (dat0 V c).arrAt_eq_of_cover 10 _ (fun t _ => flushed0 V c t) (cover0)

/-! ## Region 1 -/

/-- The printed index maps of region 1, decided over its ten grid points: the node and neighbour windows move with the
    output window along the rows; every parameter window stays at its one block; the output's row-block index is
    the point's, below ten. -/
theorem idx_facts1 : ∀ t : Fin cfg1.N, win1_0.index t (0 : Fin 2) = win1_10.index t (0 : Fin 2)
    ∧ win1_0.index t (1 : Fin 2) = 0
    ∧ win1_1.index t (0 : Fin 2) = win1_10.index t (0 : Fin 2)
    ∧ win1_1.index t (1 : Fin 2) = 0
    ∧ win1_2.index t (0 : Fin 2) = 0
    ∧ win1_2.index t (1 : Fin 2) = 0
    ∧ win1_3.index t (0 : Fin 2) = 0
    ∧ win1_3.index t (1 : Fin 2) = 0
    ∧ win1_4.index t (0 : Fin 2) = 0
    ∧ win1_4.index t (1 : Fin 2) = 0
    ∧ win1_5.index t (0 : Fin 2) = 0
    ∧ win1_5.index t (1 : Fin 2) = 0
    ∧ win1_6.index t (0 : Fin 2) = 0
    ∧ win1_6.index t (1 : Fin 2) = 0
    ∧ win1_7.index t (0 : Fin 2) = 0
    ∧ win1_7.index t (1 : Fin 2) = 0
    ∧ win1_8.index t (0 : Fin 2) = 0
    ∧ win1_8.index t (1 : Fin 2) = 0
    ∧ win1_9.index t (0 : Fin 2) = 0
    ∧ win1_9.index t (1 : Fin 2) = 0
    ∧ win1_10.index t (1 : Fin 2) = 0
    ∧ win1_10.index t (0 : Fin 2) ≤ 9 :=
  (by decide +kernel : ∀ t : Fin grid1.N, _)

/-- Every row block is some point's. -/
theorem idx_onto1 : ∀ q0 : Fin 10, ∃ t : Fin cfg1.N, win1_10.index t = ![q0.val, 0] :=
  (by decide +kernel : ∀ q0 : Fin 10, ∃ t : Fin grid1.N, win1_10.index t = ![q0.val, 0])

/-- What point `t` of region 1 writes back is block `t` of the layer's result on the arrays as the region finds them. -/
theorem flushed1 (c : Dev nD) (t : Fin cfg1.N) :
    (dat1 V c).flushed 10 t = ((cfg1.win 10).blk t).view.read (Elt Ideal)
      (layer32 (V c main_v20) (V c main_v34) (V c main_arg11) (V c main_v35) (V c main_arg13) (V c main_v36) (V c main_v37) (V c main_v38) (V c main_v39) (V c main_v40)) := by
  show (cfg1.win 10).cut (grid1.coords t) ((dat1 V c).after 10 t) = _
  rw [after1_10]
  unfold out1_10
  rw [View.canon_unit_zero hz]
  simp only [View.ld_unit_zero (S := S10000x32) hz, View.ld_unit_zero (S := S32x32) hz, View.ld_unit_zero (S := S1x32) hz,
    View.ld_unit_zero (S := S32x32) hz]
  obtain ⟨f0, f1, f2, f3, f4, f5, f6, f7, f8, f9, f10, f11, f12, f13, f14, f15, f16, f17, f18, f19, f20, f21⟩ := idx_facts1 t
  funext j
  show k1_pay1 (F := Ideal) (k1_pay2 (F := Ideal) (iblk1 V c 0 t) (iblk1 V c 1 t) (iblk1 V c 2 t) (iblk1 V c 3 t) (iblk1 V c 4 t)
      (iblk1 V c 5 t) (iblk1 V c 6 t) (iblk1 V c 9 t) (iblk1 V c 8 t)) (iblk1 V c 7 t) j
    = layer32 (V c main_v20) (V c main_v34) (V c main_arg11) (V c main_v35) (V c main_arg13) (V c main_v36) (V c main_v37) (V c main_v38) (V c main_v39) (V c main_v40)
        (((cfg1.win 10).blk t).view.emb j)
  refine block1_eq _ _ _ _ _ _ _ _ _ _ _ _ _ _ _ _ _ _ _ _ (win1_10.index t (0 : Fin 2))
    (fun y z hz0 hz1 => by
      show V c main_v20 (((cfg1.win 0).blk t).view.emb y) = V c main_v20 z
      refine congrArg _ (funext fun a => Fin.ext ?_)
      match a with
      | ⟨0, _⟩ => show win1_0.index t (0 : Fin 2) * 10000 + 1 * (y 0).val = (z 0).val; omega
      | ⟨1, _⟩ => show win1_0.index t (1 : Fin 2) * 32 + 1 * (y 1).val = (z 1).val; omega)
    (fun y z hz0 hz1 => by
      show V c main_v34 (((cfg1.win 1).blk t).view.emb y) = V c main_v34 z
      refine congrArg _ (funext fun a => Fin.ext ?_)
      match a with
      | ⟨0, _⟩ => show win1_1.index t (0 : Fin 2) * 10000 + 1 * (y 0).val = (z 0).val; omega
      | ⟨1, _⟩ => show win1_1.index t (1 : Fin 2) * 32 + 1 * (y 1).val = (z 1).val; omega)
    (fun y => by
      show V c main_arg11 (((cfg1.win 2).blk t).view.emb y) = V c main_arg11 y
      refine congrArg _ (funext fun a => Fin.ext ?_)
      match a with
      | ⟨0, _⟩ => show win1_2.index t (0 : Fin 2) * 32 + 1 * (y 0).val = (y 0).val; omega
      | ⟨1, _⟩ => show win1_2.index t (1 : Fin 2) * 32 + 1 * (y 1).val = (y 1).val; omega)
    (fun y => by
      show V c main_v35 (((cfg1.win 3).blk t).view.emb y) = V c main_v35 y
      refine congrArg _ (funext fun a => Fin.ext ?_)
      match a with
      | ⟨0, _⟩ => show win1_3.index t (0 : Fin 2) * 1 + 1 * (y 0).val = (y 0).val; omega
      | ⟨1, _⟩ => show win1_3.index t (1 : Fin 2) * 32 + 1 * (y 1).val = (y 1).val; omega)
    (fun y => by
      show V c main_arg13 (((cfg1.win 4).blk t).view.emb y) = V c main_arg13 y
      refine congrArg _ (funext fun a => Fin.ext ?_)
      match a with
      | ⟨0, _⟩ => show win1_4.index t (0 : Fin 2) * 32 + 1 * (y 0).val = (y 0).val; omega
      | ⟨1, _⟩ => show win1_4.index t (1 : Fin 2) * 32 + 1 * (y 1).val = (y 1).val; omega)
    (fun y => by
      show V c main_v36 (((cfg1.win 5).blk t).view.emb y) = V c main_v36 y
      refine congrArg _ (funext fun a => Fin.ext ?_)
      match a with
      | ⟨0, _⟩ => show win1_5.index t (0 : Fin 2) * 1 + 1 * (y 0).val = (y 0).val; omega
      | ⟨1, _⟩ => show win1_5.index t (1 : Fin 2) * 32 + 1 * (y 1).val = (y 1).val; omega)
    (fun y => by
      show V c main_v37 (((cfg1.win 6).blk t).view.emb y) = V c main_v37 y
      refine congrArg _ (funext fun a => Fin.ext ?_)
      match a with
      | ⟨0, _⟩ => show win1_6.index t (0 : Fin 2) * 1 + 1 * (y 0).val = (y 0).val; omega
      | ⟨1, _⟩ => show win1_6.index t (1 : Fin 2) * 32 + 1 * (y 1).val = (y 1).val; omega)
    (fun y => by
      show V c main_v38 (((cfg1.win 7).blk t).view.emb y) = V c main_v38 y
      refine congrArg _ (funext fun a => Fin.ext ?_)
      match a with
      | ⟨0, _⟩ => show win1_7.index t (0 : Fin 2) * 1 + 1 * (y 0).val = (y 0).val; omega
      | ⟨1, _⟩ => show win1_7.index t (1 : Fin 2) * 32 + 1 * (y 1).val = (y 1).val; omega)
    (fun y => by
      show V c main_v39 (((cfg1.win 8).blk t).view.emb y) = V c main_v39 y
      refine congrArg _ (funext fun a => Fin.ext ?_)
      match a with
      | ⟨0, _⟩ => show win1_8.index t (0 : Fin 2) * 1 + 1 * (y 0).val = (y 0).val; omega
      | ⟨1, _⟩ => show win1_8.index t (1 : Fin 2) * 32 + 1 * (y 1).val = (y 1).val; omega)
    (fun y => by
      show V c main_v40 (((cfg1.win 9).blk t).view.emb y) = V c main_v40 y
      refine congrArg _ (funext fun a => Fin.ext ?_)
      match a with
      | ⟨0, _⟩ => show win1_9.index t (0 : Fin 2) * 1 + 1 * (y 0).val = (y 0).val; omega
      | ⟨1, _⟩ => show win1_9.index t (1 : Fin 2) * 32 + 1 * (y 1).val = (y 1).val; omega)
    j _ ?_ ?_
  · show win1_10.index t (0 : Fin 2) * 10000 + 1 * (j 0).val = win1_10.index t (0 : Fin 2) * 10000 + (j 0).val; omega
  · show win1_10.index t (1 : Fin 2) * 32 + 1 * (j 1).val = (j 1).val; omega

/-- An index of the output array is in point `t`'s block iff each coordinate is in the block's range on its axis. -/
theorem mem_blk1 (t : Fin cfg1.N) (i : S100000x32.Idx) :
    i ∈ ((cfg1.win 10).blk t).view.set ↔ ∀ a : Fin 2, win1_10.index t a * S10000x32.size a ≤ (i a).val ∧ (i a).val < win1_10.index t a * S10000x32.size a + S10000x32.size a := by
  show i ∈ ((View.whole main_v41).slice (win1_10.rect t)).set ↔ _
  rw [View.set_slice_whole, Rect.mem_set_unit]
  exact Iff.rfl

/-- The ten row blocks fill the output array. -/
theorem cover1 (i : S100000x32.Idx) :
    ∃ t : Fin cfg1.N, (cfg1.win 10).flush t = true ∧ i ∈ ((cfg1.win 10).blk t).view.set := by
  have hi0 : (i 0).val < 100000 := (i 0).isLt
  have hi1 : (i 1).val < 32 := (i 1).isLt
  obtain ⟨t, ht⟩ := idx_onto1 ⟨(i 0).val / 10000, by omega⟩
  have q0 : win1_10.index t (0 : Fin 2) = (i 0).val / 10000 := congrFun ht 0
  have q1 : win1_10.index t (1 : Fin 2) = 0 := congrFun ht 1
  refine ⟨t, flush1_10 t, ?_⟩
  rw [mem_blk1]
  intro a
  match a with
  | ⟨0, _⟩ => show win1_10.index t (0 : Fin 2) * 10000 ≤ (i 0).val ∧ (i 0).val < win1_10.index t (0 : Fin 2) * 10000 + 10000; omega
  | ⟨1, _⟩ => show win1_10.index t (1 : Fin 2) * 32 ≤ (i 1).val ∧ (i 1).val < win1_10.index t (1 : Fin 2) * 32 + 32; omega

/-- REGION 1's OUTPUT ARRAY at its exit is the layer's result on the arrays the region found at its entry. -/
theorem out1 (c : Dev nD) :
    (dat1 V c).arrAt 10 cfg1.N
      = layer32 (V c main_v20) (V c main_v34) (V c main_arg11) (V c main_v35) (V c main_arg13) (V c main_v36) (V c main_v37) (V c main_v38) (V c main_v39) (V c main_v40) :=
  (dat1 V c).arrAt_eq_of_cover 10 _ (fun t _ => flushed1 V c t) (cover1)

/-! ## Region 2 -/

/-- The printed index maps of region 2, decided over its ten grid points: the node and neighbour windows move with the
    output window along the rows; every parameter window stays at its one block; the output's row-block index is
    the point's, below ten. -/
theorem idx_facts2 : ∀ t : Fin cfg2.N, win2_0.index t (0 : Fin 2) = win2_10.index t (0 : Fin 2)
    ∧ win2_0.index t (1 : Fin 2) = 0
    ∧ win2_1.index t (0 : Fin 2) = win2_10.index t (0 : Fin 2)
    ∧ win2_1.index t (1 : Fin 2) = 0
    ∧ win2_2.index t (0 : Fin 2) = 0
    ∧ win2_2.index t (1 : Fin 2) = 0
    ∧ win2_3.index t (0 : Fin 2) = 0
    ∧ win2_3.index t (1 : Fin 2) = 0
    ∧ win2_4.index t (0 : Fin 2) = 0
    ∧ win2_4.index t (1 : Fin 2) = 0
    ∧ win2_5.index t (0 : Fin 2) = 0
    ∧ win2_5.index t (1 : Fin 2) = 0
    ∧ win2_6.index t (0 : Fin 2) = 0
    ∧ win2_6.index t (1 : Fin 2) = 0
    ∧ win2_7.index t (0 : Fin 2) = 0
    ∧ win2_7.index t (1 : Fin 2) = 0
    ∧ win2_8.index t (0 : Fin 2) = 0
    ∧ win2_8.index t (1 : Fin 2) = 0
    ∧ win2_9.index t (0 : Fin 2) = 0
    ∧ win2_9.index t (1 : Fin 2) = 0
    ∧ win2_10.index t (1 : Fin 2) = 0
    ∧ win2_10.index t (0 : Fin 2) ≤ 9 :=
  (by decide +kernel : ∀ t : Fin grid2.N, _)

/-- Every row block is some point's. -/
theorem idx_onto2 : ∀ q0 : Fin 10, ∃ t : Fin cfg2.N, win2_10.index t = ![q0.val, 0] :=
  (by decide +kernel : ∀ q0 : Fin 10, ∃ t : Fin grid2.N, win2_10.index t = ![q0.val, 0])

/-- What point `t` of region 2 writes back is block `t` of the layer's result on the arrays as the region finds them. -/
theorem flushed2 (c : Dev nD) (t : Fin cfg2.N) :
    (dat2 V c).flushed 10 t = ((cfg2.win 10).blk t).view.read (Elt Ideal)
      (layer32 (V c main_v41) (V c main_v55) (V c main_arg19) (V c main_v56) (V c main_arg21) (V c main_v57) (V c main_v58) (V c main_v59) (V c main_v60) (V c main_v61)) := by
  show (cfg2.win 10).cut (grid2.coords t) ((dat2 V c).after 10 t) = _
  rw [after2_10]
  unfold out2_10
  rw [View.canon_unit_zero hz]
  simp only [View.ld_unit_zero (S := S10000x32) hz, View.ld_unit_zero (S := S32x32) hz, View.ld_unit_zero (S := S1x32) hz,
    View.ld_unit_zero (S := S32x32) hz]
  obtain ⟨f0, f1, f2, f3, f4, f5, f6, f7, f8, f9, f10, f11, f12, f13, f14, f15, f16, f17, f18, f19, f20, f21⟩ := idx_facts2 t
  funext j
  show k2_pay1 (F := Ideal) (k2_pay2 (F := Ideal) (iblk2 V c 0 t) (iblk2 V c 1 t) (iblk2 V c 2 t) (iblk2 V c 3 t) (iblk2 V c 4 t)
      (iblk2 V c 5 t) (iblk2 V c 6 t) (iblk2 V c 9 t) (iblk2 V c 8 t)) (iblk2 V c 7 t) j
    = layer32 (V c main_v41) (V c main_v55) (V c main_arg19) (V c main_v56) (V c main_arg21) (V c main_v57) (V c main_v58) (V c main_v59) (V c main_v60) (V c main_v61)
        (((cfg2.win 10).blk t).view.emb j)
  refine block2_eq _ _ _ _ _ _ _ _ _ _ _ _ _ _ _ _ _ _ _ _ (win2_10.index t (0 : Fin 2))
    (fun y z hz0 hz1 => by
      show V c main_v41 (((cfg2.win 0).blk t).view.emb y) = V c main_v41 z
      refine congrArg _ (funext fun a => Fin.ext ?_)
      match a with
      | ⟨0, _⟩ => show win2_0.index t (0 : Fin 2) * 10000 + 1 * (y 0).val = (z 0).val; omega
      | ⟨1, _⟩ => show win2_0.index t (1 : Fin 2) * 32 + 1 * (y 1).val = (z 1).val; omega)
    (fun y z hz0 hz1 => by
      show V c main_v55 (((cfg2.win 1).blk t).view.emb y) = V c main_v55 z
      refine congrArg _ (funext fun a => Fin.ext ?_)
      match a with
      | ⟨0, _⟩ => show win2_1.index t (0 : Fin 2) * 10000 + 1 * (y 0).val = (z 0).val; omega
      | ⟨1, _⟩ => show win2_1.index t (1 : Fin 2) * 32 + 1 * (y 1).val = (z 1).val; omega)
    (fun y => by
      show V c main_arg19 (((cfg2.win 2).blk t).view.emb y) = V c main_arg19 y
      refine congrArg _ (funext fun a => Fin.ext ?_)
      match a with
      | ⟨0, _⟩ => show win2_2.index t (0 : Fin 2) * 32 + 1 * (y 0).val = (y 0).val; omega
      | ⟨1, _⟩ => show win2_2.index t (1 : Fin 2) * 32 + 1 * (y 1).val = (y 1).val; omega)
    (fun y => by
      show V c main_v56 (((cfg2.win 3).blk t).view.emb y) = V c main_v56 y
      refine congrArg _ (funext fun a => Fin.ext ?_)
      match a with
      | ⟨0, _⟩ => show win2_3.index t (0 : Fin 2) * 1 + 1 * (y 0).val = (y 0).val; omega
      | ⟨1, _⟩ => show win2_3.index t (1 : Fin 2) * 32 + 1 * (y 1).val = (y 1).val; omega)
    (fun y => by
      show V c main_arg21 (((cfg2.win 4).blk t).view.emb y) = V c main_arg21 y
      refine congrArg _ (funext fun a => Fin.ext ?_)
      match a with
      | ⟨0, _⟩ => show win2_4.index t (0 : Fin 2) * 32 + 1 * (y 0).val = (y 0).val; omega
      | ⟨1, _⟩ => show win2_4.index t (1 : Fin 2) * 32 + 1 * (y 1).val = (y 1).val; omega)
    (fun y => by
      show V c main_v57 (((cfg2.win 5).blk t).view.emb y) = V c main_v57 y
      refine congrArg _ (funext fun a => Fin.ext ?_)
      match a with
      | ⟨0, _⟩ => show win2_5.index t (0 : Fin 2) * 1 + 1 * (y 0).val = (y 0).val; omega
      | ⟨1, _⟩ => show win2_5.index t (1 : Fin 2) * 32 + 1 * (y 1).val = (y 1).val; omega)
    (fun y => by
      show V c main_v58 (((cfg2.win 6).blk t).view.emb y) = V c main_v58 y
      refine congrArg _ (funext fun a => Fin.ext ?_)
      match a with
      | ⟨0, _⟩ => show win2_6.index t (0 : Fin 2) * 1 + 1 * (y 0).val = (y 0).val; omega
      | ⟨1, _⟩ => show win2_6.index t (1 : Fin 2) * 32 + 1 * (y 1).val = (y 1).val; omega)
    (fun y => by
      show V c main_v59 (((cfg2.win 7).blk t).view.emb y) = V c main_v59 y
      refine congrArg _ (funext fun a => Fin.ext ?_)
      match a with
      | ⟨0, _⟩ => show win2_7.index t (0 : Fin 2) * 1 + 1 * (y 0).val = (y 0).val; omega
      | ⟨1, _⟩ => show win2_7.index t (1 : Fin 2) * 32 + 1 * (y 1).val = (y 1).val; omega)
    (fun y => by
      show V c main_v60 (((cfg2.win 8).blk t).view.emb y) = V c main_v60 y
      refine congrArg _ (funext fun a => Fin.ext ?_)
      match a with
      | ⟨0, _⟩ => show win2_8.index t (0 : Fin 2) * 1 + 1 * (y 0).val = (y 0).val; omega
      | ⟨1, _⟩ => show win2_8.index t (1 : Fin 2) * 32 + 1 * (y 1).val = (y 1).val; omega)
    (fun y => by
      show V c main_v61 (((cfg2.win 9).blk t).view.emb y) = V c main_v61 y
      refine congrArg _ (funext fun a => Fin.ext ?_)
      match a with
      | ⟨0, _⟩ => show win2_9.index t (0 : Fin 2) * 1 + 1 * (y 0).val = (y 0).val; omega
      | ⟨1, _⟩ => show win2_9.index t (1 : Fin 2) * 32 + 1 * (y 1).val = (y 1).val; omega)
    j _ ?_ ?_
  · show win2_10.index t (0 : Fin 2) * 10000 + 1 * (j 0).val = win2_10.index t (0 : Fin 2) * 10000 + (j 0).val; omega
  · show win2_10.index t (1 : Fin 2) * 32 + 1 * (j 1).val = (j 1).val; omega

/-- An index of the output array is in point `t`'s block iff each coordinate is in the block's range on its axis. -/
theorem mem_blk2 (t : Fin cfg2.N) (i : S100000x32.Idx) :
    i ∈ ((cfg2.win 10).blk t).view.set ↔ ∀ a : Fin 2, win2_10.index t a * S10000x32.size a ≤ (i a).val ∧ (i a).val < win2_10.index t a * S10000x32.size a + S10000x32.size a := by
  show i ∈ ((View.whole main_v62).slice (win2_10.rect t)).set ↔ _
  rw [View.set_slice_whole, Rect.mem_set_unit]
  exact Iff.rfl

/-- The ten row blocks fill the output array. -/
theorem cover2 (i : S100000x32.Idx) :
    ∃ t : Fin cfg2.N, (cfg2.win 10).flush t = true ∧ i ∈ ((cfg2.win 10).blk t).view.set := by
  have hi0 : (i 0).val < 100000 := (i 0).isLt
  have hi1 : (i 1).val < 32 := (i 1).isLt
  obtain ⟨t, ht⟩ := idx_onto2 ⟨(i 0).val / 10000, by omega⟩
  have q0 : win2_10.index t (0 : Fin 2) = (i 0).val / 10000 := congrFun ht 0
  have q1 : win2_10.index t (1 : Fin 2) = 0 := congrFun ht 1
  refine ⟨t, flush2_10 t, ?_⟩
  rw [mem_blk2]
  intro a
  match a with
  | ⟨0, _⟩ => show win2_10.index t (0 : Fin 2) * 10000 ≤ (i 0).val ∧ (i 0).val < win2_10.index t (0 : Fin 2) * 10000 + 10000; omega
  | ⟨1, _⟩ => show win2_10.index t (1 : Fin 2) * 32 ≤ (i 1).val ∧ (i 1).val < win2_10.index t (1 : Fin 2) * 32 + 32; omega

/-- REGION 2's OUTPUT ARRAY at its exit is the layer's result on the arrays the region found at its entry. -/
theorem out2 (c : Dev nD) :
    (dat2 V c).arrAt 10 cfg2.N
      = layer32 (V c main_v41) (V c main_v55) (V c main_arg19) (V c main_v56) (V c main_arg21) (V c main_v57) (V c main_v58) (V c main_v59) (V c main_v60) (V c main_v61) :=
  (dat2 V c).arrAt_eq_of_cover 10 _ (fun t _ => flushed2 V c t) (cover2)

end Cert.KernelIdeal.Layers

end
-- ==== Proof.KernelWalk.lean ====
/-
  The arguments a later segment reads are still as launched when it reads them.

  No host operation writes an argument buffer, and a region only replaces its own output array; so at the exit of
  region 0, 1 or 2 each argument buffer that a later segment reads holds its launch contents. One lemma per boundary
  and argument: a region's exit contents away from its arrays are its entry contents, and a stretch of host
  operations leaves a buffer it does not write as it found it.
-/
import proofs.«112878_j34256659153346_1_alg».proof.Proof.Gen.KernelIdeal.Frame
import Idealize.ShloMosaic.Lib.StableHlo.Run

set_option maxRecDepth 16384

noncomputable section

namespace Cert.KernelIdeal.Walk

open Cert.KernelIdeal Cert.KernelIdeal.Gen
open Idealize.ShloMosaic Idealize.ShloMosaic.TcCoe Idealize.ShloMosaic.StableHlo Idealize.SL.Sem

variable {F : FTy → Type} [FloatOps F]
variable (m : (ℓ : Loc nD τ sig) → Buf (Elt F) ℓ) (ρ : Dev nD → PrngReg)

/-! ## At region 0's exit -/
theorem W2_arg1 (c : Dev nD) : W2 m ρ c (Proc.devRef .tc main_arg1) = m ((c : Thread nD τ).loc main_arg1) :=
  (W2_of_ne m ρ c main_arg1 (by decide)).trans (by
    show StableHlo.after hostOps0 (W0 m ρ c) (Proc.devRef .tc main_arg1) = _
    after_results_simp <;> rfl)
theorem W2_arg2 (c : Dev nD) : W2 m ρ c (Proc.devRef .tc main_arg2) = m ((c : Thread nD τ).loc main_arg2) :=
  (W2_of_ne m ρ c main_arg2 (by decide)).trans (by
    show StableHlo.after hostOps0 (W0 m ρ c) (Proc.devRef .tc main_arg2) = _
    after_results_simp <;> rfl)
theorem W2_arg11 (c : Dev nD) : W2 m ρ c (Proc.devRef .tc main_arg11) = m ((c : Thread nD τ).loc main_arg11) :=
  (W2_of_ne m ρ c main_arg11 (by decide)).trans (by
    show StableHlo.after hostOps0 (W0 m ρ c) (Proc.devRef .tc main_arg11) = _
    after_results_simp <;> rfl)
theorem W2_arg12 (c : Dev nD) : W2 m ρ c (Proc.devRef .tc main_arg12) = m ((c : Thread nD τ).loc main_arg12) :=
  (W2_of_ne m ρ c main_arg12 (by decide)).trans (by
    show StableHlo.after hostOps0 (W0 m ρ c) (Proc.devRef .tc main_arg12) = _
    after_results_simp <;> rfl)
theorem W2_arg13 (c : Dev nD) : W2 m ρ c (Proc.devRef .tc main_arg13) = m ((c : Thread nD τ).loc main_arg13) :=
  (W2_of_ne m ρ c main_arg13 (by decide)).trans (by
    show StableHlo.after hostOps0 (W0 m ρ c) (Proc.devRef .tc main_arg13) = _
    after_results_simp <;> rfl)
theorem W2_arg14 (c : Dev nD) : W2 m ρ c (Proc.devRef .tc main_arg14) = m ((c : Thread nD τ).loc main_arg14) :=
  (W2_of_ne m ρ c main_arg14 (by decide)).trans (by
    show StableHlo.after hostOps0 (W0 m ρ c) (Proc.devRef .tc main_arg14) = _
    after_results_simp <;> rfl)
theorem W2_arg15 (c : Dev nD) : W2 m ρ c (Proc.devRef .tc main_arg15) = m ((c : Thread nD τ).loc main_arg15) :=
  (W2_of_ne m ρ c main_arg15 (by decide)).trans (by
    show StableHlo.after hostOps0 (W0 m ρ c) (Proc.devRef .tc main_arg15) = _
    after_results_simp <;> rfl)
theorem W2_arg16 (c : Dev nD) : W2 m ρ c (Proc.devRef .tc main_arg16) = m ((c : Thread nD τ).loc main_arg16) :=
  (W2_of_ne m ρ c main_arg16 (by decide)).trans (by
    show StableHlo.after hostOps0 (W0 m ρ c) (Proc.devRef .tc main_arg16) = _
    after_results_simp <;> rfl)
theorem W2_arg17 (c : Dev nD) : W2 m ρ c (Proc.devRef .tc main_arg17) = m ((c : Thread nD τ).loc main_arg17) :=
  (W2_of_ne m ρ c main_arg17 (by decide)).trans (by
    show StableHlo.after hostOps0 (W0 m ρ c) (Proc.devRef .tc main_arg17) = _
    after_results_simp <;> rfl)
theorem W2_arg18 (c : Dev nD) : W2 m ρ c (Proc.devRef .tc main_arg18) = m ((c : Thread nD τ).loc main_arg18) :=
  (W2_of_ne m ρ c main_arg18 (by decide)).trans (by
    show StableHlo.after hostOps0 (W0 m ρ c) (Proc.devRef .tc main_arg18) = _
    after_results_simp <;> rfl)
theorem W2_arg19 (c : Dev nD) : W2 m ρ c (Proc.devRef .tc main_arg19) = m ((c : Thread nD τ).loc main_arg19) :=
  (W2_of_ne m ρ c main_arg19 (by decide)).trans (by
    show StableHlo.after hostOps0 (W0 m ρ c) (Proc.devRef .tc main_arg19) = _
    after_results_simp <;> rfl)
theorem W2_arg20 (c : Dev nD) : W2 m ρ c (Proc.devRef .tc main_arg20) = m ((c : Thread nD τ).loc main_arg20) :=
  (W2_of_ne m ρ c main_arg20 (by decide)).trans (by
    show StableHlo.after hostOps0 (W0 m ρ c) (Proc.devRef .tc main_arg20) = _
    after_results_simp <;> rfl)
theorem W2_arg21 (c : Dev nD) : W2 m ρ c (Proc.devRef .tc main_arg21) = m ((c : Thread nD τ).loc main_arg21) :=
  (W2_of_ne m ρ c main_arg21 (by decide)).trans (by
    show StableHlo.after hostOps0 (W0 m ρ c) (Proc.devRef .tc main_arg21) = _
    after_results_simp <;> rfl)
theorem W2_arg22 (c : Dev nD) : W2 m ρ c (Proc.devRef .tc main_arg22) = m ((c : Thread nD τ).loc main_arg22) :=
  (W2_of_ne m ρ c main_arg22 (by decide)).trans (by
    show StableHlo.after hostOps0 (W0 m ρ c) (Proc.devRef .tc main_arg22) = _
    after_results_simp <;> rfl)
theorem W2_arg23 (c : Dev nD) : W2 m ρ c (Proc.devRef .tc main_arg23) = m ((c : Thread nD τ).loc main_arg23) :=
  (W2_of_ne m ρ c main_arg23 (by decide)).trans (by
    show StableHlo.after hostOps0 (W0 m ρ c) (Proc.devRef .tc main_arg23) = _
    after_results_simp <;> rfl)
theorem W2_arg24 (c : Dev nD) : W2 m ρ c (Proc.devRef .tc main_arg24) = m ((c : Thread nD τ).loc main_arg24) :=
  (W2_of_ne m ρ c main_arg24 (by decide)).trans (by
    show StableHlo.after hostOps0 (W0 m ρ c) (Proc.devRef .tc main_arg24) = _
    after_results_simp <;> rfl)
theorem W2_arg25 (c : Dev nD) : W2 m ρ c (Proc.devRef .tc main_arg25) = m ((c : Thread nD τ).loc main_arg25) :=
  (W2_of_ne m ρ c main_arg25 (by decide)).trans (by
    show StableHlo.after hostOps0 (W0 m ρ c) (Proc.devRef .tc main_arg25) = _
    after_results_simp <;> rfl)
theorem W2_arg26 (c : Dev nD) : W2 m ρ c (Proc.devRef .tc main_arg26) = m ((c : Thread nD τ).loc main_arg26) :=
  (W2_of_ne m ρ c main_arg26 (by decide)).trans (by
    show StableHlo.after hostOps0 (W0 m ρ c) (Proc.devRef .tc main_arg26) = _
    after_results_simp <;> rfl)
theorem W2_arg27 (c : Dev nD) : W2 m ρ c (Proc.devRef .tc main_arg27) = m ((c : Thread nD τ).loc main_arg27) :=
  (W2_of_ne m ρ c main_arg27 (by decide)).trans (by
    show StableHlo.after hostOps0 (W0 m ρ c) (Proc.devRef .tc main_arg27) = _
    after_results_simp <;> rfl)
theorem W2_arg28 (c : Dev nD) : W2 m ρ c (Proc.devRef .tc main_arg28) = m ((c : Thread nD τ).loc main_arg28) :=
  (W2_of_ne m ρ c main_arg28 (by decide)).trans (by
    show StableHlo.after hostOps0 (W0 m ρ c) (Proc.devRef .tc main_arg28) = _
    after_results_simp <;> rfl)
theorem W2_arg29 (c : Dev nD) : W2 m ρ c (Proc.devRef .tc main_arg29) = m ((c : Thread nD τ).loc main_arg29) :=
  (W2_of_ne m ρ c main_arg29 (by decide)).trans (by
    show StableHlo.after hostOps0 (W0 m ρ c) (Proc.devRef .tc main_arg29) = _
    after_results_simp <;> rfl)
theorem W2_arg30 (c : Dev nD) : W2 m ρ c (Proc.devRef .tc main_arg30) = m ((c : Thread nD τ).loc main_arg30) :=
  (W2_of_ne m ρ c main_arg30 (by decide)).trans (by
    show StableHlo.after hostOps0 (W0 m ρ c) (Proc.devRef .tc main_arg30) = _
    after_results_simp <;> rfl)

/-! ## At region 1's exit -/
theorem W4_arg1 (c : Dev nD) : W4 m ρ c (Proc.devRef .tc main_arg1) = m ((c : Thread nD τ).loc main_arg1) :=
  (W4_of_ne m ρ c main_arg1 (by decide)).trans ((show StableHlo.after hostOps1 (W2 m ρ c) (Proc.devRef .tc main_arg1) = W2 m ρ c (Proc.devRef .tc main_arg1) by
    after_results_simp).trans (W2_arg1 m ρ c))
theorem W4_arg2 (c : Dev nD) : W4 m ρ c (Proc.devRef .tc main_arg2) = m ((c : Thread nD τ).loc main_arg2) :=
  (W4_of_ne m ρ c main_arg2 (by decide)).trans ((show StableHlo.after hostOps1 (W2 m ρ c) (Proc.devRef .tc main_arg2) = W2 m ρ c (Proc.devRef .tc main_arg2) by
    after_results_simp).trans (W2_arg2 m ρ c))
theorem W4_arg19 (c : Dev nD) : W4 m ρ c (Proc.devRef .tc main_arg19) = m ((c : Thread nD τ).loc main_arg19) :=
  (W4_of_ne m ρ c main_arg19 (by decide)).trans ((show StableHlo.after hostOps1 (W2 m ρ c) (Proc.devRef .tc main_arg19) = W2 m ρ c (Proc.devRef .tc main_arg19) by
    after_results_simp).trans (W2_arg19 m ρ c))
theorem W4_arg20 (c : Dev nD) : W4 m ρ c (Proc.devRef .tc main_arg20) = m ((c : Thread nD τ).loc main_arg20) :=
  (W4_of_ne m ρ c main_arg20 (by decide)).trans ((show StableHlo.after hostOps1 (W2 m ρ c) (Proc.devRef .tc main_arg20) = W2 m ρ c (Proc.devRef .tc main_arg20) by
    after_results_simp).trans (W2_arg20 m ρ c))
theorem W4_arg21 (c : Dev nD) : W4 m ρ c (Proc.devRef .tc main_arg21) = m ((c : Thread nD τ).loc main_arg21) :=
  (W4_of_ne m ρ c main_arg21 (by decide)).trans ((show StableHlo.after hostOps1 (W2 m ρ c) (Proc.devRef .tc main_arg21) = W2 m ρ c (Proc.devRef .tc main_arg21) by
    after_results_simp).trans (W2_arg21 m ρ c))
theorem W4_arg22 (c : Dev nD) : W4 m ρ c (Proc.devRef .tc main_arg22) = m ((c : Thread nD τ).loc main_arg22) :=
  (W4_of_ne m ρ c main_arg22 (by decide)).trans ((show StableHlo.after hostOps1 (W2 m ρ c) (Proc.devRef .tc main_arg22) = W2 m ρ c (Proc.devRef .tc main_arg22) by
    after_results_simp).trans (W2_arg22 m ρ c))
theorem W4_arg23 (c : Dev nD) : W4 m ρ c (Proc.devRef .tc main_arg23) = m ((c : Thread nD τ).loc main_arg23) :=
  (W4_of_ne m ρ c main_arg23 (by decide)).trans ((show StableHlo.after hostOps1 (W2 m ρ c) (Proc.devRef .tc main_arg23) = W2 m ρ c (Proc.devRef .tc main_arg23) by
    after_results_simp).trans (W2_arg23 m ρ c))
theorem W4_arg24 (c : Dev nD) : W4 m ρ c (Proc.devRef .tc main_arg24) = m ((c : Thread nD τ).loc main_arg24) :=
  (W4_of_ne m ρ c main_arg24 (by decide)).trans ((show StableHlo.after hostOps1 (W2 m ρ c) (Proc.devRef .tc main_arg24) = W2 m ρ c (Proc.devRef .tc main_arg24) by
    after_results_simp).trans (W2_arg24 m ρ c))
theorem W4_arg25 (c : Dev nD) : W4 m ρ c (Proc.devRef .tc main_arg25) = m ((c : Thread nD τ).loc main_arg25) :=
  (W4_of_ne m ρ c main_arg25 (by decide)).trans ((show StableHlo.after hostOps1 (W2 m ρ c) (Proc.devRef .tc main_arg25) = W2 m ρ c (Proc.devRef .tc main_arg25) by
    after_results_simp).trans (W2_arg25 m ρ c))
theorem W4_arg26 (c : Dev nD) : W4 m ρ c (Proc.devRef .tc main_arg26) = m ((c : Thread nD τ).loc main_arg26) :=
  (W4_of_ne m ρ c main_arg26 (by decide)).trans ((show StableHlo.after hostOps1 (W2 m ρ c) (Proc.devRef .tc main_arg26) = W2 m ρ c (Proc.devRef .tc main_arg26) by
    after_results_simp).trans (W2_arg26 m ρ c))
theorem W4_arg27 (c : Dev nD) : W4 m ρ c (Proc.devRef .tc main_arg27) = m ((c : Thread nD τ).loc main_arg27) :=
  (W4_of_ne m ρ c main_arg27 (by decide)).trans ((show StableHlo.after hostOps1 (W2 m ρ c) (Proc.devRef .tc main_arg27) = W2 m ρ c (Proc.devRef .tc main_arg27) by
    after_results_simp).trans (W2_arg27 m ρ c))
theorem W4_arg28 (c : Dev nD) : W4 m ρ c (Proc.devRef .tc main_arg28) = m ((c : Thread nD τ).loc main_arg28) :=
  (W4_of_ne m ρ c main_arg28 (by decide)).trans ((show StableHlo.after hostOps1 (W2 m ρ c) (Proc.devRef .tc main_arg28) = W2 m ρ c (Proc.devRef .tc main_arg28) by
    after_results_simp).trans (W2_arg28 m ρ c))
theorem W4_arg29 (c : Dev nD) : W4 m ρ c (Proc.devRef .tc main_arg29) = m ((c : Thread nD τ).loc main_arg29) :=
  (W4_of_ne m ρ c main_arg29 (by decide)).trans ((show StableHlo.after hostOps1 (W2 m ρ c) (Proc.devRef .tc main_arg29) = W2 m ρ c (Proc.devRef .tc main_arg29) by
    after_results_simp).trans (W2_arg29 m ρ c))
theorem W4_arg30 (c : Dev nD) : W4 m ρ c (Proc.devRef .tc main_arg30) = m ((c : Thread nD τ).loc main_arg30) :=
  (W4_of_ne m ρ c main_arg30 (by decide)).trans ((show StableHlo.after hostOps1 (W2 m ρ c) (Proc.devRef .tc main_arg30) = W2 m ρ c (Proc.devRef .tc main_arg30) by
    after_results_simp).trans (W2_arg30 m ρ c))

/-! ## At region 2's exit -/
theorem W6_arg2 (c : Dev nD) : W6 m ρ c (Proc.devRef .tc main_arg2) = m ((c : Thread nD τ).loc main_arg2) :=
  (W6_of_ne m ρ c main_arg2 (by decide)).trans ((show StableHlo.after hostOps2 (W4 m ρ c) (Proc.devRef .tc main_arg2) = W4 m ρ c (Proc.devRef .tc main_arg2) by
    after_results_simp).trans (W4_arg2 m ρ c))
theorem W6_arg27 (c : Dev nD) : W6 m ρ c (Proc.devRef .tc main_arg27) = m ((c : Thread nD τ).loc main_arg27) :=
  (W6_of_ne m ρ c main_arg27 (by decide)).trans ((show StableHlo.after hostOps2 (W4 m ρ c) (Proc.devRef .tc main_arg27) = W4 m ρ c (Proc.devRef .tc main_arg27) by
    after_results_simp).trans (W4_arg27 m ρ c))
theorem W6_arg28 (c : Dev nD) : W6 m ρ c (Proc.devRef .tc main_arg28) = m ((c : Thread nD τ).loc main_arg28) :=
  (W6_of_ne m ρ c main_arg28 (by decide)).trans ((show StableHlo.after hostOps2 (W4 m ρ c) (Proc.devRef .tc main_arg28) = W4 m ρ c (Proc.devRef .tc main_arg28) by
    after_results_simp).trans (W4_arg28 m ρ c))
theorem W6_arg29 (c : Dev nD) : W6 m ρ c (Proc.devRef .tc main_arg29) = m ((c : Thread nD τ).loc main_arg29) :=
  (W6_of_ne m ρ c main_arg29 (by decide)).trans ((show StableHlo.after hostOps2 (W4 m ρ c) (Proc.devRef .tc main_arg29) = W4 m ρ c (Proc.devRef .tc main_arg29) by
    after_results_simp).trans (W4_arg29 m ρ c))
theorem W6_arg30 (c : Dev nD) : W6 m ρ c (Proc.devRef .tc main_arg30) = m ((c : Thread nD τ).loc main_arg30) :=
  (W6_of_ne m ρ c main_arg30 (by decide)).trans ((show StableHlo.after hostOps2 (W4 m ρ c) (Proc.devRef .tc main_arg30) = W4 m ρ c (Proc.devRef .tc main_arg30) by
    after_results_simp).trans (W4_arg30 m ρ c))

end Cert.KernelIdeal.Walk

end
-- ==== Proof.ReferenceRows.lean ====
/-
  The reference's three layers, read at one node and one channel.

  Each layer of the reference is a line of whole-array host operations: the combined features times the first
  weight matrix, plus the bias broadcast over the nodes, clamped at zero, times the second weight matrix, plus its
  bias, minus the mean, times `γ / sqrt (var + ε)`, plus the shift. Read one operation at a time at `(p, q)` (the
  generated read-at-an-index lemmas), that is the layer's row function of node `p`'s combined row.
-/
import proofs.«112878_j34256659153346_1_alg».proof.Proof.Gen.ReferenceIdeal.Read
import proofs.«112878_j34256659153346_1_alg».proof.Proof.GinRow
import Idealize.ShloMosaic.Lib.ValueIdx

set_option maxRecDepth 16384

noncomputable section

namespace Cert.ReferenceIdeal.Layers

open Cert.ReferenceIdeal Cert.ReferenceIdeal.Read Idealize.ShloMosaic Idealize.ShloMosaic.ValueIdx

/-- Layer 1 of the reference at node `p`, channel `q`: the row function of the node's combined row, the weights
    and the bias / mean / shift vectors read at their channel, the scale formed as `γ / sqrt (var + ε)`. -/
theorem layer1_at (x0 : (⟨S100000x6, .f32⟩ : BufTy).Contents (Elt Ideal)) (x1 : (⟨S2x1600000, .i32⟩ : BufTy).Contents (Elt Ideal)) (x3 : (⟨S6x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (p : Fin 100000) (q : Fin 32) :
    val_main_v37 (F := Ideal) x0 x1 x3 x4 x5 x6 x7 x8 x9 x10 (ix2 p q)
      = Cert.Gin.row (D := 6) (fun k => x0 (ix2 p k) + (val_main_v13 (F := Ideal) x0 x1) (ix2 p k)) (fun k1 k2 => x3 (ix2 k1 k2))
          (fun k => x4 (ix1 k)) (fun k2 c => x5 (ix2 k2 c)) (fun k => x6 (ix1 k)) (fun k => x9 (ix1 k))
          (fun k => Ideal.div (x7 (ix1 k)) (Ideal.sqrt (x10 (ix1 k) + Cert.Gin.eps))) (fun k => x8 (ix1 k)) q := by
  have iB : ∀ (a : Fin 100000) (b k : Fin 32), lidx_main_v21 (ix2 a b) k = ix2 a k := fun a b k => funext fun a => Fin.ext (by match a with | ⟨0, _⟩ => rfl | ⟨1, _⟩ => rfl)
  have jB : ∀ (a : Fin 100000) (b k : Fin 32), ridx_main_v21 (ix2 a b) k = ix2 k b := fun a b k => funext fun a => Fin.ext (by match a with | ⟨0, _⟩ => rfl | ⟨1, _⟩ => rfl)
  have iA : ∀ (a : Fin 100000) (b : Fin 32) (k : Fin 6), lidx_main_v15 (ix2 a b) k = ix2 a k := fun a b k => funext fun a => Fin.ext (by match a with | ⟨0, _⟩ => rfl | ⟨1, _⟩ => rfl)
  have jA : ∀ (a : Fin 100000) (b : Fin 32) (k : Fin 6), ridx_main_v15 (ix2 a b) k = ix2 k b := fun a b k => funext fun a => Fin.ext (by match a with | ⟨0, _⟩ => rfl | ⟨1, _⟩ => rfl)
  have r1 : ∀ (a : Fin 100000) (b : Fin 32), idx_main_v16 (idx_main_v17 (ix2 a b)) = ix1 b := fun a b => funext fun a => Fin.ext (by match a with | ⟨0, _⟩ => rfl)
  have r2 : ∀ (a : Fin 100000) (b : Fin 32), idx_main_v22 (idx_main_v23 (ix2 a b)) = ix1 b := fun a b => funext fun a => Fin.ext (by match a with | ⟨0, _⟩ => rfl)
  have r3 : ∀ (a : Fin 100000) (b : Fin 32), idx_main_v25 (idx_main_v26 (ix2 a b)) = ix1 b := fun a b => funext fun a => Fin.ext (by match a with | ⟨0, _⟩ => rfl)
  have r4 : ∀ (a : Fin 100000) (b : Fin 32), idx_main_v32 (idx_main_v33 (ix2 a b)) = ix1 b := fun a b => funext fun a => Fin.ext (by match a with | ⟨0, _⟩ => rfl)
  have r5 : ∀ (a : Fin 100000) (b : Fin 32), idx_main_v35 (idx_main_v36 (ix2 a b)) = ix1 b := fun a b => funext fun a => Fin.ext (by match a with | ⟨0, _⟩ => rfl)
  simp only [val_main_v37_apply, val_main_v34_apply, val_main_v27_apply, val_main_v24_apply, val_main_v21_apply, val_main_v20_apply, val_main_v18_apply, val_main_v15_apply, val_main_v14_apply, val_main_v17_apply, val_main_v16_apply, val_main_v19_apply, val_main_v23_apply, val_main_v22_apply, val_main_v26_apply, val_main_v25_apply, val_main_v33_apply, val_main_v32_apply, val_main_v31_apply, val_main_v30_apply, val_main_v29_apply, val_main_v28_apply, val_main_v36_apply, val_main_v35_apply, val_main_cst_1_apply, val_main_cst_2_apply,
    iB, jB, iA, jA, r1, r2, r3, r4, r5,
    Ideal.addf_def, Ideal.subf_def, Ideal.mulf_def, Ideal.maximumf_def, Ideal.hostDivf_def, Ideal.hostUnary_sqrt_def, Ideal.ofBits_def]
  rfl

/-- Layer 2 of the reference at node `p`, channel `q`: the row function of the node's combined row, the weights
    and the bias / mean / shift vectors read at their channel, the scale formed as `γ / sqrt (var + ε)`. -/
theorem layer2_at (x0 : (⟨S100000x6, .f32⟩ : BufTy).Contents (Elt Ideal)) (x1 : (⟨S2x1600000, .i32⟩ : BufTy).Contents (Elt Ideal)) (x3 : (⟨S6x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (x11 : (⟨S32x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal)) (x15 : (⟨S32, .f32⟩ : BufTy).Contents (Elt Ideal)) (x16 : (⟨S32, .f32⟩ : BufTy).Contents (Elt Ideal)) (x17 : (⟨S32, .f32⟩ : BufTy).Contents (Elt Ideal)) (x18 : (⟨S32, .f32⟩ : BufTy).Contents (Elt Ideal)) (p : Fin 100000) (q : Fin 32) :
    val_main_v75 (F := Ideal) x0 x1 x3 x4 x5 x6 x7 x8 x9 x10 x11 x12 x13 x14 x15 x16 x17 x18 (ix2 p q)
      = Cert.Gin.row (D := 32) (fun k => (val_main_v37 (F := Ideal) x0 x1 x3 x4 x5 x6 x7 x8 x9 x10) (ix2 p k) + (val_main_v51 (F := Ideal) x0 x1 x3 x4 x5 x6 x7 x8 x9 x10) (ix2 p k)) (fun k1 k2 => x11 (ix2 k1 k2))
          (fun k => x12 (ix1 k)) (fun k2 c => x13 (ix2 k2 c)) (fun k => x14 (ix1 k)) (fun k => x17 (ix1 k))
          (fun k => Ideal.div (x15 (ix1 k)) (Ideal.sqrt (x18 (ix1 k) + Cert.Gin.eps))) (fun k => x16 (ix1 k)) q := by
  have iB : ∀ (a : Fin 100000) (b k : Fin 32), lidx_main_v59 (ix2 a b) k = ix2 a k := fun a b k => funext fun a => Fin.ext (by match a with | ⟨0, _⟩ => rfl | ⟨1, _⟩ => rfl)
  have jB : ∀ (a : Fin 100000) (b k : Fin 32), ridx_main_v59 (ix2 a b) k = ix2 k b := fun a b k => funext fun a => Fin.ext (by match a with | ⟨0, _⟩ => rfl | ⟨1, _⟩ => rfl)
  have iA : ∀ (a : Fin 100000) (b : Fin 32) (k : Fin 32), lidx_main_v53 (ix2 a b) k = ix2 a k := fun a b k => funext fun a => Fin.ext (by match a with | ⟨0, _⟩ => rfl | ⟨1, _⟩ => rfl)
  have jA : ∀ (a : Fin 100000) (b : Fin 32) (k : Fin 32), ridx_main_v53 (ix2 a b) k = ix2 k b := fun a b k => funext fun a => Fin.ext (by match a with | ⟨0, _⟩ => rfl | ⟨1, _⟩ => rfl)
  have r1 : ∀ (a : Fin 100000) (b : Fin 32), idx_main_v54 (idx_main_v55 (ix2 a b)) = ix1 b := fun a b => funext fun a => Fin.ext (by match a with | ⟨0, _⟩ => rfl)
  have r2 : ∀ (a : Fin 100000) (b : Fin 32), idx_main_v60 (idx_main_v61 (ix2 a b)) = ix1 b := fun a b => funext fun a => Fin.ext (by match a with | ⟨0, _⟩ => rfl)
  have r3 : ∀ (a : Fin 100000) (b : Fin 32), idx_main_v63 (idx_main_v64 (ix2 a b)) = ix1 b := fun a b => funext fun a => Fin.ext (by match a with | ⟨0, _⟩ => rfl)
  have r4 : ∀ (a : Fin 100000) (b : Fin 32), idx_main_v70 (idx_main_v71 (ix2 a b)) = ix1 b := fun a b => funext fun a => Fin.ext (by match a with | ⟨0, _⟩ => rfl)
  have r5 : ∀ (a : Fin 100000) (b : Fin 32), idx_main_v73 (idx_main_v74 (ix2 a b)) = ix1 b := fun a b => funext fun a => Fin.ext (by match a with | ⟨0, _⟩ => rfl)
  simp only [val_main_v75_apply, val_main_v72_apply, val_main_v65_apply, val_main_v62_apply, val_main_v59_apply, val_main_v58_apply, val_main_v56_apply, val_main_v53_apply, val_main_v52_apply, val_main_v55_apply, val_main_v54_apply, val_main_v57_apply, val_main_v61_apply, val_main_v60_apply, val_main_v64_apply, val_main_v63_apply, val_main_v71_apply, val_main_v70_apply, val_main_v69_apply, val_main_v68_apply, val_main_v67_apply, val_main_v66_apply, val_main_v74_apply, val_main_v73_apply, val_main_cst_6_apply, val_main_cst_7_apply,
    iB, jB, iA, jA, r1, r2, r3, r4, r5,
    Ideal.addf_def, Ideal.subf_def, Ideal.mulf_def, Ideal.maximumf_def, Ideal.hostDivf_def, Ideal.hostUnary_sqrt_def, Ideal.ofBits_def]
  rfl

/-- Layer 3 of the reference at node `p`, channel `q`: the row function of the node's combined row, the weights
    and the bias / mean / shift vectors read at their channel, the scale formed as `γ / sqrt (var + ε)`. -/
theorem layer3_at (x0 : (⟨S100000x6, .f32⟩ : BufTy).Contents (Elt Ideal)) (x1 : (⟨S2x1600000, .i32⟩ : BufTy).Contents (Elt Ideal)) (x3 : (⟨S6x32, .f32⟩ : BufTy).Contents (Elt Ideal)) (x4 : (⟨S32, .f32⟩ : BufTy).Contents (Elt Ideal)) (x5 : (⟨S32x32, .f32⟩ : BufTy).Contents (Elt Ideal)) (x6 : (⟨S32, .f32⟩ : BufTy).Contents (Elt Ideal)) (x7 : (⟨S32, .f32⟩ : BufTy).Contents (Elt Ideal)) (x8 : (⟨S32, .f32⟩ : BufTy).Contents (Elt Ideal)) (x9 : (⟨S32, .f32⟩ : BufTy).Contents (Elt Ideal)) (x10 : (⟨S32, .f32⟩ : BufTy).Contents (Elt Ideal)) (x11 : (⟨S32x32, .f32⟩ : BufTy).Contents (Elt Ideal)) (x12 : (⟨S32, .f32⟩ : BufTy).Contents (Elt Ideal)) (x13 : (⟨S32x32, .f32⟩ : BufTy).Contents (Elt Ideal)) (x14 : (⟨S32, .f32⟩ : BufTy).Contents (Elt Ideal)) (x15 : (⟨S32, .f32⟩ : BufTy).Contents (Elt Ideal)) (x16 : (⟨S32, .f32⟩ : BufTy).Contents (Elt Ideal)) (x17 : (⟨S32, .f32⟩ : BufTy).Contents (Elt Ideal)) (x18 : (⟨S32, .f32⟩ : BufTy).Contents (Elt Ideal)) (x19 : (⟨S32x32, .f32⟩ : BufTy).Contents (Elt Ideal)) (x20 : (⟨S32, .f32⟩ : BufTy).Contents (Elt Ideal)) (x21 : (⟨S32x32, .f32⟩ : BufTy).Contents (Elt Ideal)) (x22 : (⟨S32, .f32⟩ : BufTy).Contents (Elt Ideal)) (x23 : (⟨S32, .f32⟩ : BufTy).Contents (Elt Ideal)) (x24 : (⟨S32, .f32⟩ : BufTy).Contents (Elt Ideal)) (x25 : (⟨S32, .f32⟩ : BufTy).Contents (Elt Ideal)) (x26 : (⟨S32, .f32⟩ : BufTy).Contents (Elt Ideal)) (p : Fin 100000) (q : Fin 32) :
    val_main_v113 (F := Ideal) x0 x1 x3 x4 x5 x6 x7 x8 x9 x10 x11 x12 x13 x14 x15 x16 x17 x18 x19 x20 x21 x22 x23 x24 x25 x26 (ix2 p q)
      = Cert.Gin.row (D := 32) (fun k => (val_main_v75 (F := Ideal) x0 x1 x3 x4 x5 x6 x7 x8 x9 x10 x11 x12 x13 x14 x15 x16 x17 x18) (ix2 p k) + (val_main_v89 (F := Ideal) x0 x1 x3 x4 x5 x6 x7 x8 x9 x10 x11 x12 x13 x14 x15 x16 x17 x18) (ix2 p k)) (fun k1 k2 => x19 (ix2 k1 k2))
          (fun k => x20 (ix1 k)) (fun k2 c => x21 (ix2 k2 c)) (fun k => x22 (ix1 k)) (fun k => x25 (ix1 k))
          (fun k => Ideal.div (x23 (ix1 k)) (Ideal.sqrt (x26 (ix1 k) + Cert.Gin.eps))) (fun k => x24 (ix1 k)) q := by
  have iB : ∀ (a : Fin 100000) (b k : Fin 32), lidx_main_v97 (ix2 a b) k = ix2 a k := fun a b k => funext fun a => Fin.ext (by match a with | ⟨0, _⟩ => rfl | ⟨1, _⟩ => rfl)
  have jB : ∀ (a : Fin 100000) (b k : Fin 32), ridx_main_v97 (ix2 a b) k = ix2 k b := fun a b k => funext fun a => Fin.ext (by match a with | ⟨0, _⟩ => rfl | ⟨1, _⟩ => rfl)
  have iA : ∀ (a : Fin 100000) (b : Fin 32) (k : Fin 32), lidx_main_v91 (ix2 a b) k = ix2 a k := fun a b k => funext fun a => Fin.ext (by match a with | ⟨0, _⟩ => rfl | ⟨1, _⟩ => rfl)
  have jA : ∀ (a : Fin 100000) (b : Fin 32) (k : Fin 32), ridx_main_v91 (ix2 a b) k = ix2 k b := fun a b k => funext fun a => Fin.ext (by match a with | ⟨0, _⟩ => rfl | ⟨1, _⟩ => rfl)
  have r1 : ∀ (a : Fin 100000) (b : Fin 32), idx_main_v92 (idx_main_v93 (ix2 a b)) = ix1 b := fun a b => funext fun a => Fin.ext (by match a with | ⟨0, _⟩ => rfl)
  have r2 : ∀ (a : Fin 100000) (b : Fin 32), idx_main_v98 (idx_main_v99 (ix2 a b)) = ix1 b := fun a b => funext fun a => Fin.ext (by match a with | ⟨0, _⟩ => rfl)
  have r3 : ∀ (a : Fin 100000) (b : Fin 32), idx_main_v101 (idx_main_v102 (ix2 a b)) = ix1 b := fun a b => funext fun a => Fin.ext (by match a with | ⟨0, _⟩ => rfl)
  have r4 : ∀ (a : Fin 100000) (b : Fin 32), idx_main_v108 (idx_main_v109 (ix2 a b)) = ix1 b := fun a b => funext fun a => Fin.ext (by match a with | ⟨0, _⟩ => rfl)
  have r5 : ∀ (a : Fin 100000) (b : Fin 32), idx_main_v111 (idx_main_v112 (ix2 a b)) = ix1 b := fun a b => funext fun a => Fin.ext (by match a with | ⟨0, _⟩ => rfl)
  simp only [val_main_v113_apply, val_main_v110_apply, val_main_v103_apply, val_main_v100_apply, val_main_v97_apply, val_main_v96_apply, val_main_v94_apply, val_main_v91_apply, val_main_v90_apply, val_main_v93_apply, val_main_v92_apply, val_main_v95_apply, val_main_v99_apply, val_main_v98_apply, val_main_v102_apply, val_main_v101_apply, val_main_v109_apply, val_main_v108_apply, val_main_v107_apply, val_main_v106_apply, val_main_v105_apply, val_main_v104_apply, val_main_v112_apply, val_main_v111_apply, val_main_cst_11_apply, val_main_cst_12_apply,
    iB, jB, iA, jA, r1, r2, r3, r4, r5,
    Ideal.addf_def, Ideal.subf_def, Ideal.mulf_def, Ideal.maximumf_def, Ideal.hostDivf_def, Ideal.hostUnary_sqrt_def, Ideal.ofBits_def]
  rfl

end Cert.ReferenceIdeal.Layers

end
-- ==== Proof.KernelValue.lean ====
/-
  The kernel program's result is the reference's, as one function of the launch arguments.

  Walking the kernel program's boundaries from the launch: the host operations before each region gather each
  node's neighbours and add them up — the same operations on the same operands as the reference's — and recast the
  parameter vectors as rows; the region then applies the layer (KernelLayers), which for a non-negative variance is
  the reference's layer stage (`layer_bridge`). After three layers the host tail pools per graph and applies the
  decoder — again the reference's own operations. So the result buffer holds the reference's last stage.
-/
import proofs.«112878_j34256659153346_1_alg».proof.Proof.KernelLayers
import proofs.«112878_j34256659153346_1_alg».proof.Proof.KernelWalk
import proofs.«112878_j34256659153346_1_alg».proof.Proof.ReferenceRows
import Idealize.ShloMosaic.Lib.StableHlo.Run
import Idealize.ShloMosaic.Lib.ValueLayout

set_option maxRecDepth 16384

noncomputable section

namespace Cert.KernelIdeal.Value

open Cert.KernelIdeal Cert.KernelIdeal.Gen
open Idealize.ShloMosaic Idealize.ShloMosaic.TcCoe Idealize.ShloMosaic.StableHlo Idealize.ShloMosaic.ValueIdx Idealize.SL.Sem

/-! ## The two arrangements of a layer -/

/-- LAYER 1, the two arrangements: the kernel's layer on the node array, the aggregated array, the weights and the
    parameter vectors recast as `[1, 32]` rows IS the reference's layer-1 stage, as soon as the variance vector is
    non-negative (the one place the two differ is the scale, `γ · rsqrt (v + ε)` against `γ / sqrt (v + ε)`). -/
theorem layer1_bridge (x0 : (⟨Cert.ReferenceIdeal.S100000x6, .f32⟩ : BufTy).Contents (Elt Ideal)) (x1 : (⟨Cert.ReferenceIdeal.S2x1600000, .i32⟩ : BufTy).Contents (Elt Ideal)) (x3 : (⟨Cert.ReferenceIdeal.S6x32, .f32⟩ : BufTy).Contents (Elt Ideal)) (x4 : (⟨Cert.ReferenceIdeal.S32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal)) (x7 : (⟨Cert.ReferenceIdeal.S32, .f32⟩ : BufTy).Contents (Elt Ideal)) (x8 : (⟨Cert.ReferenceIdeal.S32, .f32⟩ : BufTy).Contents (Elt Ideal)) (x9 : (⟨Cert.ReferenceIdeal.S32, .f32⟩ : BufTy).Contents (Elt Ideal)) (x10 : (⟨Cert.ReferenceIdeal.S32, .f32⟩ : BufTy).Contents (Elt Ideal)) (hv : ∀ i, 0 ≤ x10 i) :
    Layers.layer6 x0 (Cert.ReferenceIdeal.Read.val_main_v13 (F := Ideal) x0 x1) x3 (shapeCast S1x32 x4 shapeCasts_S32_S1x32) x5 (shapeCast S1x32 x6 shapeCasts_S32_S1x32) (shapeCast S1x32 x7 shapeCasts_S32_S1x32) (shapeCast S1x32 x8 shapeCasts_S32_S1x32) (shapeCast S1x32 x9 shapeCasts_S32_S1x32) (shapeCast S1x32 x10 shapeCasts_S32_S1x32)
      = Cert.ReferenceIdeal.Read.val_main_v37 (F := Ideal) x0 x1 x3 x4 x5 x6 x7 x8 x9 x10 := by
  funext i
  obtain ⟨p, q, rfl⟩ : ∃ (p : Fin 100000) (q : Fin 32), i = ix2 p q := ⟨i 0, i 1, eq_ix2 i⟩
  rw [Cert.ReferenceIdeal.Layers.layer1_at]
  show Layers.layerAt6 _ _ _ _ _ _ _ _ _ _ p q = _
  unfold Layers.layerAt6
  simp only [shapeCast_a_1a_apply]
  exact Cert.Gin.row_congr_scale _ _ _ _ _ _ _ _ _ q (Cert.Gin.scale_eq _ _ (hv (ix1 q)))

/-- LAYER 2, the two arrangements: the kernel's layer on the node array, the aggregated array, the weights and the
    parameter vectors recast as `[1, 32]` rows IS the reference's layer-2 stage, as soon as the variance vector is
    non-negative (the one place the two differ is the scale, `γ · rsqrt (v + ε)` against `γ / sqrt (v + ε)`). -/
theorem layer2_bridge (x0 : (⟨Cert.ReferenceIdeal.S100000x6, .f32⟩ : BufTy).Contents (Elt Ideal)) (x1 : (⟨Cert.ReferenceIdeal.S2x1600000, .i32⟩ : BufTy).Contents (Elt Ideal)) (x3 : (⟨Cert.ReferenceIdeal.S6x32, .f32⟩ : BufTy).Contents (Elt Ideal)) (x4 : (⟨Cert.ReferenceIdeal.S32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal)) (x7 : (⟨Cert.ReferenceIdeal.S32, .f32⟩ : BufTy).Contents (Elt Ideal)) (x8 : (⟨Cert.ReferenceIdeal.S32, .f32⟩ : BufTy).Contents (Elt Ideal)) (x9 : (⟨Cert.ReferenceIdeal.S32, .f32⟩ : BufTy).Contents (Elt Ideal)) (x10 : (⟨Cert.ReferenceIdeal.S32, .f32⟩ : BufTy).Contents (Elt Ideal)) (x11 : (⟨Cert.ReferenceIdeal.S32x32, .f32⟩ : BufTy).Contents (Elt Ideal)) (x12 : (⟨Cert.ReferenceIdeal.S32, .f32⟩ : BufTy).Contents (Elt Ideal)) (x13 : (⟨Cert.ReferenceIdeal.S32x32, .f32⟩ : BufTy).Contents (Elt Ideal)) (x14 : (⟨Cert.ReferenceIdeal.S32, .f32⟩ : BufTy).Contents (Elt Ideal)) (x15 : (⟨Cert.ReferenceIdeal.S32, .f32⟩ : BufTy).Contents (Elt Ideal)) (x16 : (⟨Cert.ReferenceIdeal.S32, .f32⟩ : BufTy).Contents (Elt Ideal)) (x17 : (⟨Cert.ReferenceIdeal.S32, .f32⟩ : BufTy).Contents (Elt Ideal)) (x18 : (⟨Cert.ReferenceIdeal.S32, .f32⟩ : BufTy).Contents (Elt Ideal)) (hv : ∀ i, 0 ≤ x18 i) :
    Layers.layer32 (Cert.ReferenceIdeal.Read.val_main_v37 (F := Ideal) x0 x1 x3 x4 x5 x6 x7 x8 x9 x10) (Cert.ReferenceIdeal.Read.val_main_v51 (F := Ideal) x0 x1 x3 x4 x5 x6 x7 x8 x9 x10) x11 (shapeCast S1x32 x12 shapeCasts_S32_S1x32) x13 (shapeCast S1x32 x14 shapeCasts_S32_S1x32) (shapeCast S1x32 x15 shapeCasts_S32_S1x32) (shapeCast S1x32 x16 shapeCasts_S32_S1x32) (shapeCast S1x32 x17 shapeCasts_S32_S1x32) (shapeCast S1x32 x18 shapeCasts_S32_S1x32)
      = Cert.ReferenceIdeal.Read.val_main_v75 (F := Ideal) x0 x1 x3 x4 x5 x6 x7 x8 x9 x10 x11 x12 x13 x14 x15 x16 x17 x18 := by
  funext i
  obtain ⟨p, q, rfl⟩ : ∃ (p : Fin 100000) (q : Fin 32), i = ix2 p q := ⟨i 0, i 1, eq_ix2 i⟩
  rw [Cert.ReferenceIdeal.Layers.layer2_at]
  show Layers.layerAt32 _ _ _ _ _ _ _ _ _ _ p q = _
  unfold Layers.layerAt32
  simp only [shapeCast_a_1a_apply]
  exact Cert.Gin.row_congr_scale _ _ _ _ _ _ _ _ _ q (Cert.Gin.scale_eq _ _ (hv (ix1 q)))

/-- LAYER 3, the two arrangements: the kernel's layer on the node array, the aggregated array, the weights and the
    parameter vectors recast as `[1, 32]` rows IS the reference's layer-3 stage, as soon as the variance vector is
    non-negative (the one place the two differ is the scale, `γ · rsqrt (v + ε)` against `γ / sqrt (v + ε)`). -/
theorem layer3_bridge (x0 : (⟨Cert.ReferenceIdeal.S100000x6, .f32⟩ : BufTy).Contents (Elt Ideal)) (x1 : (⟨Cert.ReferenceIdeal.S2x1600000, .i32⟩ : BufTy).Contents (Elt Ideal)) (x3 : (⟨Cert.ReferenceIdeal.S6x32, .f32⟩ : BufTy).Contents (Elt Ideal)) (x4 : (⟨Cert.ReferenceIdeal.S32, .f32⟩ : BufTy).Contents (Elt Ideal)) (x5 : (⟨Cert.ReferenceIdeal.S32x32, .f32⟩ : BufTy).Contents (Elt Ideal)) (x6 : (⟨Cert.ReferenceIdeal.S32, .f32⟩ : BufTy).Contents (Elt Ideal)) (x7 : (⟨Cert.ReferenceIdeal.S32, .f32⟩ : BufTy).Contents (Elt Ideal)) (x8 : (⟨Cert.ReferenceIdeal.S32, .f32⟩ : BufTy).Contents (Elt Ideal)) (x9 : (⟨Cert.ReferenceIdeal.S32, .f32⟩ : BufTy).Contents (Elt Ideal)) (x10 : (⟨Cert.ReferenceIdeal.S32, .f32⟩ : BufTy).Contents (Elt Ideal)) (x11 : (⟨Cert.ReferenceIdeal.S32x32, .f32⟩ : BufTy).Contents (Elt Ideal)) (x12 : (⟨Cert.ReferenceIdeal.S32, .f32⟩ : BufTy).Contents (Elt Ideal)) (x13 : (⟨Cert.ReferenceIdeal.S32x32, .f32⟩ : BufTy).Contents (Elt Ideal)) (x14 : (⟨Cert.ReferenceIdeal.S32, .f32⟩ : BufTy).Contents (Elt Ideal)) (x15 : (⟨Cert.ReferenceIdeal.S32, .f32⟩ : BufTy).Contents (Elt Ideal)) (x16 : (⟨Cert.ReferenceIdeal.S32, .f32⟩ : BufTy).Contents (Elt Ideal)) (x17 : (⟨Cert.ReferenceIdeal.S32, .f32⟩ : BufTy).Contents (Elt Ideal)) (x18 : (⟨Cert.ReferenceIdeal.S32, .f32⟩ : BufTy).Contents (Elt Ideal)) (x19 : (⟨Cert.ReferenceIdeal.S32x32, .f32⟩ : BufTy).Contents (Elt Ideal)) (x20 : (⟨Cert.ReferenceIdeal.S32, .f32⟩ : BufTy).Contents (Elt Ideal)) (x21 : (⟨Cert.ReferenceIdeal.S32x32, .f32⟩ : BufTy).Contents (Elt Ideal)) (x22 : (⟨Cert.ReferenceIdeal.S32, .f32⟩ : BufTy).Contents (Elt Ideal)) (x23 : (⟨Cert.ReferenceIdeal.S32, .f32⟩ : BufTy).Contents (Elt Ideal)) (x24 : (⟨Cert.ReferenceIdeal.S32, .f32⟩ : BufTy).Contents (Elt Ideal)) (x25 : (⟨Cert.ReferenceIdeal.S32, .f32⟩ : BufTy).Contents (Elt Ideal)) (x26 : (⟨Cert.ReferenceIdeal.S32, .f32⟩ : BufTy).Contents (Elt Ideal)) (hv : ∀ i, 0 ≤ x26 i) :
    Layers.layer32 (Cert.ReferenceIdeal.Read.val_main_v75 (F := Ideal) x0 x1 x3 x4 x5 x6 x7 x8 x9 x10 x11 x12 x13 x14 x15 x16 x17 x18) (Cert.ReferenceIdeal.Read.val_main_v89 (F := Ideal) x0 x1 x3 x4 x5 x6 x7 x8 x9 x10 x11 x12 x13 x14 x15 x16 x17 x18) x19 (shapeCast S1x32 x20 shapeCasts_S32_S1x32) x21 (shapeCast S1x32 x22 shapeCasts_S32_S1x32) (shapeCast S1x32 x23 shapeCasts_S32_S1x32) (shapeCast S1x32 x24 shapeCasts_S32_S1x32) (shapeCast S1x32 x25 shapeCasts_S32_S1x32) (shapeCast S1x32 x26 shapeCasts_S32_S1x32)
      = Cert.ReferenceIdeal.Read.val_main_v113 (F := Ideal) x0 x1 x3 x4 x5 x6 x7 x8 x9 x10 x11 x12 x13 x14 x15 x16 x17 x18 x19 x20 x21 x22 x23 x24 x25 x26 := by
  funext i
  obtain ⟨p, q, rfl⟩ : ∃ (p : Fin 100000) (q : Fin 32), i = ix2 p q := ⟨i 0, i 1, eq_ix2 i⟩
  rw [Cert.ReferenceIdeal.Layers.layer3_at]
  show Layers.layerAt32 _ _ _ _ _ _ _ _ _ _ p q = _
  unfold Layers.layerAt32
  simp only [shapeCast_a_1a_apply]
  exact Cert.Gin.row_congr_scale _ _ _ _ _ _ _ _ _ q (Cert.Gin.scale_eq _ _ (hv (ix1 q)))

variable (m : (ℓ : Loc nD τ sig) → Buf (Elt Ideal) ℓ) (ρ : Dev nD → PrngReg) (c : Dev nD)

/-- Argument 0 as launched, typed as the reference reads it. -/
abbrev A0 : (⟨Cert.ReferenceIdeal.S100000x6, .f32⟩ : BufTy).Contents (Elt Ideal) := m ((c : Thread nD τ).loc main_arg0)
/-- Argument 1 as launched, typed as the reference reads it. -/
abbrev A1 : (⟨Cert.ReferenceIdeal.S2x1600000, .i32⟩ : BufTy).Contents (Elt Ideal) := m ((c : Thread nD τ).loc main_arg1)
/-- Argument 2 as launched, typed as the reference reads it. -/
abbrev A2 : (⟨Cert.ReferenceIdeal.S100000, .i32⟩ : BufTy).Contents (Elt Ideal) := m ((c : Thread nD τ).loc main_arg2)
/-- Argument 3 as launched, typed as the reference reads it. -/
abbrev A3 : (⟨Cert.ReferenceIdeal.S6x32, .f32⟩ : BufTy).Contents (Elt Ideal) := m ((c : Thread nD τ).loc main_arg3)
/-- Argument 4 as launched, typed as the reference reads it. -/
abbrev A4 : (⟨Cert.ReferenceIdeal.S32, .f32⟩ : BufTy).Contents (Elt Ideal) := m ((c : Thread nD τ).loc main_arg4)
/-- Argument 5 as launched, typed as the reference reads it. -/
abbrev A5 : (⟨Cert.ReferenceIdeal.S32x32, .f32⟩ : BufTy).Contents (Elt Ideal) := m ((c : Thread nD τ).loc main_arg5)
/-- Argument 6 as launched, typed as the reference reads it. -/
abbrev A6 : (⟨Cert.ReferenceIdeal.S32, .f32⟩ : BufTy).Contents (Elt Ideal) := m ((c : Thread nD τ).loc main_arg6)
/-- Argument 7 as launched, typed as the reference reads it. -/
abbrev A7 : (⟨Cert.ReferenceIdeal.S32, .f32⟩ : BufTy).Contents (Elt Ideal) := m ((c : Thread nD τ).loc main_arg7)
/-- Argument 8 as launched, typed as the reference reads it. -/
abbrev A8 : (⟨Cert.ReferenceIdeal.S32, .f32⟩ : BufTy).Contents (Elt Ideal) := m ((c : Thread nD τ).loc main_arg8)
/-- Argument 9 as launched, typed as the reference reads it. -/
abbrev A9 : (⟨Cert.ReferenceIdeal.S32, .f32⟩ : BufTy).Contents (Elt Ideal) := m ((c : Thread nD τ).loc main_arg9)
/-- Argument 10 as launched, typed as the reference reads it. -/
abbrev A10 : (⟨Cert.ReferenceIdeal.S32, .f32⟩ : BufTy).Contents (Elt Ideal) := m ((c : Thread nD τ).loc main_arg10)
/-- Argument 11 as launched, typed as the reference reads it. -/
abbrev A11 : (⟨Cert.ReferenceIdeal.S32x32, .f32⟩ : BufTy).Contents (Elt Ideal) := m ((c : Thread nD τ).loc main_arg11)
/-- Argument 12 as launched, typed as the reference reads it. -/
abbrev A12 : (⟨Cert.ReferenceIdeal.S32, .f32⟩ : BufTy).Contents (Elt Ideal) := m ((c : Thread nD τ).loc main_arg12)
/-- Argument 13 as launched, typed as the reference reads it. -/
abbrev A13 : (⟨Cert.ReferenceIdeal.S32x32, .f32⟩ : BufTy).Contents (Elt Ideal) := m ((c : Thread nD τ).loc main_arg13)
/-- Argument 14 as launched, typed as the reference reads it. -/
abbrev A14 : (⟨Cert.ReferenceIdeal.S32, .f32⟩ : BufTy).Contents (Elt Ideal) := m ((c : Thread nD τ).loc main_arg14)
/-- Argument 15 as launched, typed as the reference reads it. -/
abbrev A15 : (⟨Cert.ReferenceIdeal.S32, .f32⟩ : BufTy).Contents (Elt Ideal) := m ((c : Thread nD τ).loc main_arg15)
/-- Argument 16 as launched, typed as the reference reads it. -/
abbrev A16 : (⟨Cert.ReferenceIdeal.S32, .f32⟩ : BufTy).Contents (Elt Ideal) := m ((c : Thread nD τ).loc main_arg16)
/-- Argument 17 as launched, typed as the reference reads it. -/
abbrev A17 : (⟨Cert.ReferenceIdeal.S32, .f32⟩ : BufTy).Contents (Elt Ideal) := m ((c : Thread nD τ).loc main_arg17)
/-- Argument 18 as launched, typed as the reference reads it. -/
abbrev A18 : (⟨Cert.ReferenceIdeal.S32, .f32⟩ : BufTy).Contents (Elt Ideal) := m ((c : Thread nD τ).loc main_arg18)
/-- Argument 19 as launched, typed as the reference reads it. -/
abbrev A19 : (⟨Cert.ReferenceIdeal.S32x32, .f32⟩ : BufTy).Contents (Elt Ideal) := m ((c : Thread nD τ).loc main_arg19)
/-- Argument 20 as launched, typed as the reference reads it. -/
abbrev A20 : (⟨Cert.ReferenceIdeal.S32, .f32⟩ : BufTy).Contents (Elt Ideal) := m ((c : Thread nD τ).loc main_arg20)
/-- Argument 21 as launched, typed as the reference reads it. -/
abbrev A21 : (⟨Cert.ReferenceIdeal.S32x32, .f32⟩ : BufTy).Contents (Elt Ideal) := m ((c : Thread nD τ).loc main_arg21)
/-- Argument 22 as launched, typed as the reference reads it. -/
abbrev A22 : (⟨Cert.ReferenceIdeal.S32, .f32⟩ : BufTy).Contents (Elt Ideal) := m ((c : Thread nD τ).loc main_arg22)
/-- Argument 23 as launched, typed as the reference reads it. -/
abbrev A23 : (⟨Cert.ReferenceIdeal.S32, .f32⟩ : BufTy).Contents (Elt Ideal) := m ((c : Thread nD τ).loc main_arg23)
/-- Argument 24 as launched, typed as the reference reads it. -/
abbrev A24 : (⟨Cert.ReferenceIdeal.S32, .f32⟩ : BufTy).Contents (Elt Ideal) := m ((c : Thread nD τ).loc main_arg24)
/-- Argument 25 as launched, typed as the reference reads it. -/
abbrev A25 : (⟨Cert.ReferenceIdeal.S32, .f32⟩ : BufTy).Contents (Elt Ideal) := m ((c : Thread nD τ).loc main_arg25)
/-- Argument 26 as launched, typed as the reference reads it. -/
abbrev A26 : (⟨Cert.ReferenceIdeal.S32, .f32⟩ : BufTy).Contents (Elt Ideal) := m ((c : Thread nD τ).loc main_arg26)
/-- Argument 27 as launched, typed as the reference reads it. -/
abbrev A27 : (⟨Cert.ReferenceIdeal.S32x16, .f32⟩ : BufTy).Contents (Elt Ideal) := m ((c : Thread nD τ).loc main_arg27)
/-- Argument 28 as launched, typed as the reference reads it. -/
abbrev A28 : (⟨Cert.ReferenceIdeal.S16, .f32⟩ : BufTy).Contents (Elt Ideal) := m ((c : Thread nD τ).loc main_arg28)
/-- Argument 29 as launched, typed as the reference reads it. -/
abbrev A29 : (⟨Cert.ReferenceIdeal.S16x1, .f32⟩ : BufTy).Contents (Elt Ideal) := m ((c : Thread nD τ).loc main_arg29)
/-- Argument 30 as launched, typed as the reference reads it. -/
abbrev A30 : (⟨Cert.ReferenceIdeal.S1, .f32⟩ : BufTy).Contents (Elt Ideal) := m ((c : Thread nD τ).loc main_arg30)

/-! ## Region 0: what it is entered with, and what it leaves -/

theorem entry0_x : V1 m ρ c main_arg0 = A0 m c := by
  show StableHlo.after hostOps0 (W0 m ρ c) (Proc.devRef .tc main_arg0) = _
  after_results_simp <;> rfl
theorem entry0_agg : V1 m ρ c main_v13 = Cert.ReferenceIdeal.Read.val_main_v13 (F := Ideal) (A0 m c) (A1 m c) := by
  show StableHlo.after hostOps0 (W0 m ρ c) (Proc.devRef .tc main_v13) = _
  after_results_simp
  rfl
theorem entry0_wa : V1 m ρ c main_arg3 = A3 m c := by
  show StableHlo.after hostOps0 (W0 m ρ c) (Proc.devRef .tc main_arg3) = _
  after_results_simp <;> rfl
theorem entry0_ba : V1 m ρ c main_v14 = shapeCast S1x32 (A4 m c) shapeCasts_S32_S1x32 := by
  show StableHlo.after hostOps0 (W0 m ρ c) (Proc.devRef .tc main_v14) = _
  after_results_simp
  rfl
theorem entry0_wb : V1 m ρ c main_arg5 = A5 m c := by
  show StableHlo.after hostOps0 (W0 m ρ c) (Proc.devRef .tc main_arg5) = _
  after_results_simp <;> rfl
theorem entry0_bb : V1 m ρ c main_v15 = shapeCast S1x32 (A6 m c) shapeCasts_S32_S1x32 := by
  show StableHlo.after hostOps0 (W0 m ρ c) (Proc.devRef .tc main_v15) = _
  after_results_simp
  rfl
theorem entry0_g : V1 m ρ c main_v16 = shapeCast S1x32 (A7 m c) shapeCasts_S32_S1x32 := by
  show StableHlo.after hostOps0 (W0 m ρ c) (Proc.devRef .tc main_v16) = _
  after_results_simp
  rfl
theorem entry0_bt : V1 m ρ c main_v17 = shapeCast S1x32 (A8 m c) shapeCasts_S32_S1x32 := by
  show StableHlo.after hostOps0 (W0 m ρ c) (Proc.devRef .tc main_v17) = _
  after_results_simp
  rfl
theorem entry0_mm : V1 m ρ c main_v18 = shapeCast S1x32 (A9 m c) shapeCasts_S32_S1x32 := by
  show StableHlo.after hostOps0 (W0 m ρ c) (Proc.devRef .tc main_v18) = _
  after_results_simp
  rfl
theorem entry0_vv : V1 m ρ c main_v19 = shapeCast S1x32 (A10 m c) shapeCasts_S32_S1x32 := by
  show StableHlo.after hostOps0 (W0 m ρ c) (Proc.devRef .tc main_v19) = _
  after_results_simp
  rfl

/-- At region 0's exit its output array holds the reference's layer-1 stage of the launch arguments. -/
theorem out1_eq (hv1 : ∀ i, 0 ≤ A10 m c i) : W2 m ρ c (Proc.devRef .tc main_v20) = Cert.ReferenceIdeal.Read.val_main_v37 (F := Ideal) (A0 m c) (A1 m c) (A3 m c) (A4 m c) (A5 m c) (A6 m c) (A7 m c) (A8 m c) (A9 m c) (A10 m c) := by
  rw [show W2 m ρ c (Proc.devRef .tc main_v20) = (dat0 (V1 m ρ) c).arrAt 10 cfg0.N from W2_arr m ρ c 10]
  rw [Layers.out0 (V1 m ρ) c, entry0_x m ρ c , entry0_agg m ρ c , entry0_wa, entry0_ba, entry0_wb, entry0_bb, entry0_g, entry0_bt, entry0_mm, entry0_vv]
  exact layer1_bridge (A0 m c) (A1 m c) (A3 m c) (A4 m c) (A5 m c) (A6 m c) (A7 m c) (A8 m c) (A9 m c) (A10 m c) hv1

/-! ## Region 1: what it is entered with, and what it leaves -/

theorem entry1_x (hv1 : ∀ i, 0 ≤ A10 m c i) : V3 m ρ c main_v20 = Cert.ReferenceIdeal.Read.val_main_v37 (F := Ideal) (A0 m c) (A1 m c) (A3 m c) (A4 m c) (A5 m c) (A6 m c) (A7 m c) (A8 m c) (A9 m c) (A10 m c) := by
  show StableHlo.after hostOps1 (W2 m ρ c) (Proc.devRef .tc main_v20) = _
  after_results_simp
  exact out1_eq m ρ c hv1
theorem entry1_agg (hv1 : ∀ i, 0 ≤ A10 m c i) : V3 m ρ c main_v34 = Cert.ReferenceIdeal.Read.val_main_v51 (F := Ideal) (A0 m c) (A1 m c) (A3 m c) (A4 m c) (A5 m c) (A6 m c) (A7 m c) (A8 m c) (A9 m c) (A10 m c) := by
  show StableHlo.after hostOps1 (W2 m ρ c) (Proc.devRef .tc main_v34) = _
  after_results_simp
  rw [out1_eq m ρ c hv1, Walk.W2_arg1 m ρ c]
  rfl
theorem entry1_wa : V3 m ρ c main_arg11 = A11 m c := by
  show StableHlo.after hostOps1 (W2 m ρ c) (Proc.devRef .tc main_arg11) = _
  after_results_simp
  exact Walk.W2_arg11 m ρ c
theorem entry1_ba : V3 m ρ c main_v35 = shapeCast S1x32 (A12 m c) shapeCasts_S32_S1x32 := by
  show StableHlo.after hostOps1 (W2 m ρ c) (Proc.devRef .tc main_v35) = _
  after_results_simp
  rw [Walk.W2_arg12 m ρ c]
  rfl
theorem entry1_wb : V3 m ρ c main_arg13 = A13 m c := by
  show StableHlo.after hostOps1 (W2 m ρ c) (Proc.devRef .tc main_arg13) = _
  after_results_simp
  exact Walk.W2_arg13 m ρ c
theorem entry1_bb : V3 m ρ c main_v36 = shapeCast S1x32 (A14 m c) shapeCasts_S32_S1x32 := by
  show StableHlo.after hostOps1 (W2 m ρ c) (Proc.devRef .tc main_v36) = _
  after_results_simp
  rw [Walk.W2_arg14 m ρ c]
  rfl
theorem entry1_g : V3 m ρ c main_v37 = shapeCast S1x32 (A15 m c) shapeCasts_S32_S1x32 := by
  show StableHlo.after hostOps1 (W2 m ρ c) (Proc.devRef .tc main_v37) = _
  after_results_simp
  rw [Walk.W2_arg15 m ρ c]
  rfl
theorem entry1_bt : V3 m ρ c main_v38 = shapeCast S1x32 (A16 m c) shapeCasts_S32_S1x32 := by
  show StableHlo.after hostOps1 (W2 m ρ c) (Proc.devRef .tc main_v38) = _
  after_results_simp
  rw [Walk.W2_arg16 m ρ c]
  rfl
theorem entry1_mm : V3 m ρ c main_v39 = shapeCast S1x32 (A17 m c) shapeCasts_S32_S1x32 := by
  show StableHlo.after hostOps1 (W2 m ρ c) (Proc.devRef .tc main_v39) = _
  after_results_simp
  rw [Walk.W2_arg17 m ρ c]
  rfl
theorem entry1_vv : V3 m ρ c main_v40 = shapeCast S1x32 (A18 m c) shapeCasts_S32_S1x32 := by
  show StableHlo.after hostOps1 (W2 m ρ c) (Proc.devRef .tc main_v40) = _
  after_results_simp
  rw [Walk.W2_arg18 m ρ c]
  rfl

/-- At region 1's exit its output array holds the reference's layer-2 stage of the launch arguments. -/
theorem out2_eq (hv1 : ∀ i, 0 ≤ A10 m c i) (hv2 : ∀ i, 0 ≤ A18 m c i) : W4 m ρ c (Proc.devRef .tc main_v41) = Cert.ReferenceIdeal.Read.val_main_v75 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) := by
  rw [show W4 m ρ c (Proc.devRef .tc main_v41) = (dat1 (V3 m ρ) c).arrAt 10 cfg1.N from W4_arr m ρ c 10]
  rw [Layers.out1 (V3 m ρ) c, entry1_x m ρ c hv1, entry1_agg m ρ c hv1, entry1_wa, entry1_ba, entry1_wb, entry1_bb, entry1_g, entry1_bt, entry1_mm, entry1_vv]
  exact layer2_bridge (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) hv2

/-! ## Region 2: what it is entered with, and what it leaves -/

theorem entry2_x (hv1 : ∀ i, 0 ≤ A10 m c i) (hv2 : ∀ i, 0 ≤ A18 m c i) : V5 m ρ c main_v41 = Cert.ReferenceIdeal.Read.val_main_v75 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) := by
  show StableHlo.after hostOps2 (W4 m ρ c) (Proc.devRef .tc main_v41) = _
  after_results_simp
  exact out2_eq m ρ c hv1 hv2
theorem entry2_agg (hv1 : ∀ i, 0 ≤ A10 m c i) (hv2 : ∀ i, 0 ≤ A18 m c i) : V5 m ρ c main_v55 = Cert.ReferenceIdeal.Read.val_main_v89 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) := by
  show StableHlo.after hostOps2 (W4 m ρ c) (Proc.devRef .tc main_v55) = _
  after_results_simp
  rw [out2_eq m ρ c hv1 hv2, Walk.W4_arg1 m ρ c]
  rfl
theorem entry2_wa : V5 m ρ c main_arg19 = A19 m c := by
  show StableHlo.after hostOps2 (W4 m ρ c) (Proc.devRef .tc main_arg19) = _
  after_results_simp
  exact Walk.W4_arg19 m ρ c
theorem entry2_ba : V5 m ρ c main_v56 = shapeCast S1x32 (A20 m c) shapeCasts_S32_S1x32 := by
  show StableHlo.after hostOps2 (W4 m ρ c) (Proc.devRef .tc main_v56) = _
  after_results_simp
  rw [Walk.W4_arg20 m ρ c]
  rfl
theorem entry2_wb : V5 m ρ c main_arg21 = A21 m c := by
  show StableHlo.after hostOps2 (W4 m ρ c) (Proc.devRef .tc main_arg21) = _
  after_results_simp
  exact Walk.W4_arg21 m ρ c
theorem entry2_bb : V5 m ρ c main_v57 = shapeCast S1x32 (A22 m c) shapeCasts_S32_S1x32 := by
  show StableHlo.after hostOps2 (W4 m ρ c) (Proc.devRef .tc main_v57) = _
  after_results_simp
  rw [Walk.W4_arg22 m ρ c]
  rfl
theorem entry2_g : V5 m ρ c main_v58 = shapeCast S1x32 (A23 m c) shapeCasts_S32_S1x32 := by
  show StableHlo.after hostOps2 (W4 m ρ c) (Proc.devRef .tc main_v58) = _
  after_results_simp
  rw [Walk.W4_arg23 m ρ c]
  rfl
theorem entry2_bt : V5 m ρ c main_v59 = shapeCast S1x32 (A24 m c) shapeCasts_S32_S1x32 := by
  show StableHlo.after hostOps2 (W4 m ρ c) (Proc.devRef .tc main_v59) = _
  after_results_simp
  rw [Walk.W4_arg24 m ρ c]
  rfl
theorem entry2_mm : V5 m ρ c main_v60 = shapeCast S1x32 (A25 m c) shapeCasts_S32_S1x32 := by
  show StableHlo.after hostOps2 (W4 m ρ c) (Proc.devRef .tc main_v60) = _
  after_results_simp
  rw [Walk.W4_arg25 m ρ c]
  rfl
theorem entry2_vv : V5 m ρ c main_v61 = shapeCast S1x32 (A26 m c) shapeCasts_S32_S1x32 := by
  show StableHlo.after hostOps2 (W4 m ρ c) (Proc.devRef .tc main_v61) = _
  after_results_simp
  rw [Walk.W4_arg26 m ρ c]
  rfl

/-- At region 2's exit its output array holds the reference's layer-3 stage of the launch arguments. -/
theorem out3_eq (hv1 : ∀ i, 0 ≤ A10 m c i) (hv2 : ∀ i, 0 ≤ A18 m c i) (hv3 : ∀ i, 0 ≤ A26 m c i) : W6 m ρ c (Proc.devRef .tc main_v62) = Cert.ReferenceIdeal.Read.val_main_v113 (F := Ideal) (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) := by
  rw [show W6 m ρ c (Proc.devRef .tc main_v62) = (dat2 (V5 m ρ) c).arrAt 10 cfg2.N from W6_arr m ρ c 10]
  rw [Layers.out2 (V5 m ρ) c, entry2_x m ρ c hv1 hv2, entry2_agg m ρ c hv1 hv2, entry2_wa, entry2_ba, entry2_wb, entry2_bb, entry2_g, entry2_bt, entry2_mm, entry2_vv]
  exact layer3_bridge (A0 m c) (A1 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) hv3

/-! ## The tail -/

/-- THE RESULT: the last boundary's contents at the result buffer are the reference's last stage of the launch arguments. -/
theorem result (hv1 : ∀ i, 0 ≤ A10 m c i) (hv2 : ∀ i, 0 ≤ A18 m c i) (hv3 : ∀ i, 0 ≤ A26 m c i) :
    W7 m ρ c (Proc.devRef .tc main_v90) = Cert.ReferenceIdeal.Read.val_main_v141 (F := Ideal) (A0 m c) (A1 m c) (A2 m c) (A3 m c) (A4 m c) (A5 m c) (A6 m c) (A7 m c) (A8 m c) (A9 m c) (A10 m c) (A11 m c) (A12 m c) (A13 m c) (A14 m c) (A15 m c) (A16 m c) (A17 m c) (A18 m c) (A19 m c) (A20 m c) (A21 m c) (A22 m c) (A23 m c) (A24 m c) (A25 m c) (A26 m c) (A27 m c) (A28 m c) (A29 m c) (A30 m c) := by
  show StableHlo.after hostOps3 (W6 m ρ c) (Proc.devRef .tc main_v90) = _
  after_results_simp
  rw [out3_eq m ρ c hv1 hv2 hv3, Walk.W6_arg2 m ρ c, Walk.W6_arg27 m ρ c, Walk.W6_arg28 m ρ c, Walk.W6_arg29 m ρ c, Walk.W6_arg30 m ρ c]
  rfl

end Cert.KernelIdeal.Value

end
-- ==== Proof.PreVar.lean ====
/-
  The variances are non-negative: the three conjuncts added to the precondition, read out of it.

  The precondition is one conjunction of `jnp.all` tests; its last three say that every entry of each layer's
  running variance is at least the binary32 zero. Splitting the conjunction from the outside gives those three,
  each a reduction by `and` of element-wise comparisons, hence the comparison at every index.
-/
import proofs.«112878_j34256659153346_1_alg».proof.Proof.Gen.Pre_finite_inputs
import Idealize.ShloMosaic.Lib.ReduceAll
import Idealize.ShloMosaic.Lib.ValueIdx
import Idealize.ShloMosaic.PureOps.Ideal.Laws

set_option maxRecDepth 16384

noncomputable section

namespace Cert.Pre_finite_inputs.Var

open Cert.Pre_finite_inputs Cert.Pre_finite_inputs.Facts Idealize.ShloMosaic Idealize.ShloMosaic.ValueIdx

instance : Subsingleton S_.Idx := ⟨fun a b => funext fun d => d.elim0⟩

/-- The ordered comparison `x ≥ 0.0` answering one means `0 ≤ x`. -/
theorem nonneg_of_cmp (x : EReal) (h : FloatOps.cmpf (F := Ideal) .oge x (Ideal.ofBits .f32 0x00000000#32) = 1#1) : 0 ≤ x := by
  have h' : BitVec.ofBool (decide (Ideal.ofBits .f32 0x00000000#32 ≤ x)) = 1#1 := h
  rw [Ideal.ofBits_zero_f32] at h'
  by_contra hx
  rw [decide_eq_false hx] at h'
  exact absurd h' (by decide)

/-- One `jnp.all (v ≥ 0)` conjunct at an index. -/
theorem all_ge (v : FVec Ideal S32 .f32)
    (h : Host.reduce IntOp.andi (cmpf .oge v (broadcastInDim S32 ![] bcast_S_S32 (constant (F := Ideal) S_ .f32 0x00000000#32)))
          (constantI S_ 1 1#1) reducesTo_S32_S_d0 h_S_ ix0 = 1#1) (i : S32.Idx) : 0 ≤ v i :=
  nonneg_of_cmp (v i) (Host.reduce_andi_all _ _ reducesTo_S32_S_d0 h_S_ ix0 h i)

/-- THE PRECONDITION's last three conjuncts: every entry of each layer's variance vector is non-negative. -/
theorem var_nonneg (a0 : FVec Ideal S100000x6 .f32) (a1 : IVec S2x1600000 32) (a2 : IVec S100000 32) (a3 : FVec Ideal S6x32 .f32) (a4 : FVec Ideal S32 .f32) (a5 : FVec Ideal S32x32 .f32) (a6 : FVec Ideal S32 .f32) (a7 : FVec Ideal S32 .f32) (a8 : FVec Ideal S32 .f32) (a9 : FVec Ideal S32 .f32) (a10 : FVec Ideal S32 .f32) (a11 : FVec Ideal S32x32 .f32) (a12 : FVec Ideal S32 .f32) (a13 : FVec Ideal S32x32 .f32) (a14 : FVec Ideal S32 .f32) (a15 : FVec Ideal S32 .f32) (a16 : FVec Ideal S32 .f32) (a17 : FVec Ideal S32 .f32) (a18 : FVec Ideal S32 .f32) (a19 : FVec Ideal S32x32 .f32) (a20 : FVec Ideal S32 .f32) (a21 : FVec Ideal S32x32 .f32) (a22 : FVec Ideal S32 .f32) (a23 : FVec Ideal S32 .f32) (a24 : FVec Ideal S32 .f32) (a25 : FVec Ideal S32 .f32) (a26 : FVec Ideal S32 .f32) (a27 : FVec Ideal S32x16 .f32) (a28 : FVec Ideal S16 .f32) (a29 : FVec Ideal S16x1 .f32) (a30 : FVec Ideal S1 .f32)
    (h : fn (F := Ideal) a0 a1 a2 a3 a4 a5 a6 a7 a8 a9 a10 a11 a12 a13 a14 a15 a16 a17 a18 a19 a20 a21 a22 a23 a24 a25 a26 a27 a28 a29 a30 = (fun _ => 1#1)) :
    (∀ i, 0 ≤ a10 i) ∧ (∀ i, 0 ≤ a18 i) ∧ (∀ i, 0 ≤ a26 i) := by
  have e := congrFun h ix0
  dsimp only [fn, fn_part1, fn_part2, fn_part3, fn_part4, fn_part5, fn_part6, fn_part7, fn_part8, fn_part9] at e
  obtain ⟨e2, h26⟩ := IntOp.andi_eq_one.mp e
  obtain ⟨e3, h18⟩ := IntOp.andi_eq_one.mp e2
  obtain ⟨-, h10⟩ := IntOp.andi_eq_one.mp e3
  exact ⟨all_ge a10 h10, all_ge a18 h18, all_ge a26 h26⟩

end Cert.Pre_finite_inputs.Var

end
-- ==== Proof.lean ====
/-
  The certificate: a three-layer graph-isomorphism network with a pooled decoder, as a Pallas program of three
  kernel regions among host operations, against its plain jnp reference.

  Both programs gather each node's neighbours and add them up on the host, apply a two-layer perceptron and an
  inference-time batch normalisation to every node, three times over, then average per graph and decode. The kernel
  program runs the perceptron and the normalisation of each layer as a tiled kernel over blocks of 10000 nodes,
  forming the normalisation's scale as `γ · rsqrt (var + ε)`; the reference runs them as whole-array operations
  with the scale `γ / sqrt (var + ε)`. Over the extended reals the matrix products, the tiling and the change of
  float format make no difference, and the two scales are one number as soon as `var + ε` is positive — which the
  precondition's `var ≥ 0` gives (for a negative `var + ε` the reciprocal root and the root take different values
  outside their domain, and the two programs' results differ).

  The frames are the generated ones (the reference's is its generated run with the result dropped); the ideal pass
  changed nothing, so `preserves` is trivial; `algebraic` puts the kernel program's run (KernelRun), its result as
  the reference's last stage of the arguments (KernelValue), and the reference's generated run side by side.
-/
import proofs.«112878_j34256659153346_1_alg».proof.Defs
import proofs.«112878_j34256659153346_1_alg».proof.Proof.Gen.Kernel
import proofs.«112878_j34256659153346_1_alg».proof.Proof.Gen.Kernel.Skeleton
import proofs.«112878_j34256659153346_1_alg».proof.Proof.Gen.Kernel.Launch
import proofs.«112878_j34256659153346_1_alg».proof.Proof.Gen.Kernel.Points
import proofs.«112878_j34256659153346_1_alg».proof.Proof.Gen.Kernel.Frame
import proofs.«112878_j34256659153346_1_alg».proof.Proof.Gen.KernelIdeal
import proofs.«112878_j34256659153346_1_alg».proof.Proof.Gen.KernelIdeal.Skeleton
import proofs.«112878_j34256659153346_1_alg».proof.Proof.Gen.KernelIdeal.Launch
import proofs.«112878_j34256659153346_1_alg».proof.Proof.Gen.KernelIdeal.Points
import proofs.«112878_j34256659153346_1_alg».proof.Proof.Gen.KernelIdeal.Frame
import proofs.«112878_j34256659153346_1_alg».proof.Proof.Gen.ReferenceIdeal
import proofs.«112878_j34256659153346_1_alg».proof.Proof.Gen.ReferenceIdeal.Run
import proofs.«112878_j34256659153346_1_alg».proof.Proof.Gen.ReferenceIdeal.Read
import proofs.«112878_j34256659153346_1_alg».proof.Proof.Gen.Pre_finite_inputs
import proofs.«112878_j34256659153346_1_alg».proof.Proof.KernelRun
import proofs.«112878_j34256659153346_1_alg».proof.Proof.KernelValue
import proofs.«112878_j34256659153346_1_alg».proof.Proof.PreVar
import Idealize.ShloMosaic.Adequacy
import Idealize.ShloMosaic.Init

set_option maxRecDepth 16384

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- From memories agreeing on the arguments, with non-negative variances, both idealized programs end with the same
    result: the kernel program's result buffer holds the reference's last stage of ITS arguments (the three layers
    one after the other, then the tail), and the reference's holds that stage of its own, which are the same arrays. -/
theorem algebraic : Cert.algebraic_KernelIdeal_ReferenceIdeal := by
  intro m ρ m' ρ' hpre hagree
  have hv := fun c : Dev Cert.KernelIdeal.nD =>
    Cert.Pre_finite_inputs.Var.var_nonneg _ _ _ _ _ _ _ _ _ _ _ _ _ _ _ _ _ _ _ _ _ _ _ _ _ _ _ _ _ _ _ (hpre c)
  refine ⟨fun c => Cert.KernelIdeal.Gen.W7 m ρ c (Proc.devRef .tc Cert.KernelIdeal.main_v90),
    Cert.KernelIdeal.Run.run_result m ρ, ?_⟩
  refine (θ_run Cert.ReferenceIdeal.defs _ _).mono (fun r h c => ⟨(h c).1.trans ?_, (h c).2⟩)
    (Cert.ReferenceIdeal.Value.run (F := Ideal) m' ρ')
  rw [Cert.ReferenceIdeal.Read.val_main_v141_eq]
  obtain ⟨e0, e1, e2, e3, e4, e5, e6, e7, e8, e9, e10, e11, e12, e13, e14, e15, e16, e17, e18, e19, e20, e21, e22, e23, e24, e25, e26, e27, e28, e29, e30⟩ := hagree c
  rw [e0, e1, e2, e3, e4, e5, e6, e7, e8, e9, e10, e11, e12, e13, e14, e15, e16, e17, e18, e19, e20, e21, e22, e23, e24, e25, e26, e27, e28, e29, e30]
  exact (Cert.KernelIdeal.Value.result m ρ c (hv c).1 (hv c).2.1 (hv c).2.2).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
